-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S2x1600000 : Shape := ⟨2, ![2, 1600000]⟩
abbrev S100000 : Shape := ⟨1, ![100000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S128x128 .f32) (main_arg10 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128 .f32) (main_arg5 : FVec F S128x128 .f32) (main_arg6 : FVec F S128 .f32) (main_arg7 : FVec F S128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x256 .f32) (main_arg1 : FVec F S256x128 .f32) (main_arg2 : FVec F S128 .f32) (main_arg3 : FVec F S128 .f32) (main_arg4 : FVec F S128 .f32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : IVec S2x1600000 32) (main_arg12 : IVec S100000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_v13 main_v16
-- ==== Kernel.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S5000x256 : Shape := ⟨2, ![5000, 256]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩

abbrev nBuf : Space → Nat
  | .hbm => 163
  | .vmem => 34
  | .smem => 0
  | _ => 0

abbrev hbmTy0_0 (i : Nat) : BufTy := match i % 128 with
  | 0 => ⟨S100000x256, .f32⟩
  | 1 => ⟨S256x128, .f32⟩
  | 2 => ⟨S128, .f32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S2x1600000, .i32⟩
  | 12 => ⟨S100000, .i32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S100000x128, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S1600000x1, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S1x128, .f32⟩
  | 72 => ⟨S1x128, .f32⟩
  | 73 => ⟨S_, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S100000x128, .f32⟩
  | 84 => ⟨S100000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S1600000, .f32⟩
  | 104 => ⟨S1600000x1, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S1600000x128, .f32⟩
  | 115 => ⟨S1600000x128, .f32⟩
  | 116 => ⟨S_, .f32⟩
  | 117 => ⟨S100000x128, .f32⟩
  | 118 => ⟨S1600000x1, .i32⟩
  | 119 => ⟨S100000x128, .f32⟩
  | 120 => ⟨S100000, .f32⟩
  | 121 => ⟨S100000x1, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x256, .f32⟩

abbrev hbmTy0_1 (i : Nat) : BufTy := match i % 128 with
  | 0 => ⟨S1x128, .f32⟩
  | 1 => ⟨S1x128, .f32⟩
  | 2 => ⟨S_, .f32⟩
  | 3 => ⟨S1x128, .f32⟩
  | 4 => ⟨S1x128, .f32⟩
  | 5 => ⟨S_, .f32⟩
  | 6 => ⟨S1x128, .f32⟩
  | 7 => ⟨S1x128, .f32⟩
  | 8 => ⟨S1x128, .f32⟩
  | 9 => ⟨S1x128, .f32⟩
  | 10 => ⟨S1x128, .f32⟩
  | 11 => ⟨S1x128, .f32⟩
  | 12 => ⟨S100000x128, .f32⟩
  | 13 => ⟨S_, .f32⟩
  | 14 => ⟨S64x128, .f32⟩
  | 15 => ⟨S100000x1, .i32⟩
  | 16 => ⟨S64x128, .f32⟩
  | 17 => ⟨S_, .f32⟩
  | 18 => ⟨S100000, .f32⟩
  | 19 => ⟨S_, .f32⟩
  | 20 => ⟨S64, .f32⟩
  | 21 => ⟨S100000x1, .i32⟩
  | 22 => ⟨S64, .f32⟩
  | 23 => ⟨S_, .f32⟩
  | 24 => ⟨S_, .f32⟩
  | 25 => ⟨S64, .f32⟩
  | 26 => ⟨S64, .f32⟩
  | 27 => ⟨S64x1, .f32⟩
  | 28 => ⟨S64x128, .f32⟩
  | 29 => ⟨S64x128, .f32⟩
  | 30 => ⟨S128x128, .f32⟩
  | 31 => ⟨S64x128, .f32⟩
  | 32 => ⟨S1x128, .f32⟩
  | 33 => ⟨S64x128, .f32⟩
  | 34 => ⟨S64x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_10 : Ref sig .tc := ⟨.hbm, 85, rfl⟩
abbrev main_v59 : Ref sig .tc := ⟨.hbm, 86, rfl⟩
abbrev main_v60 : Ref sig .tc := ⟨.hbm, 87, rfl⟩
abbrev main_c_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_v75 : Ref sig .tc := ⟨.hbm, 106, rfl⟩
abbrev main_v76 : Ref sig .tc := ⟨.hbm, 107, rfl⟩
abbrev main_c_15 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_16 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95_0 : Ref sig .tc := ⟨.hbm, 128, rfl⟩
abbrev main_v95_1 : Ref sig .tc := ⟨.hbm, 129, rfl⟩
abbrev main_cst_17 : Ref sig .tc := ⟨.hbm, 130, rfl⟩
abbrev main_v96 : Ref sig .tc := ⟨.hbm, 131, rfl⟩
abbrev main_v97 : Ref sig .tc := ⟨.hbm, 132, rfl⟩
abbrev main_cst_18 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_19 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_20 : Ref sig .tc := ⟨.hbm, 145, rfl⟩
abbrev main_v108 : Ref sig .tc := ⟨.hbm, 146, rfl⟩
abbrev main_cst_21 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_22 : Ref sig .tc := ⟨.hbm, 151, rfl⟩
abbrev main_call0_v0 : Ref sig .tc := ⟨.hbm, 152, rfl⟩
abbrev main_call0_v1 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg5_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S128x128_S128x128_1_0 : S128x128.Transposes [1, 0] S128x128
  bcast_S1x128_S64x128_0_1 : S1x128.BroadcastsInDim S64x128 (![0, 1] : Fin 2 → Fin S64x128.rank)
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v94) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v95_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v95_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v94) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v101) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v102) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v103) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v104) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩

abbrev nBuf : Space → Nat
  | .hbm => 203
  | .vmem => 0
  | .smem => 0
  | _ => 0

abbrev hbmTy0_0 (i : Nat) : BufTy := match i % 128 with
  | 0 => ⟨S100000x256, .f32⟩
  | 1 => ⟨S256x128, .f32⟩
  | 2 => ⟨S128, .f32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S2x1600000, .i32⟩
  | 12 => ⟨S100000, .i32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S100000x128, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S1600000x1, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S128, .f32⟩
  | 73 => ⟨S_, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S100000x128, .f32⟩
  | 80 => ⟨S_, .f32⟩
  | 81 => ⟨S128, .f32⟩
  | 82 => ⟨S_, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S100000x128, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000, .f32⟩
  | 123 => ⟨S1600000, .f32⟩
  | 124 => ⟨S1600000x1, .f32⟩
  | 125 => ⟨S_, .i32⟩
  | 126 => ⟨S1600000, .i32⟩
  | 127 => ⟨S1600000, .i1⟩
  | _ => ⟨S100000x256, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x128, .f32⟩
  | 6 => ⟨S1600000x128, .f32⟩
  | 7 => ⟨S1600000x128, .f32⟩
  | 8 => ⟨S_, .f32⟩
  | 9 => ⟨S100000x128, .f32⟩
  | 10 => ⟨S1600000x1, .i32⟩
  | 11 => ⟨S100000x128, .f32⟩
  | 12 => ⟨S100000, .f32⟩
  | 13 => ⟨S100000x1, .f32⟩
  | 14 => ⟨S100000x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S128, .f32⟩
  | 22 => ⟨S_, .f32⟩
  | 23 => ⟨S128, .f32⟩
  | 24 => ⟨S128, .f32⟩
  | 25 => ⟨S1x128, .f32⟩
  | 26 => ⟨S100000x128, .f32⟩
  | 27 => ⟨S100000x128, .f32⟩
  | 28 => ⟨S100000x128, .f32⟩
  | 29 => ⟨S_, .f32⟩
  | 30 => ⟨S128, .f32⟩
  | 31 => ⟨S_, .f32⟩
  | 32 => ⟨S128, .f32⟩
  | 33 => ⟨S128, .f32⟩
  | 34 => ⟨S1x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S128, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .f32⟩
  | 54 => ⟨S64x128, .f32⟩
  | 55 => ⟨S100000x1, .i32⟩
  | 56 => ⟨S64x128, .f32⟩
  | 57 => ⟨S_, .f32⟩
  | 58 => ⟨S100000, .f32⟩
  | 59 => ⟨S_, .f32⟩
  | 60 => ⟨S64, .f32⟩
  | 61 => ⟨S100000x1, .i32⟩
  | 62 => ⟨S64, .f32⟩
  | 63 => ⟨S_, .f32⟩
  | 64 => ⟨S_, .f32⟩
  | 65 => ⟨S64, .f32⟩
  | 66 => ⟨S64, .f32⟩
  | 67 => ⟨S64x1, .f32⟩
  | 68 => ⟨S64x128, .f32⟩
  | 69 => ⟨S64x128, .f32⟩
  | 70 => ⟨S128x128, .f32⟩
  | 71 => ⟨S64x128, .f32⟩
  | 72 => ⟨S1x128, .f32⟩
  | 73 => ⟨S64x128, .f32⟩
  | 74 => ⟨S64x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call0_cst : Ref sig .tc := ⟨.hbm, 101, rfl⟩
abbrev main_call0_v0 : Ref sig .tc := ⟨.hbm, 102, rfl⟩
abbrev main_v73 : Ref sig .tc := ⟨.hbm, 103, rfl⟩
abbrev main_v74 : Ref sig .tc := ⟨.hbm, 104, rfl⟩
abbrev main_c_13 : Ref sig .tc := ⟨.hbm, 105, rfl⟩
abbrev main_v75 : Ref sig .tc := ⟨.hbm, 106, rfl⟩
abbrev main_v76 : Ref sig .tc := ⟨.hbm, 107, rfl⟩
abbrev main_c_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_15 : Ref sig .tc := ⟨.hbm, 114, rfl⟩
abbrev main_v82 : Ref sig .tc := ⟨.hbm, 115, rfl⟩
abbrev main_v83 : Ref sig .tc := ⟨.hbm, 116, rfl⟩
abbrev main_c_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_17 : Ref sig .tc := ⟨.hbm, 125, rfl⟩
abbrev main_v91 : Ref sig .tc := ⟨.hbm, 126, rfl⟩
abbrev main_v92 : Ref sig .tc := ⟨.hbm, 127, rfl⟩
abbrev main_c_18 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_19 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_20 : Ref sig .tc := ⟨.hbm, 148, rfl⟩
abbrev main_v111 : Ref sig .tc := ⟨.hbm, 149, rfl⟩
abbrev main_cst_21 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_22 : Ref sig .tc := ⟨.hbm, 157, rfl⟩
abbrev main_v118 : Ref sig .tc := ⟨.hbm, 158, rfl⟩
abbrev main_cst_23 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_24 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_call1_cst : Ref sig .tc := ⟨.hbm, 178, rfl⟩
abbrev main_call1_v0 : Ref sig .tc := ⟨.hbm, 179, rfl⟩
abbrev main_v136 : Ref sig .tc := ⟨.hbm, 180, rfl⟩
abbrev main_cst_25 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_cst_26 : Ref sig .tc := ⟨.hbm, 185, rfl⟩
abbrev main_v140 : Ref sig .tc := ⟨.hbm, 186, rfl⟩
abbrev main_cst_27 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_28 : Ref sig .tc := ⟨.hbm, 191, rfl⟩
abbrev main_call2_v0 : Ref sig .tc := ⟨.hbm, 192, rfl⟩
abbrev main_call2_v1 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S128x128_S128x128_1_0 : S128x128.Transposes [1, 0] S128x128
  bcast_S1x128_S64x128_0_1 : S1x128.BroadcastsInDim S64x128 (![0, 1] : Fin 2 → Fin S64x128.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x128_S64x128_1_0_0_1_n_n_wf : DotDims.WF S64x128 S128x128 S64x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.KernelRun.lean ====
/-
  The idealized kernel's run with its result named. The program is six kernel regions among stretches of host
  operations; its buffers' contents at each boundary form a fold from the launch memory (a host stretch applies its
  operations, a region replaces its output arrays by what its write-backs leave). Every weakly fair execution
  terminates without a fault in a state whose unscoped buffers hold the last boundary's contents: in particular the
  result buffer holds the fold's value there, and every argument array is as launched.
-/
import proofs.«150451_j53498112639197_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v120) = W14 m ρ c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v120 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.Gen

end
-- ==== Proof.BoundaryReads.lean ====
/-
  Buffers that a later segment reads hold what an earlier one left. Between its writer and its reader no host
  operation and no region writes such a buffer — a region touches only its own windows' arrays, and an input window's
  array ends as it was entered —, so the boundary contents at the reader equal those at the writer; an argument array
  holds its launch contents at every boundary.
-/
import proofs.«150451_j53498112639197_1_alg».proof.Proof.Gen.KernelIdeal.Frame

set_option maxRecDepth 16384

noncomputable section

namespace Cert.KernelIdeal.Gen

open Idealize.ShloMosaic Idealize.ShloMosaic.TcCoe Idealize.ShloMosaic.Tactic Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-! ## Arguments at the boundaries where they are read -/

theorem at1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem at1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem at2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem at4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem at4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem at6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem at7_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem at9_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem at9_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem at11_arg12 (c : Dev nD) : W11 m ρ c (Proc.devRef .tc main_arg12) = m ((c : Thread nD τ).loc main_arg12) :=
  calc W11 m ρ c (Proc.devRef .tc main_arg12)
    _ = W10 m ρ c (Proc.devRef .tc main_arg12) := W11_of_ne m ρ c main_arg12 (by decide)
    _ = W9 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg12) := W9_of_ne m ρ c main_arg12 (by decide)
    _ = W7 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem at11_arg9 (c : Dev nD) : W11 m ρ c (Proc.devRef .tc main_arg9) = m ((c : Thread nD τ).loc main_arg9) :=
  calc W11 m ρ c (Proc.devRef .tc main_arg9)
    _ = W10 m ρ c (Proc.devRef .tc main_arg9) := W11_of_ne m ρ c main_arg9 (by decide)
    _ = W9 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem at11_arg10 (c : Dev nD) : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg10) := W9_of_ne m ρ c main_arg10 (by decide)
    _ = W7 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-! ## The edge lists and the degree normalizer, written before the first region -/

theorem at2_v1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem at7_v1 (c : Dev nD) : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem at2_v3 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem at7_v3 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem at2_v10 (c : Dev nD) : W2 m ρ c (Proc.devRef .tc main_v10) = W1 m ρ c (Proc.devRef .tc main_v10) :=
  calc W2 m ρ c (Proc.devRef .tc main_v10)
    _ = W1 m ρ c (Proc.devRef .tc main_v10) := W2_of_ne m ρ c main_v10 (by decide)

theorem at7_v10 (c : Dev nD) : W7 m ρ c (Proc.devRef .tc main_v10) = W1 m ρ c (Proc.devRef .tc main_v10) :=
  calc W7 m ρ c (Proc.devRef .tc main_v10)
    _ = W6 m ρ c (Proc.devRef .tc main_v10) := W7_of_ne m ρ c main_v10 (by decide)
    _ = W5 m ρ c (Proc.devRef .tc main_v10) := W6_of_ne m ρ c main_v10 (by decide)
    _ = W4 m ρ c (Proc.devRef .tc main_v10) := StableHlo.after_of_forall_not_mem (b := Proc.devRef .tc main_v10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v10) := W4_of_ne m ρ c main_v10 (by decide)
    _ = W2 m ρ c (Proc.devRef .tc main_v10) := StableHlo.after_of_forall_not_mem (b := Proc.devRef .tc main_v10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v10) := W2_of_ne m ρ c main_v10 (by decide)

/-! ## A layer's pre-normalization features, read again after the moment region that staged them -/

theorem at5_v47 (c : Dev nD) : W5 m ρ c (Proc.devRef .tc main_v47) = W3 m ρ c (Proc.devRef .tc main_v47) :=
  calc W5 m ρ c (Proc.devRef .tc main_v47)
    _ = W4 m ρ c (Proc.devRef .tc main_v47) := StableHlo.after_of_forall_not_mem (b := Proc.devRef .tc main_v47) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v47) := (W4_arr m ρ c 0).trans (((dat1 (V3 m ρ) c).arrAt_in 0 rfl _).trans (A_eq1 (V3 m ρ) c 0))

theorem at10_v94 (c : Dev nD) : W10 m ρ c (Proc.devRef .tc main_v94) = W8 m ρ c (Proc.devRef .tc main_v94) :=
  calc W10 m ρ c (Proc.devRef .tc main_v94)
    _ = W9 m ρ c (Proc.devRef .tc main_v94) := StableHlo.after_of_forall_not_mem (b := Proc.devRef .tc main_v94) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v94) := (W9_arr m ρ c 0).trans (((dat4 (V8 m ρ) c).arrAt_in 0 rfl _).trans (A_eq4 (V8 m ρ) c 0))

end Cert.KernelIdeal.Gen

end
-- ==== Proof.RefImports.lean ====
/-
  The reference's run and its operations read at an index are generated; this module only brings them into scope
  for the modules that compare the reference's stages with the kernel's.
-/
import proofs.«150451_j53498112639197_1_alg».proof.Proof.Gen.ReferenceIdeal.Run
import proofs.«150451_j53498112639197_1_alg».proof.Proof.Gen.ReferenceIdeal.Read
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.DenseRegions.lean ====
/-
  The two dense layers' kernels. Each grid point multiplies a block of 5000 rows of the left matrix by the whole
  weight matrix; the blocks tile the rows, so after the last point the output array is the plain matrix product:
  entry (p, q) is the sum over k of left (p, k) · weight (k, q) on the extended reals (the change of float format
  before the product is the identity there, and the accumulator starts from zero).
-/
import proofs.«150451_j53498112639197_1_alg».proof.Proof.Gen.KernelIdeal.Frame
import proofs.«150451_j53498112639197_1_alg».proof.Proof.LibPlainDot
import Idealize.ShloMosaic.Lib.ValueIdx
import Idealize.ShloMosaic.Lib.Pipeline.Value
import Idealize.ShloMosaic.PureOps.Ideal.Laws

set_option maxRecDepth 16384

noncomputable section

namespace Cert.KernelIdeal.DenseValue

open Cert.KernelIdeal Cert.KernelIdeal.Gen Idealize.ShloMosaic Idealize.ShloMosaic.TcCoe Idealize.ShloMosaic.ValueIdx Idealize.SL.Sem

-- the TensorCore's buffer contents when a region is entered
variable (V : (c : Dev nD) → (b : Ref sig .tc) → Buf (Elt Ideal) ((c : Thread nD τ).loc b))

/-- The origin of a rank-2 shape, coordinate by coordinate. -/
theorem origin2 : (![0, 0] : Fin 2 → Nat) = fun _ => 0 := funext fun a => by fin_cases a <;> rfl

/-! ## First layer: [100000, 256] times [256, 128] -/

/-- The product of the whole arrays, entry by entry. -/
def product0 (a : S100000x256.Idx → EReal) (b : S256x128.Idx → EReal) : S100000x128.Idx → EReal :=
  fun j => ∑ k : Fin 256, a (ix2 (⟨(j 0).val, (j 0).isLt⟩ : Fin 100000) k) * b (ix2 k (⟨(j 1).val, (j 1).isLt⟩ : Fin 128))

/-- The body's product at an entry of the block: the sum over the 256 shared positions. -/
theorem blockProduct0_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  exact Cert.Lib.matmul_zero_apply (M := 5000) (K := 256) (N := 128) dot_S5000x256_S256x128_S5000x128_1_0_0_1_n_n_wf none
    (truncf .bf16 x0 bitsLt_bf16_f32) (truncf .bf16 x1 bitsLt_bf16_f32) p q

/-- The same at any index of the block. -/
theorem blockProduct0_at (x0 : Vec Ideal S5000x256 .f32) (x1 : Vec Ideal S256x128 .f32) (y : S5000x128.Idx) :
    k0_pay1 (F := Ideal) x0 x1 y = ∑ k : Fin 256, x0 (ix2 (y 0) k) * x1 (ix2 k (y 1)) := by
  obtain ⟨p, q, rfl⟩ : ∃ (p : Fin 5000) (q : Fin 128), y = ix2 p q := ⟨y 0, y 1, eq_ix2 y⟩
  exact blockProduct0_apply x0 x1 p q

/-- Where each window's block sits at grid point t: the row blocks at block index t, the weight at the origin. -/
theorem places0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the left block at point t is the entry of the left array 5000·t rows further down. -/
theorem left0_apply (c : Dev nD) (t : Fin cfg0.N) (x : S5000x256.Idx) (i : S100000x256.Idx)
    (h0 : (i 0).val = 5000 * t.val + (x 0).val) (h1 : (i 1).val = (x 1).val) :
    (iblk0 (F := Ideal) V c 0 t : Vec Ideal S5000x256 .f32) x = V c main_arg0 i := by
  obtain ⟨e0, e1, -, -, -, -⟩ := places0 t
  unfold iblk0
  rw [View.read_apply]
  show V c main_arg0 _ = V c main_arg0 _
  congr 1
  funext a
  apply Fin.ext
  match a with
  | ⟨0, _⟩ => show win0_0.index t 0 * 5000 + 1 * (x 0).val = (i 0).val; rw [e0, h0]; omega
  | ⟨1, _⟩ => show win0_0.index t 1 * 256 + 1 * (x 1).val = (i 1).val; rw [e1, h1]; omega

/-- The weight block at every point is the whole weight array. -/
theorem right0_apply (c : Dev nD) (t : Fin cfg0.N) (x : S256x128.Idx) :
    (iblk0 (F := Ideal) V c 1 t : Vec Ideal S256x128 .f32) x = V c main_arg1 x := by
  obtain ⟨-, -, e0, e1, -, -⟩ := places0 t
  unfold iblk0
  rw [View.read_apply]
  show V c main_arg1 _ = V c main_arg1 _
  congr 1
  funext a
  apply Fin.ext
  match a with
  | ⟨0, _⟩ => show win0_1.index t 0 * 256 + 1 * (x 0).val = (x 0).val; rw [e0]; omega
  | ⟨1, _⟩ => show win0_1.index t 1 * 128 + 1 * (x 1).val = (x 1).val; rw [e1]; omega

/-- What point t writes back is block t of the whole product. -/
theorem flushed0 (c : Dev nD) (t : Fin cfg0.N) :
    (dat0 (F := Ideal) V c).flushed 2 t
      = ((cfg0.win 2).blk t).view.read (Elt Ideal) (product0 (V c main_arg0) (V c main_arg1)) := by
  show (cfg0.win 2).cut (grid0.coords t) ((dat0 (F := Ideal) V c).after 2 t) = _
  rw [after0_2]
  unfold out0_2
  rw [View.canon_unit_zero origin2]
  simp only [View.ld_unit_zero (S := S5000x256) origin2, View.ld_unit_zero (S := S256x128) origin2]
  obtain ⟨-, -, -, -, e0, e1⟩ := places0 t
  funext y
  show k0_pay1 (F := Ideal) (iblk0 V c 0 t) (iblk0 V c 1 t) y
    = product0 (V c main_arg0) (V c main_arg1) (((cfg0.win 2).blk t).view.emb y)
  refine (blockProduct0_at _ _ y).trans ?_
  unfold product0
  refine Finset.sum_congr rfl fun k _ => ?_
  have hy0 : (y 0).val < 5000 := (y 0).isLt
  have hy1 : (y 1).val < 128 := (y 1).isLt
  have r0 : ((((cfg0.win 2).blk t).view.emb y) 0).val = 5000 * t.val + (y 0).val := by
    show win0_2.index t 0 * 5000 + 1 * (y 0).val = _; rw [e0]; omega
  have r1 : ((((cfg0.win 2).blk t).view.emb y) 1).val = (y 1).val := by
    show win0_2.index t 1 * 128 + 1 * (y 1).val = _; rw [e1]; omega
  rw [left0_apply V c t (ix2 (y 0) k) (ix2 ⟨_, ((((cfg0.win 2).blk t).view.emb y) 0).isLt⟩ k) r0 rfl,
    right0_apply V c t (ix2 k (y 1))]
  refine congrArg _ (congrArg _ ?_)
  funext a
  apply Fin.ext
  match a with
  | ⟨0, _⟩ => rfl
  | ⟨1, _⟩ => exact r1.symm

/-- An index of the output array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v11).slice (win0_2.rect t)).set ↔ _
  rw [View.set_slice_whole, Rect.mem_set_unit]
  exact Iff.rfl

/-- Row r of the output lies in the block of point r / 5000: the twenty blocks tile the 100000 rows. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, e0, e1⟩ := places0 t
  refine ⟨t, flush0_2 t, ?_⟩
  rw [mem_block0]
  intro a
  match a with
  | ⟨0, _⟩ =>
    show win0_2.index t 0 * 5000 ≤ (i 0).val ∧ (i 0).val < win0_2.index t 0 * 5000 + 5000
    rw [e0, ht]; omega
  | ⟨1, _⟩ =>
    show win0_2.index t 1 * 128 ≤ (i 1).val ∧ (i 1).val < win0_2.index t 1 * 128 + 128
    rw [e1]; omega

/-- First layer: the [100000, 256] features times the [256, 128] weight. -/
theorem dense0 (c : Dev nD) (A : S100000x256.Idx → EReal) (B : S256x128.Idx → EReal)
    (hA : V c main_arg0 = A) (hB : V c main_arg1 = B) :
    (dat0 (F := Ideal) V c).arrAt 2 cfg0.N
      = (fun j : S100000x128.Idx => ∑ k : Fin 256, A (ix2 (⟨(j 0).val, (j 0).isLt⟩ : Fin 100000) k) * B (ix2 k (⟨(j 1).val, (j 1).isLt⟩ : Fin 128))) := by
  subst hA hB
  exact (dat0 (F := Ideal) V c).arrAt_eq_of_cover 2 (product0 (V c main_arg0) (V c main_arg1))
    (fun t _ => flushed0 V c t) cover0

/-! ## Second layer: [100000, 128] times [128, 128] -/

/-- The product of the whole arrays, entry by entry. -/
def product3 (a : S100000x128.Idx → EReal) (b : S128x128.Idx → EReal) : S100000x128.Idx → EReal :=
  fun j => ∑ k : Fin 128, a (ix2 (⟨(j 0).val, (j 0).isLt⟩ : Fin 100000) k) * b (ix2 k (⟨(j 1).val, (j 1).isLt⟩ : Fin 128))

/-- The body's product at an entry of the block (its reshaping of the left block to its own shape is the identity):
    the sum over the 128 shared positions. -/
theorem blockProduct3_apply (x0 : Vec Ideal S5000x128 .f32) (x1 : Vec Ideal S128x128 .f32) (p : Fin 5000) (q : Fin 128) :
    k3_pay1 (F := Ideal) x0 x1 (ix2 p q) = ∑ k : Fin 128, x0 (ix2 p k) * x1 (ix2 k q) := by
  unfold k3_pay1
  simp only [shapeCast_self]
  exact Cert.Lib.matmul_zero_apply (M := 5000) (K := 128) (N := 128) dot_S5000x128_S128x128_S5000x128_1_0_0_1_n_n_wf none
    (truncf .bf16 x0 bitsLt_bf16_f32) (truncf .bf16 x1 bitsLt_bf16_f32) p q

/-- The same at any index of the block. -/
theorem blockProduct3_at (x0 : Vec Ideal S5000x128 .f32) (x1 : Vec Ideal S128x128 .f32) (y : S5000x128.Idx) :
    k3_pay1 (F := Ideal) x0 x1 y = ∑ k : Fin 128, x0 (ix2 (y 0) k) * x1 (ix2 k (y 1)) := by
  obtain ⟨p, q, rfl⟩ : ∃ (p : Fin 5000) (q : Fin 128), y = ix2 p q := ⟨y 0, y 1, eq_ix2 y⟩
  exact blockProduct3_apply x0 x1 p q

/-- Where each window's block sits at grid point t: the row blocks at block index t, the weight at the origin. -/
theorem places3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- An entry of the left block at point t is the entry of the left array 5000·t rows further down. -/
theorem left3_apply (c : Dev nD) (t : Fin cfg3.N) (x : S5000x128.Idx) (i : S100000x128.Idx)
    (h0 : (i 0).val = 5000 * t.val + (x 0).val) (h1 : (i 1).val = (x 1).val) :
    (iblk3 (F := Ideal) V c 0 t : Vec Ideal S5000x128 .f32) x = V c main_v57 i := by
  obtain ⟨e0, e1, -, -, -, -⟩ := places3 t
  unfold iblk3
  rw [View.read_apply]
  show V c main_v57 _ = V c main_v57 _
  congr 1
  funext a
  apply Fin.ext
  match a with
  | ⟨0, _⟩ => show win3_0.index t 0 * 5000 + 1 * (x 0).val = (i 0).val; rw [e0, h0]; omega
  | ⟨1, _⟩ => show win3_0.index t 1 * 128 + 1 * (x 1).val = (i 1).val; rw [e1, h1]; omega

/-- The weight block at every point is the whole weight array. -/
theorem right3_apply (c : Dev nD) (t : Fin cfg3.N) (x : S128x128.Idx) :
    (iblk3 (F := Ideal) V c 1 t : Vec Ideal S128x128 .f32) x = V c main_arg5 x := by
  obtain ⟨-, -, e0, e1, -, -⟩ := places3 t
  unfold iblk3
  rw [View.read_apply]
  show V c main_arg5 _ = V c main_arg5 _
  congr 1
  funext a
  apply Fin.ext
  match a with
  | ⟨0, _⟩ => show win3_1.index t 0 * 128 + 1 * (x 0).val = (x 0).val; rw [e0]; omega
  | ⟨1, _⟩ => show win3_1.index t 1 * 128 + 1 * (x 1).val = (x 1).val; rw [e1]; omega

/-- What point t writes back is block t of the whole product. -/
theorem flushed3 (c : Dev nD) (t : Fin cfg3.N) :
    (dat3 (F := Ideal) V c).flushed 2 t
      = ((cfg3.win 2).blk t).view.read (Elt Ideal) (product3 (V c main_v57) (V c main_arg5)) := by
  show (cfg3.win 2).cut (grid3.coords t) ((dat3 (F := Ideal) V c).after 2 t) = _
  rw [after3_2]
  unfold out3_2
  rw [View.canon_unit_zero origin2]
  simp only [View.ld_unit_zero (S := S5000x128) origin2, View.ld_unit_zero (S := S128x128) origin2]
  obtain ⟨-, -, -, -, e0, e1⟩ := places3 t
  funext y
  show k3_pay1 (F := Ideal) (iblk3 V c 0 t) (iblk3 V c 1 t) y
    = product3 (V c main_v57) (V c main_arg5) (((cfg3.win 2).blk t).view.emb y)
  refine (blockProduct3_at _ _ y).trans ?_
  unfold product3
  refine Finset.sum_congr rfl fun k _ => ?_
  have hy0 : (y 0).val < 5000 := (y 0).isLt
  have hy1 : (y 1).val < 128 := (y 1).isLt
  have r0 : ((((cfg3.win 2).blk t).view.emb y) 0).val = 5000 * t.val + (y 0).val := by
    show win3_2.index t 0 * 5000 + 1 * (y 0).val = _; rw [e0]; omega
  have r1 : ((((cfg3.win 2).blk t).view.emb y) 1).val = (y 1).val := by
    show win3_2.index t 1 * 128 + 1 * (y 1).val = _; rw [e1]; omega
  rw [left3_apply V c t (ix2 (y 0) k) (ix2 ⟨_, ((((cfg3.win 2).blk t).view.emb y) 0).isLt⟩ k) r0 rfl,
    right3_apply V c t (ix2 k (y 1))]
  refine congrArg _ (congrArg _ ?_)
  funext a
  apply Fin.ext
  match a with
  | ⟨0, _⟩ => rfl
  | ⟨1, _⟩ => exact r1.symm

/-- An index of the output array is in point t's block iff each coordinate is in the block's range on its axis. -/
theorem mem_block3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v58).slice (win3_2.rect t)).set ↔ _
  rw [View.set_slice_whole, Rect.mem_set_unit]
  exact Iff.rfl

/-- Row r of the output lies in the block of point r / 5000: the twenty blocks tile the 100000 rows. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by omega⟩, rfl⟩
  obtain ⟨-, -, -, -, e0, e1⟩ := places3 t
  refine ⟨t, flush3_2 t, ?_⟩
  rw [mem_block3]
  intro a
  match a with
  | ⟨0, _⟩ =>
    show win3_2.index t 0 * 5000 ≤ (i 0).val ∧ (i 0).val < win3_2.index t 0 * 5000 + 5000
    rw [e0, ht]; omega
  | ⟨1, _⟩ =>
    show win3_2.index t 1 * 128 ≤ (i 1).val ∧ (i 1).val < win3_2.index t 1 * 128 + 128
    rw [e1]; omega

/-- Second layer: the [100000, 128] hidden features times the [128, 128] weight. -/
theorem dense3 (c : Dev nD) (A : S100000x128.Idx → EReal) (B : S128x128.Idx → EReal)
    (hA : V c main_v57 = A) (hB : V c main_arg5 = B) :
    (dat3 (F := Ideal) V c).arrAt 2 cfg3.N
      = (fun j : S100000x128.Idx => ∑ k : Fin 128, A (ix2 (⟨(j 0).val, (j 0).isLt⟩ : Fin 100000) k) * B (ix2 k (⟨(j 1).val, (j 1).isLt⟩ : Fin 128))) := by
  subst hA hB
  exact (dat3 (F := Ideal) V c).arrAt_eq_of_cover 2 (product3 (V c main_v57) (V c main_arg5))
    (fun t _ => flushed3 V c t) cover3

end Cert.KernelIdeal.DenseValue

end
-- ==== Proof.KernelStages.lean ====
/-
  The kernel's buffers, boundary by boundary, in the reference's own vocabulary. The kernel program and the reference
  perform the same host operations between the kernel regions; where a region stands in the kernel the reference has
  the host operation it implements (a matrix product) or a different arrangement of the same mathematics (batch
  norm). So each buffer the kernel writes holds, at the boundary after its writer, the reference's stage of the same
  name applied to the launch arguments: a host stretch by evaluating its operations on buffers already identified, a
  dense region by its closed form against the reference's product read as the same sum.
-/
import proofs.«150451_j53498112639197_1_alg».proof.Proof.BoundaryReads
import proofs.«150451_j53498112639197_1_alg».proof.Proof.RefImports
import proofs.«150451_j53498112639197_1_alg».proof.Proof.DenseRegions
import Idealize.ShloMosaic.Lib.StableHlo.Run
import Idealize.ShloMosaic.Lib.ValueIdx

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read

variable (m : (ℓ : Loc nD τ sig) → Buf (Elt Ideal) ℓ) (ρ : Dev nD → PrngReg)

/-! ## Before the first region: the edge lists and the degree normalizer -/

/-- The source list. -/
theorem at1_v1 (c : Dev nD) :
    W1 m ρ c (Proc.devRef .tc main_v1) = val_main_v1 (F := Ideal) (m ((c : Thread nD τ).loc main_arg11)) := by
  show StableHlo.after hostOps0 (W0 m ρ c) (Proc.devRef .tc main_v1) = _
  after_results_simp <;> rfl

/-- The destination list. -/
theorem at1_v3 (c : Dev nD) :
    W1 m ρ c (Proc.devRef .tc main_v3) = val_main_v3 (F := Ideal) (m ((c : Thread nD τ).loc main_arg11)) := by
  show StableHlo.after hostOps0 (W0 m ρ c) (Proc.devRef .tc main_v3) = _
  after_results_simp <;> rfl

/-- The degree normalizer: the reciprocal square root of one plus the in-degree. -/
theorem at1_v10 (c : Dev nD) :
    W1 m ρ c (Proc.devRef .tc main_v10) = val_main_v10 (F := Ideal) (m ((c : Thread nD τ).loc main_arg11)) := by
  show StableHlo.after hostOps0 (W0 m ρ c) (Proc.devRef .tc main_v10) = _
  after_results_simp <;> rfl

/-! ## The first dense region -/

/-- The region's output is the reference's product of the features with the first weight. -/
theorem at2_v11 (c : Dev nD) :
    W2 m ρ c (Proc.devRef .tc main_v11)
      = val_main_v11 (F := Ideal) (m ((c : Thread nD τ).loc main_arg0)) (m ((c : Thread nD τ).loc main_arg1)) := by
  refine (W2_arr m ρ c 2).trans ?_
  rw [DenseValue.dense0 (V1 m ρ) c _ _ (at1_arg0 m ρ c) (at1_arg1 m ρ c)]
  funext j
  rw [val_main_v11_apply]
  refine Finset.sum_congr rfl fun k _ => ?_
  congr 1 <;> exact congrArg _ (funext fun a => Fin.ext (by match a with | ⟨0, _⟩ => rfl | ⟨1, _⟩ => rfl))

/-! ## The first convolution -/

/-- The host stretch after the first dense region: gather along the edges, scale by the two normalizers, accumulate
    at the destinations, add the self term and the bias — the reference's operations on the same buffers. -/
theorem at3_v47 (c : Dev nD) :
    W3 m ρ c (Proc.devRef .tc main_v47)
      = val_main_v47 (F := Ideal) (m ((c : Thread nD τ).loc main_arg0)) (m ((c : Thread nD τ).loc main_arg1)) (m ((c : Thread nD τ).loc main_arg2)) (m ((c : Thread nD τ).loc main_arg11)) := by
  show StableHlo.after hostOps1 (W2 m ρ c) (Proc.devRef .tc main_v47) = _
  after_results_simp
  rw [at2_v11 m ρ c, at2_v10 m ρ c, at1_v10 m ρ c, at2_v1 m ρ c, at1_v1 m ρ c, at2_v3 m ρ c, at1_v3 m ρ c, at2_arg2 m ρ c]
  rfl

end Cert.KernelIdeal.Stages

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibBlockSum.lean ====
/-
  A sum over the first B·(j+1) natural numbers, taken block by block: the terms before block j, plus the B terms of
  block j. This is how a contraction over a long axis is accumulated in pieces of width B; over a commutative monoid
  (the extended reals under addition are one) the pieces add up to the whole sum, whatever the values.
-/
import Mathlib.Algebra.BigOperators.Fin
import Mathlib.Algebra.BigOperators.Intervals

namespace Cert.Lib.BlockSum

open Finset

variable {M : Type*} [AddCommMonoid M]

/-- The terms before block `j`, plus the `B` terms of block `j`, are the terms before block `j + 1`. -/
theorem sum_range_block (f : ℕ → M) (B j : ℕ) :
    ∑ k ∈ range (B * j), f k + ∑ k : Fin B, f (B * j + k.val) = ∑ k ∈ range (B * (j + 1)), f k := by
  rw [Nat.mul_succ, Finset.sum_range_add, Finset.sum_range (fun k => f (B * j + k))]

/-- Block 0 alone: its `B` terms are the terms before block 1. -/
theorem sum_first_block (f : ℕ → M) (B : ℕ) :
    ∑ k : Fin B, f (B * 0 + k.val) = ∑ k ∈ range (B * (0 + 1)), f k := by
  rw [← sum_range_block f B 0, Nat.mul_zero, Finset.range_zero, Finset.sum_empty, zero_add]

end Cert.Lib.BlockSum
-- ==== Proof.MomentRegions.lean ====
/-
  The two moment kernels. The grid walks the 100000 rows of the features in 20 blocks of 5000; the two [1, 128]
  outputs are zeroed at the first point and each point adds, per column, the sum of its block's entries to the first
  and the sum of their squares to the second. Neither output is written back between points, so after the last
  point entry (0, q) of the first holds the sum over all rows r of h (r, q) and of the second the sum of h (r, q)²:
  sums on the extended reals are commutative and associative, so the order of accumulation does not matter.

  The proof, per kernel: what each of the body's two cases (the first point, which zeroes the rows first; every later
  point) leaves in the two rows, as the body's arithmetic of the block and of what the rows held; that arithmetic
  read at column q (a row entry plus a sum over the block's 5000 rows); by induction on the point, the rows after
  point n hold the sums over the first 5000 (n + 1) rows of the array; the rows are written back once, after the last
  point, and their block is the whole [1, 128] array.
-/
import proofs.«150451_j53498112639197_1_alg».proof.Proof.Gen.KernelIdeal.Frame
import proofs.«150451_j53498112639197_1_alg».proof.Proof.LibAxisSums
import proofs.«150451_j53498112639197_1_alg».proof.Proof.LibBlockSum
import Idealize.ShloMosaic.Lib.ValueIdx
import Idealize.ShloMosaic.Lib.Pipeline.Value
import Idealize.ShloMosaic.PureOps.Ideal.Laws

set_option maxRecDepth 16384

noncomputable section

namespace Cert.KernelIdeal.MomentsValue

open Cert.KernelIdeal Cert.KernelIdeal.Gen Idealize.ShloMosaic Idealize.ShloMosaic.TcCoe Idealize.ShloMosaic.ValueIdx Idealize.SL.Sem
open Idealize.ShloMosaic.Tactic

/-! ## What both regions share -/

theorem hz : (![0, 0] : Fin 2 → Nat) = fun _ => 0 := funext fun a => by fin_cases a <;> rfl

/-- A [128] vector viewed as a [1, 128] row reads, at (0, q), the vector at q. -/
theorem row_of_vec {α : Type} (v : S128.Idx → α) (h : S128.ShapeCasts S1x128) (q : Fin 128) :
    shapeCast S1x128 v h (ix2 0 q) = v (ix1 q) := by
  refine (shapeCast_addUnit_apply ![128] v h (ix2 0 q)).trans (congrArg v (funext fun a => ?_))
  match a with
  | ⟨0, _⟩ => rfl

/-- Entry (k, q) of a [5000, 128] block and entry (0, q) of a [1, 128] row, as extended reals. -/
abbrev entry (x : Vec Ideal S5000x128 .f32) (k : Fin 5000) (q : Fin 128) : EReal := x (ix2 k q)
abbrev rowEntry (x : Vec Ideal S1x128 .f32) (q : Fin 128) : EReal := x (ix2 0 q)

/-- Column q of a [100000, 128] array as a function of the row NUMBER (zero past the last row): the form in which
    a sum over the first rows is a sum over a range of natural numbers. -/
def column (H : S100000x128.Idx → EReal) (q : Fin 128) (r : ℕ) : EReal :=
  if hr : r < 100000 then H (ix2 ⟨r, hr⟩ q) else 0

theorem column_of_lt (H : S100000x128.Idx → EReal) (q : Fin 128) (r : ℕ) (hr : r < 100000) :
    column H q r = H (ix2 ⟨r, hr⟩ q) := dif_pos hr

/-- The column sums and the column sums of squares of a [100000, 128] array, as [1, 128] rows. -/
def colSums (H : S100000x128.Idx → EReal) : S1x128.Idx → EReal :=
  fun j => ∑ r : Fin 100000, H (ix2 r (⟨(j 1).val, (j 1).isLt⟩ : Fin 128))
def colSquares (H : S100000x128.Idx → EReal) : S1x128.Idx → EReal :=
  fun j => ∑ r : Fin 100000, H (ix2 r (⟨(j 1).val, (j 1).isLt⟩ : Fin 128)) * H (ix2 r (⟨(j 1).val, (j 1).isLt⟩ : Fin 128))

/-- The sum over all twenty blocks of rows is the sum over the rows. -/
theorem whole_column (H : S100000x128.Idx → EReal) (q : Fin 128) :
    ∑ r ∈ Finset.range (5000 * (19 + 1)), column H q r = colSums H (ix2 0 q) := by
  rw [show 5000 * (19 + 1) = 100000 from rfl, Finset.sum_range]
  exact Finset.sum_congr rfl fun r _ => column_of_lt H q r.val r.isLt

theorem whole_column_sq (H : S100000x128.Idx → EReal) (q : Fin 128) :
    ∑ r ∈ Finset.range (5000 * (19 + 1)), column H q r * column H q r = colSquares H (ix2 0 q) := by
  rw [show 5000 * (19 + 1) = 100000 from rfl, Finset.sum_range]
  exact Finset.sum_congr rfl fun r _ => by rw [column_of_lt H q r.val r.isLt]

/-! ## Region 1: what each case of the body leaves, and the body's arithmetic at an index -/

section Pieces1
variable {F : FTy → Type} [FloatOps F]

/-- A later point leaves in the first output the first payload of the block and of what the buffer held. -/
theorem later_sum1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero (S := S1x128) hz]
  simp only [View.readAt_eq_ld, h1.read_unread, h2.read_unread, View.ld_unit_zero (S := S5000x128) hz, View.ld_unit_zero (S := S1x128) hz]

/-- A later point leaves in the second output the second payload of the block and of what the buffer held. -/
theorem later_sq1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero (S := S1x128) hz]
  simp only [View.readAt_eq_ld, h1.read_unread, h3.read_unread, View.ld_unit_zero (S := S5000x128) hz, View.ld_unit_zero (S := S1x128) hz]

/-- The first point stores the zero row, reads it back, and leaves the first payload of the block and the zero row. -/
theorem first_sum1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

/-- Likewise the second output at the first point. -/
theorem first_sq1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

end Pieces1

/-- The first payload at (0, q): what the row held there, plus the block's column sum. -/
theorem sum_step1 (x : Vec Ideal S5000x128 .f32) (xo : Vec Ideal S1x128 .f32) (q : Fin 128) :
    k1_pay4 (F := Ideal) x xo (ix2 0 q) = xo (ix2 0 q) + ∑ k : Fin 5000, x (ix2 k q) := by
  unfold k1_pay4 k1_pay3
  dsimp only
  rw [shapeCast_self, shapeCast_self]
  refine (addf_apply _ _ _).trans (congrArg (xo (ix2 0 q) + ·) ?_)
  refine (row_of_vec _ _ q).trans ?_
  exact Cert.Lib.colSum_apply x _ _ _ _ q

/-- The second payload at (0, q): what the row held there, plus the block's column sum of squares. -/
theorem sq_step1 (x : Vec Ideal S5000x128 .f32) (xo : Vec Ideal S1x128 .f32) (q : Fin 128) :
    k1_pay5 (F := Ideal) x xo (ix2 0 q) = xo (ix2 0 q) + ∑ k : Fin 5000, x (ix2 k q) * x (ix2 k q) := by
  unfold k1_pay5 k1_pay3
  dsimp only
  rw [shapeCast_self, shapeCast_self]
  refine (addf_apply _ _ _).trans (congrArg (xo (ix2 0 q) + ·) ?_)
  refine (row_of_vec _ _ q).trans ?_
  exact Cert.Lib.colSum_apply (mulf x x) _ _ _ _ q

/-- The rows the first point stores are zero. -/
theorem zero_row1_a (q : Fin 128) : k1_pay1 (F := Ideal) (ix2 0 q) = 0 := Ideal.ofBits_zero_f32
theorem zero_row1_b (q : Fin 128) : k1_pay2 (F := Ideal) (ix2 0 q) = 0 := Ideal.ofBits_zero_f32

/-! ## Region 1: the moments of `main_v47` -/

section Region1

-- the TensorCore's buffer contents when the region is entered
variable (V : (c : Dev nD) → (b : Ref sig .tc) → Buf (Elt Ideal) ((c : Thread nD τ).loc b))

/-- The input window's block at point t is block (t, 0); both outputs' block is (0, 0) at every point. -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Entry (k, q) of the block the body reads at point t is entry (5000 t + k, q) of the array. -/
theorem block_entry1 (c : Dev nD) (H : S100000x128.Idx → EReal) (hH : V c main_v47 = H) (t : Fin cfg1.N)
    (k : Fin 5000) (q : Fin 128) :
    entry (iblk1 V c 0 t) k q = column H q (5000 * t.val + k.val) := by
  subst hH
  have hN : t.val < 20 := lt_of_lt_of_eq t.isLt (show cfg1.N = 20 from N_1)
  have hk : 5000 * t.val + k.val < 100000 := by have := k.isLt; omega
  rw [column_of_lt _ q _ hk]
  obtain ⟨e0, e1, -⟩ := block_index1 t
  unfold entry iblk1
  rw [View.read_apply]
  show V c main_v47 _ = V c main_v47 _
  congr 1
  funext a; apply Fin.ext
  match a with
  | ⟨0, _⟩ => show win1_0.index t (0 : Fin 2) * 5000 + 1 * k.val = 5000 * t.val + k.val; omega
  | ⟨1, _⟩ => show win1_0.index t (1 : Fin 2) * 128 + 1 * q.val = q.val; omega

/-- The first point: both rows are zeroed, then the block's column sums are added. -/
theorem first_point1 (c : Dev nD) (t : Fin cfg1.N) (hA : t.val % 20 = 0) (q : Fin 128) :
    rowEntry (outsAt1 V c t.val t.isLt).1 q = 0 + ∑ k : Fin 5000, entry (iblk1 V c 0 t) k q
    ∧ rowEntry (outsAt1 V c t.val t.isLt).2 q
        = 0 + ∑ k : Fin 5000, entry (iblk1 V c 0 t) k q * entry (iblk1 V c 0 t) k q := by
  rw [outsAt1_A V c t hA]
  dsimp only
  constructor
  · refine (congrFun (first_sum1 (F := Ideal) c (grid1.coords t) (ms1_0 t) (hs1_0 t) (ms1_1 t) (hs1_1 t) (ms1_2 t) (hs1_2 t)
      ((hcond1_0 t).mpr hA) (iblk1 V c 0 t)) (ix2 0 q)).trans ?_
    refine (sum_step1 (iblk1 V c 0 t) (k1_pay1 (F := Ideal)) q).trans ?_
    rw [zero_row1_a]
  · refine (congrFun (first_sq1 (F := Ideal) c (grid1.coords t) (ms1_0 t) (hs1_0 t) (ms1_1 t) (hs1_1 t) (ms1_2 t) (hs1_2 t)
      ((hcond1_0 t).mpr hA) (iblk1 V c 0 t)) (ix2 0 q)).trans ?_
    refine (sq_step1 (iblk1 V c 0 t) (k1_pay2 (F := Ideal)) q).trans ?_
    rw [zero_row1_b]

/-- A later point: the block's column sums are added to what the point before left. -/
theorem later_point1 (c : Dev nD) (t : Fin cfg1.N) (hB : ¬t.val % 20 = 0) (q : Fin 128) :
    rowEntry (outsAt1 V c t.val t.isLt).1 q
        = rowEntry (outsAt1 V c (t.val - 1) (Nat.lt_of_le_of_lt (Nat.sub_le _ _) t.isLt)).1 q
          + ∑ k : Fin 5000, entry (iblk1 V c 0 t) k q
    ∧ rowEntry (outsAt1 V c t.val t.isLt).2 q
        = rowEntry (outsAt1 V c (t.val - 1) (Nat.lt_of_le_of_lt (Nat.sub_le _ _) t.isLt)).2 q
          + ∑ k : Fin 5000, entry (iblk1 V c 0 t) k q * entry (iblk1 V c 0 t) k q := by
  rw [outsAt1_B V c t hB]
  dsimp only
  constructor
  · refine (congrFun (later_sum1 (F := Ideal) c (grid1.coords t) (ms1_0 t) (hs1_0 t) (ms1_1 t) (hs1_1 t) (ms1_2 t) (hs1_2 t)
      (fun h => hB ((hcond1_0 t).mp h)) (iblk1 V c 0 t)
      (outsAt1 V c (t.val - 1) (Nat.lt_of_le_of_lt (Nat.sub_le _ _) t.isLt)).1
      (outsAt1 V c (t.val - 1) (Nat.lt_of_le_of_lt (Nat.sub_le _ _) t.isLt)).2) (ix2 0 q)).trans ?_
    exact sum_step1 (iblk1 V c 0 t) (outsAt1 V c (t.val - 1) (Nat.lt_of_le_of_lt (Nat.sub_le _ _) t.isLt)).1 q
  · refine (congrFun (later_sq1 (F := Ideal) c (grid1.coords t) (ms1_0 t) (hs1_0 t) (ms1_1 t) (hs1_1 t) (ms1_2 t) (hs1_2 t)
      (fun h => hB ((hcond1_0 t).mp h)) (iblk1 V c 0 t)
      (outsAt1 V c (t.val - 1) (Nat.lt_of_le_of_lt (Nat.sub_le _ _) t.isLt)).1
      (outsAt1 V c (t.val - 1) (Nat.lt_of_le_of_lt (Nat.sub_le _ _) t.isLt)).2) (ix2 0 q)).trans ?_
    exact sq_step1 (iblk1 V c 0 t) (outsAt1 V c (t.val - 1) (Nat.lt_of_le_of_lt (Nat.sub_le _ _) t.isLt)).2 q

/-- THE RUNNING MOMENTS. After point n the first row holds, at column q, the sum of the first 5000 (n + 1) rows of
    that column, and the second row the sum of their squares — by induction on the point. -/
theorem running1 (c : Dev nD) (H : S100000x128.Idx → EReal) (hH : V c main_v47 = H) (q : Fin 128) :
    ∀ (n : ℕ) (h : n < cfg1.N),
      rowEntry (outsAt1 V c n h).1 q = ∑ r ∈ Finset.range (5000 * (n + 1)), column H q r
      ∧ rowEntry (outsAt1 V c n h).2 q = ∑ r ∈ Finset.range (5000 * (n + 1)), column H q r * column H q r
  | 0, h => by
    obtain ⟨e1, e2⟩ := first_point1 V c ⟨0, h⟩ (Nat.zero_mod 20) q
    constructor
    · refine e1.trans ?_
      rw [zero_add]
      refine (Finset.sum_congr rfl fun k _ => block_entry1 V c H hH ⟨0, h⟩ k q).trans ?_
      exact Cert.Lib.BlockSum.sum_first_block (column H q) 5000
    · refine e2.trans ?_
      rw [zero_add]
      refine (Finset.sum_congr rfl fun k _ => by rw [block_entry1 V c H hH ⟨0, h⟩ k q]).trans ?_
      exact Cert.Lib.BlockSum.sum_first_block (fun r => column H q r * column H q r) 5000
  | n + 1, h => by
    have hN : n + 1 < 20 := lt_of_lt_of_eq h (show cfg1.N = 20 from N_1)
    obtain ⟨i1, i2⟩ := running1 c H hH q n (Nat.lt_of_succ_lt h)
    obtain ⟨e1, e2⟩ := later_point1 V c ⟨n + 1, h⟩ (by dsimp only; omega) q
    constructor
    · refine e1.trans ?_
      refine (congrArg (· + _) i1).trans ?_
      refine (congrArg (_ + ·) (Finset.sum_congr rfl fun k _ => block_entry1 V c H hH ⟨n + 1, h⟩ k q)).trans ?_
      exact Cert.Lib.BlockSum.sum_range_block (column H q) 5000 (n + 1)
    · refine e2.trans ?_
      refine (congrArg (· + _) i2).trans ?_
      refine (congrArg (_ + ·) (Finset.sum_congr rfl fun k _ => by rw [block_entry1 V c H hH ⟨n + 1, h⟩ k q])).trans ?_
      exact Cert.Lib.BlockSum.sum_range_block (fun r => column H q r * column H q r) 5000 (n + 1)

/-- After the last point the rows hold the column sums and the column sums of squares. -/
theorem last_rows1 (c : Dev nD) (H : S100000x128.Idx → EReal) (hH : V c main_v47 = H) (t : Fin cfg1.N) (h19 : t.val = 19) :
    (outsAt1 V c t.val t.isLt).1 = colSums H ∧ (outsAt1 V c t.val t.isLt).2 = colSquares H := by
  constructor
  · funext j
    obtain ⟨p, q, rfl⟩ : ∃ (p : Fin 1) (q : Fin 128), j = ix2 p q := ⟨j 0, j 1, eq_ix2 j⟩
    obtain rfl : p = 0 := Subsingleton.elim _ _
    refine ((running1 V c H hH q t.val t.isLt).1).trans ?_
    rw [h19]
    exact whole_column H q
  · funext j
    obtain ⟨p, q, rfl⟩ : ∃ (p : Fin 1) (q : Fin 128), j = ix2 p q := ⟨j 0, j 1, eq_ix2 j⟩
    obtain rfl : p = 0 := Subsingleton.elim _ _
    refine ((running1 V c H hH q t.val t.isLt).2).trans ?_
    rw [h19]
    exact whole_column_sq H q

/-- The one write-back of the first output, after the last point, writes the column sums: its block is the whole row. -/
theorem last_sum1 (c : Dev nD) (H : S100000x128.Idx → EReal) (hH : V c main_v47 = H) (t : Fin cfg1.N)
    (hf : (cfg1.win 1).flush t = true) :
    (dat1 (F := Ideal) V c).flushed 1 t = ((cfg1.win 1).blk t).view.read (Elt Ideal) (colSums H) := by
  have hN : t.val < 20 := lt_of_lt_of_eq t.isLt (show cfg1.N = 20 from N_1)
  have h19 : t.val = 19 := by have := (flush1_1 t).mp hf; omega
  obtain ⟨-, -, z0, z1, -⟩ := block_index1 t
  show (cfg1.win 1).cut (grid1.coords t) ((dat1 V c).after 1 t) = _
  rw [after1_1, (last_rows1 V c H hH t h19).1]
  have hz' : (fun a => win1_1.index t a * main_v48_0.ty.shape.size a) = fun _ => 0 := funext fun a => by
    match a with
    | ⟨0, _⟩ => show win1_1.index t (0 : Fin 2) * 1 = 0; omega
    | ⟨1, _⟩ => show win1_1.index t (1 : Fin 2) * 128 = 0; omega
  exact (Memref.read_access_unit_zero (Elt Ideal) main_v48_0 hz' (fun a => by rw [congrFun hz' a]; simp) (colSums H)).symm

/-- The one write-back of the second output writes the column sums of squares. -/
theorem last_sq1 (c : Dev nD) (H : S100000x128.Idx → EReal) (hH : V c main_v47 = H) (t : Fin cfg1.N)
    (hf : (cfg1.win 2).flush t = true) :
    (dat1 (F := Ideal) V c).flushed 2 t = ((cfg1.win 2).blk t).view.read (Elt Ideal) (colSquares H) := by
  have hN : t.val < 20 := lt_of_lt_of_eq t.isLt (show cfg1.N = 20 from N_1)
  have h19 : t.val = 19 := by have := (flush1_2 t).mp hf; omega
  obtain ⟨-, -, -, -, z0, z1⟩ := block_index1 t
  show (cfg1.win 2).cut (grid1.coords t) ((dat1 V c).after 2 t) = _
  rw [after1_2, (last_rows1 V c H hH t h19).2]
  have hz' : (fun a => win1_2.index t a * main_v48_1.ty.shape.size a) = fun _ => 0 := funext fun a => by
    match a with
    | ⟨0, _⟩ => show win1_2.index t (0 : Fin 2) * 1 = 0; omega
    | ⟨1, _⟩ => show win1_2.index t (1 : Fin 2) * 128 = 0; omega
  exact (Memref.read_access_unit_zero (Elt Ideal) main_v48_1 hz' (fun a => by rw [congrFun hz' a]; simp) (colSquares H)).symm

/-- The last point's block covers every entry of the first output's row. -/
theorem covered_sum1 (i : S1x128.Idx) : ∃ t : Fin cfg1.N, (cfg1.win 1).flush t = true ∧ i ∈ ((cfg1.win 1).blk t).view.set := by
  have h19 : 19 < cfg1.N := by rw [show cfg1.N = 20 from N_1]; decide
  obtain ⟨-, -, z0, z1, -⟩ := block_index1 ⟨19, h19⟩
  refine ⟨⟨19, h19⟩, (flush1_1 _).mpr rfl, ?_⟩
  show i ∈ ((View.whole main_v48_0).slice (win1_1.rect ⟨19, h19⟩)).set
  rw [View.set_slice_whole, Rect.mem_set_unit]
  intro a
  have h0 : (i 0 : Nat) < 1 := (i 0).isLt
  have h1 : (i 1 : Nat) < 128 := (i 1).isLt
  match a with
  | ⟨0, _⟩ => show win1_1.index ⟨19, h19⟩ (0 : Fin 2) * 1 ≤ (i 0 : Nat) ∧ (i 0 : Nat) < win1_1.index ⟨19, h19⟩ (0 : Fin 2) * 1 + 1; omega
  | ⟨1, _⟩ => show win1_1.index ⟨19, h19⟩ (1 : Fin 2) * 128 ≤ (i 1 : Nat) ∧ (i 1 : Nat) < win1_1.index ⟨19, h19⟩ (1 : Fin 2) * 128 + 128; omega

/-- The last point's block covers every entry of the second output's row. -/
theorem covered_sq1 (i : S1x128.Idx) : ∃ t : Fin cfg1.N, (cfg1.win 2).flush t = true ∧ i ∈ ((cfg1.win 2).blk t).view.set := by
  have h19 : 19 < cfg1.N := by rw [show cfg1.N = 20 from N_1]; decide
  obtain ⟨-, -, -, -, z0, z1⟩ := block_index1 ⟨19, h19⟩
  refine ⟨⟨19, h19⟩, (flush1_2 _).mpr rfl, ?_⟩
  show i ∈ ((View.whole main_v48_1).slice (win1_2.rect ⟨19, h19⟩)).set
  rw [View.set_slice_whole, Rect.mem_set_unit]
  intro a
  have h0 : (i 0 : Nat) < 1 := (i 0).isLt
  have h1 : (i 1 : Nat) < 128 := (i 1).isLt
  match a with
  | ⟨0, _⟩ => show win1_2.index ⟨19, h19⟩ (0 : Fin 2) * 1 ≤ (i 0 : Nat) ∧ (i 0 : Nat) < win1_2.index ⟨19, h19⟩ (0 : Fin 2) * 1 + 1; omega
  | ⟨1, _⟩ => show win1_2.index ⟨19, h19⟩ (1 : Fin 2) * 128 ≤ (i 1 : Nat) ∧ (i 1 : Nat) < win1_2.index ⟨19, h19⟩ (1 : Fin 2) * 128 + 128; omega

end Region1

section Final1
variable (V : (c : Dev nD) → (b : Ref sig .tc) → Buf (Elt Ideal) ((c : Thread nD τ).loc b))

/-- First layer, the column sums. -/
theorem moments1_sum (c : Dev nD) (H : S100000x128.Idx → EReal) (hH : V c main_v47 = H) :
    (dat1 (F := Ideal) V c).arrAt 1 cfg1.N
      = (fun j : S1x128.Idx => ∑ r : Fin 100000, H (ix2 r (⟨(j 1).val, (j 1).isLt⟩ : Fin 128))) :=
  (dat1 (F := Ideal) V c).arrAt_eq_of_cover 1 (colSums H) (last_sum1 V c H hH) (covered_sum1)

/-- First layer, the column sums of squares. -/
theorem moments1_sumsq (c : Dev nD) (H : S100000x128.Idx → EReal) (hH : V c main_v47 = H) :
    (dat1 (F := Ideal) V c).arrAt 2 cfg1.N
      = (fun j : S1x128.Idx => ∑ r : Fin 100000, H (ix2 r (⟨(j 1).val, (j 1).isLt⟩ : Fin 128)) * H (ix2 r (⟨(j 1).val, (j 1).isLt⟩ : Fin 128))) :=
  (dat1 (F := Ideal) V c).arrAt_eq_of_cover 2 (colSquares H) (last_sq1 V c H hH) (covered_sq1)
end Final1

/-! ## Region 4: what each case of the body leaves, and the body's arithmetic at an index -/

section Pieces4
variable {F : FTy → Type} [FloatOps F]

/-- A later point leaves in the first output the first payload of the block and of what the buffer held. -/
theorem later_sum4 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero (S := S1x128) hz]
  simp only [View.readAt_eq_ld, h1.read_unread, h2.read_unread, View.ld_unit_zero (S := S5000x128) hz, View.ld_unit_zero (S := S1x128) hz]

/-- A later point leaves in the second output the second payload of the block and of what the buffer held. -/
theorem later_sq4 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero (S := S1x128) hz]
  simp only [View.readAt_eq_ld, h1.read_unread, h3.read_unread, View.ld_unit_zero (S := S5000x128) hz, View.ld_unit_zero (S := S1x128) hz]

/-- The first point stores the zero row, reads it back, and leaves the first payload of the block and the zero row. -/
theorem first_sum4 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S5000x128) hz]

/-- Likewise the second output at the first point. -/
theorem first_sq4 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S5000x128) hz]

end Pieces4

/-- The first payload at (0, q): what the row held there, plus the block's column sum. -/
theorem sum_step4 (x : Vec Ideal S5000x128 .f32) (xo : Vec Ideal S1x128 .f32) (q : Fin 128) :
    k4_pay4 (F := Ideal) x xo (ix2 0 q) = xo (ix2 0 q) + ∑ k : Fin 5000, x (ix2 k q) := by
  unfold k4_pay4 k4_pay3
  dsimp only
  rw [shapeCast_self, shapeCast_self]
  refine (addf_apply _ _ _).trans (congrArg (xo (ix2 0 q) + ·) ?_)
  refine (row_of_vec _ _ q).trans ?_
  exact Cert.Lib.colSum_apply x _ _ _ _ q

/-- The second payload at (0, q): what the row held there, plus the block's column sum of squares. -/
theorem sq_step4 (x : Vec Ideal S5000x128 .f32) (xo : Vec Ideal S1x128 .f32) (q : Fin 128) :
    k4_pay5 (F := Ideal) x xo (ix2 0 q) = xo (ix2 0 q) + ∑ k : Fin 5000, x (ix2 k q) * x (ix2 k q) := by
  unfold k4_pay5 k4_pay3
  dsimp only
  rw [shapeCast_self, shapeCast_self]
  refine (addf_apply _ _ _).trans (congrArg (xo (ix2 0 q) + ·) ?_)
  refine (row_of_vec _ _ q).trans ?_
  exact Cert.Lib.colSum_apply (mulf x x) _ _ _ _ q

/-- The rows the first point stores are zero. -/
theorem zero_row4_a (q : Fin 128) : k4_pay1 (F := Ideal) (ix2 0 q) = 0 := Ideal.ofBits_zero_f32
theorem zero_row4_b (q : Fin 128) : k4_pay2 (F := Ideal) (ix2 0 q) = 0 := Ideal.ofBits_zero_f32

/-! ## Region 4: the moments of `main_v94` -/

section Region4

-- the TensorCore's buffer contents when the region is entered
variable (V : (c : Dev nD) → (b : Ref sig .tc) → Buf (Elt Ideal) ((c : Thread nD τ).loc b))

/-- The input window's block at point t is block (t, 0); both outputs' block is (0, 0) at every point. -/
theorem block_index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- Entry (k, q) of the block the body reads at point t is entry (5000 t + k, q) of the array. -/
theorem block_entry4 (c : Dev nD) (H : S100000x128.Idx → EReal) (hH : V c main_v94 = H) (t : Fin cfg4.N)
    (k : Fin 5000) (q : Fin 128) :
    entry (iblk4 V c 0 t) k q = column H q (5000 * t.val + k.val) := by
  subst hH
  have hN : t.val < 20 := lt_of_lt_of_eq t.isLt (show cfg4.N = 20 from N_4)
  have hk : 5000 * t.val + k.val < 100000 := by have := k.isLt; omega
  rw [column_of_lt _ q _ hk]
  obtain ⟨e0, e1, -⟩ := block_index4 t
  unfold entry iblk4
  rw [View.read_apply]
  show V c main_v94 _ = V c main_v94 _
  congr 1
  funext a; apply Fin.ext
  match a with
  | ⟨0, _⟩ => show win4_0.index t (0 : Fin 2) * 5000 + 1 * k.val = 5000 * t.val + k.val; omega
  | ⟨1, _⟩ => show win4_0.index t (1 : Fin 2) * 128 + 1 * q.val = q.val; omega

/-- The first point: both rows are zeroed, then the block's column sums are added. -/
theorem first_point4 (c : Dev nD) (t : Fin cfg4.N) (hA : t.val % 20 = 0) (q : Fin 128) :
    rowEntry (outsAt4 V c t.val t.isLt).1 q = 0 + ∑ k : Fin 5000, entry (iblk4 V c 0 t) k q
    ∧ rowEntry (outsAt4 V c t.val t.isLt).2 q
        = 0 + ∑ k : Fin 5000, entry (iblk4 V c 0 t) k q * entry (iblk4 V c 0 t) k q := by
  rw [outsAt4_A V c t hA]
  dsimp only
  constructor
  · refine (congrFun (first_sum4 (F := Ideal) c (grid4.coords t) (ms4_0 t) (hs4_0 t) (ms4_1 t) (hs4_1 t) (ms4_2 t) (hs4_2 t)
      ((hcond4_0 t).mpr hA) (iblk4 V c 0 t)) (ix2 0 q)).trans ?_
    refine (sum_step4 (iblk4 V c 0 t) (k4_pay1 (F := Ideal)) q).trans ?_
    rw [zero_row4_a]
  · refine (congrFun (first_sq4 (F := Ideal) c (grid4.coords t) (ms4_0 t) (hs4_0 t) (ms4_1 t) (hs4_1 t) (ms4_2 t) (hs4_2 t)
      ((hcond4_0 t).mpr hA) (iblk4 V c 0 t)) (ix2 0 q)).trans ?_
    refine (sq_step4 (iblk4 V c 0 t) (k4_pay2 (F := Ideal)) q).trans ?_
    rw [zero_row4_b]

/-- A later point: the block's column sums are added to what the point before left. -/
theorem later_point4 (c : Dev nD) (t : Fin cfg4.N) (hB : ¬t.val % 20 = 0) (q : Fin 128) :
    rowEntry (outsAt4 V c t.val t.isLt).1 q
        = rowEntry (outsAt4 V c (t.val - 1) (Nat.lt_of_le_of_lt (Nat.sub_le _ _) t.isLt)).1 q
          + ∑ k : Fin 5000, entry (iblk4 V c 0 t) k q
    ∧ rowEntry (outsAt4 V c t.val t.isLt).2 q
        = rowEntry (outsAt4 V c (t.val - 1) (Nat.lt_of_le_of_lt (Nat.sub_le _ _) t.isLt)).2 q
          + ∑ k : Fin 5000, entry (iblk4 V c 0 t) k q * entry (iblk4 V c 0 t) k q := by
  rw [outsAt4_B V c t hB]
  dsimp only
  constructor
  · refine (congrFun (later_sum4 (F := Ideal) c (grid4.coords t) (ms4_0 t) (hs4_0 t) (ms4_1 t) (hs4_1 t) (ms4_2 t) (hs4_2 t)
      (fun h => hB ((hcond4_0 t).mp h)) (iblk4 V c 0 t)
      (outsAt4 V c (t.val - 1) (Nat.lt_of_le_of_lt (Nat.sub_le _ _) t.isLt)).1
      (outsAt4 V c (t.val - 1) (Nat.lt_of_le_of_lt (Nat.sub_le _ _) t.isLt)).2) (ix2 0 q)).trans ?_
    exact sum_step4 (iblk4 V c 0 t) (outsAt4 V c (t.val - 1) (Nat.lt_of_le_of_lt (Nat.sub_le _ _) t.isLt)).1 q
  · refine (congrFun (later_sq4 (F := Ideal) c (grid4.coords t) (ms4_0 t) (hs4_0 t) (ms4_1 t) (hs4_1 t) (ms4_2 t) (hs4_2 t)
      (fun h => hB ((hcond4_0 t).mp h)) (iblk4 V c 0 t)
      (outsAt4 V c (t.val - 1) (Nat.lt_of_le_of_lt (Nat.sub_le _ _) t.isLt)).1
      (outsAt4 V c (t.val - 1) (Nat.lt_of_le_of_lt (Nat.sub_le _ _) t.isLt)).2) (ix2 0 q)).trans ?_
    exact sq_step4 (iblk4 V c 0 t) (outsAt4 V c (t.val - 1) (Nat.lt_of_le_of_lt (Nat.sub_le _ _) t.isLt)).2 q

/-- THE RUNNING MOMENTS. After point n the first row holds, at column q, the sum of the first 5000 (n + 1) rows of
    that column, and the second row the sum of their squares — by induction on the point. -/
theorem running4 (c : Dev nD) (H : S100000x128.Idx → EReal) (hH : V c main_v94 = H) (q : Fin 128) :
    ∀ (n : ℕ) (h : n < cfg4.N),
      rowEntry (outsAt4 V c n h).1 q = ∑ r ∈ Finset.range (5000 * (n + 1)), column H q r
      ∧ rowEntry (outsAt4 V c n h).2 q = ∑ r ∈ Finset.range (5000 * (n + 1)), column H q r * column H q r
  | 0, h => by
    obtain ⟨e1, e2⟩ := first_point4 V c ⟨0, h⟩ (Nat.zero_mod 20) q
    constructor
    · refine e1.trans ?_
      rw [zero_add]
      refine (Finset.sum_congr rfl fun k _ => block_entry4 V c H hH ⟨0, h⟩ k q).trans ?_
      exact Cert.Lib.BlockSum.sum_first_block (column H q) 5000
    · refine e2.trans ?_
      rw [zero_add]
      refine (Finset.sum_congr rfl fun k _ => by rw [block_entry4 V c H hH ⟨0, h⟩ k q]).trans ?_
      exact Cert.Lib.BlockSum.sum_first_block (fun r => column H q r * column H q r) 5000
  | n + 1, h => by
    have hN : n + 1 < 20 := lt_of_lt_of_eq h (show cfg4.N = 20 from N_4)
    obtain ⟨i1, i2⟩ := running4 c H hH q n (Nat.lt_of_succ_lt h)
    obtain ⟨e1, e2⟩ := later_point4 V c ⟨n + 1, h⟩ (by dsimp only; omega) q
    constructor
    · refine e1.trans ?_
      refine (congrArg (· + _) i1).trans ?_
      refine (congrArg (_ + ·) (Finset.sum_congr rfl fun k _ => block_entry4 V c H hH ⟨n + 1, h⟩ k q)).trans ?_
      exact Cert.Lib.BlockSum.sum_range_block (column H q) 5000 (n + 1)
    · refine e2.trans ?_
      refine (congrArg (· + _) i2).trans ?_
      refine (congrArg (_ + ·) (Finset.sum_congr rfl fun k _ => by rw [block_entry4 V c H hH ⟨n + 1, h⟩ k q])).trans ?_
      exact Cert.Lib.BlockSum.sum_range_block (fun r => column H q r * column H q r) 5000 (n + 1)

/-- After the last point the rows hold the column sums and the column sums of squares. -/
theorem last_rows4 (c : Dev nD) (H : S100000x128.Idx → EReal) (hH : V c main_v94 = H) (t : Fin cfg4.N) (h19 : t.val = 19) :
    (outsAt4 V c t.val t.isLt).1 = colSums H ∧ (outsAt4 V c t.val t.isLt).2 = colSquares H := by
  constructor
  · funext j
    obtain ⟨p, q, rfl⟩ : ∃ (p : Fin 1) (q : Fin 128), j = ix2 p q := ⟨j 0, j 1, eq_ix2 j⟩
    obtain rfl : p = 0 := Subsingleton.elim _ _
    refine ((running4 V c H hH q t.val t.isLt).1).trans ?_
    rw [h19]
    exact whole_column H q
  · funext j
    obtain ⟨p, q, rfl⟩ : ∃ (p : Fin 1) (q : Fin 128), j = ix2 p q := ⟨j 0, j 1, eq_ix2 j⟩
    obtain rfl : p = 0 := Subsingleton.elim _ _
    refine ((running4 V c H hH q t.val t.isLt).2).trans ?_
    rw [h19]
    exact whole_column_sq H q

/-- The one write-back of the first output, after the last point, writes the column sums: its block is the whole row. -/
theorem last_sum4 (c : Dev nD) (H : S100000x128.Idx → EReal) (hH : V c main_v94 = H) (t : Fin cfg4.N)
    (hf : (cfg4.win 1).flush t = true) :
    (dat4 (F := Ideal) V c).flushed 1 t = ((cfg4.win 1).blk t).view.read (Elt Ideal) (colSums H) := by
  have hN : t.val < 20 := lt_of_lt_of_eq t.isLt (show cfg4.N = 20 from N_4)
  have h19 : t.val = 19 := by have := (flush4_1 t).mp hf; omega
  obtain ⟨-, -, z0, z1, -⟩ := block_index4 t
  show (cfg4.win 1).cut (grid4.coords t) ((dat4 V c).after 1 t) = _
  rw [after4_1, (last_rows4 V c H hH t h19).1]
  have hz' : (fun a => win4_1.index t a * main_v95_0.ty.shape.size a) = fun _ => 0 := funext fun a => by
    match a with
    | ⟨0, _⟩ => show win4_1.index t (0 : Fin 2) * 1 = 0; omega
    | ⟨1, _⟩ => show win4_1.index t (1 : Fin 2) * 128 = 0; omega
  exact (Memref.read_access_unit_zero (Elt Ideal) main_v95_0 hz' (fun a => by rw [congrFun hz' a]; simp) (colSums H)).symm

/-- The one write-back of the second output writes the column sums of squares. -/
theorem last_sq4 (c : Dev nD) (H : S100000x128.Idx → EReal) (hH : V c main_v94 = H) (t : Fin cfg4.N)
    (hf : (cfg4.win 2).flush t = true) :
    (dat4 (F := Ideal) V c).flushed 2 t = ((cfg4.win 2).blk t).view.read (Elt Ideal) (colSquares H) := by
  have hN : t.val < 20 := lt_of_lt_of_eq t.isLt (show cfg4.N = 20 from N_4)
  have h19 : t.val = 19 := by have := (flush4_2 t).mp hf; omega
  obtain ⟨-, -, -, -, z0, z1⟩ := block_index4 t
  show (cfg4.win 2).cut (grid4.coords t) ((dat4 V c).after 2 t) = _
  rw [after4_2, (last_rows4 V c H hH t h19).2]
  have hz' : (fun a => win4_2.index t a * main_v95_1.ty.shape.size a) = fun _ => 0 := funext fun a => by
    match a with
    | ⟨0, _⟩ => show win4_2.index t (0 : Fin 2) * 1 = 0; omega
    | ⟨1, _⟩ => show win4_2.index t (1 : Fin 2) * 128 = 0; omega
  exact (Memref.read_access_unit_zero (Elt Ideal) main_v95_1 hz' (fun a => by rw [congrFun hz' a]; simp) (colSquares H)).symm

/-- The last point's block covers every entry of the first output's row. -/
theorem covered_sum4 (i : S1x128.Idx) : ∃ t : Fin cfg4.N, (cfg4.win 1).flush t = true ∧ i ∈ ((cfg4.win 1).blk t).view.set := by
  have h19 : 19 < cfg4.N := by rw [show cfg4.N = 20 from N_4]; decide
  obtain ⟨-, -, z0, z1, -⟩ := block_index4 ⟨19, h19⟩
  refine ⟨⟨19, h19⟩, (flush4_1 _).mpr rfl, ?_⟩
  show i ∈ ((View.whole main_v95_0).slice (win4_1.rect ⟨19, h19⟩)).set
  rw [View.set_slice_whole, Rect.mem_set_unit]
  intro a
  have h0 : (i 0 : Nat) < 1 := (i 0).isLt
  have h1 : (i 1 : Nat) < 128 := (i 1).isLt
  match a with
  | ⟨0, _⟩ => show win4_1.index ⟨19, h19⟩ (0 : Fin 2) * 1 ≤ (i 0 : Nat) ∧ (i 0 : Nat) < win4_1.index ⟨19, h19⟩ (0 : Fin 2) * 1 + 1; omega
  | ⟨1, _⟩ => show win4_1.index ⟨19, h19⟩ (1 : Fin 2) * 128 ≤ (i 1 : Nat) ∧ (i 1 : Nat) < win4_1.index ⟨19, h19⟩ (1 : Fin 2) * 128 + 128; omega

/-- The last point's block covers every entry of the second output's row. -/
theorem covered_sq4 (i : S1x128.Idx) : ∃ t : Fin cfg4.N, (cfg4.win 2).flush t = true ∧ i ∈ ((cfg4.win 2).blk t).view.set := by
  have h19 : 19 < cfg4.N := by rw [show cfg4.N = 20 from N_4]; decide
  obtain ⟨-, -, -, -, z0, z1⟩ := block_index4 ⟨19, h19⟩
  refine ⟨⟨19, h19⟩, (flush4_2 _).mpr rfl, ?_⟩
  show i ∈ ((View.whole main_v95_1).slice (win4_2.rect ⟨19, h19⟩)).set
  rw [View.set_slice_whole, Rect.mem_set_unit]
  intro a
  have h0 : (i 0 : Nat) < 1 := (i 0).isLt
  have h1 : (i 1 : Nat) < 128 := (i 1).isLt
  match a with
  | ⟨0, _⟩ => show win4_2.index ⟨19, h19⟩ (0 : Fin 2) * 1 ≤ (i 0 : Nat) ∧ (i 0 : Nat) < win4_2.index ⟨19, h19⟩ (0 : Fin 2) * 1 + 1; omega
  | ⟨1, _⟩ => show win4_2.index ⟨19, h19⟩ (1 : Fin 2) * 128 ≤ (i 1 : Nat) ∧ (i 1 : Nat) < win4_2.index ⟨19, h19⟩ (1 : Fin 2) * 128 + 128; omega

end Region4

section Final4
variable (V : (c : Dev nD) → (b : Ref sig .tc) → Buf (Elt Ideal) ((c : Thread nD τ).loc b))

/-- Second layer, the column sums. -/
theorem moments4_sum (c : Dev nD) (H : S100000x128.Idx → EReal) (hH : V c main_v94 = H) :
    (dat4 (F := Ideal) V c).arrAt 1 cfg4.N
      = (fun j : S1x128.Idx => ∑ r : Fin 100000, H (ix2 r (⟨(j 1).val, (j 1).isLt⟩ : Fin 128))) :=
  (dat4 (F := Ideal) V c).arrAt_eq_of_cover 1 (colSums H) (last_sum4 V c H hH) (covered_sum4)

/-- Second layer, the column sums of squares. -/
theorem moments4_sumsq (c : Dev nD) (H : S100000x128.Idx → EReal) (hH : V c main_v94 = H) :
    (dat4 (F := Ideal) V c).arrAt 2 cfg4.N
      = (fun j : S1x128.Idx => ∑ r : Fin 100000, H (ix2 r (⟨(j 1).val, (j 1).isLt⟩ : Fin 128)) * H (ix2 r (⟨(j 1).val, (j 1).isLt⟩ : Fin 128))) :=
  (dat4 (F := Ideal) V c).arrAt_eq_of_cover 2 (colSquares H) (last_sq4 V c H hH) (covered_sq4)
end Final4

end Cert.KernelIdeal.MomentsValue

end
-- ==== Proof.NormalizeRegions.lean ====
/-
  The two normalize-and-rectify kernels. Each grid point takes a block of 5000 rows of the features and the four
  [1, 128] rows mean, variance, scale and shift, and stores max ((scale · (h − mean)) · rsqrt (variance + ε) + shift, 0)
  entry by entry, the rows broadcast down the block; the blocks tile the rows, so after the last point entry (p, q)
  of the output array is that expression of entry (p, q) of the features and entry (0, q) of each row.
-/
import proofs.«150451_j53498112639197_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.NormalizeValue

open Cert.KernelIdeal Cert.KernelIdeal.Gen Idealize.ShloMosaic Idealize.ShloMosaic.TcCoe Idealize.ShloMosaic.ValueIdx Idealize.SL.Sem

-- the TensorCore's buffer contents when a region is entered
variable (V : (c : Dev nD) → (b : Ref sig .tc) → Buf (Elt Ideal) ((c : Thread nD τ).loc b))

/-- The normalized, rectified entry from a feature entry and the column's mean, variance, scale and shift. -/
def bnRelu (h mean var scale shift : EReal) : EReal :=
  max ((scale * (h - mean)) * Ideal.rsqrt (var + Ideal.ofBits .f32 0x3727C5AC#32) + shift) (Ideal.ofBits .f32 0x00000000#32)

/-- The origin of a rank-2 shape, coordinate by coordinate. -/
theorem origin2 : (![0, 0] : Fin 2 → Nat) = fun _ => 0 := funext fun a => by fin_cases a <;> rfl

/-- The whole normalized array from the feature array and the four rows, entry by entry. -/
def normalized (h : S100000x128.Idx → EReal) (mean var scale shift : S1x128.Idx → EReal) : S100000x128.Idx → EReal :=
  fun j => bnRelu (h j) (mean (ix2 (0 : Fin 1) (⟨(j 1).val, (j 1).isLt⟩ : Fin 128))) (var (ix2 (0 : Fin 1) (⟨(j 1).val, (j 1).isLt⟩ : Fin 128)))
    (scale (ix2 (0 : Fin 1) (⟨(j 1).val, (j 1).isLt⟩ : Fin 128))) (shift (ix2 (0 : Fin 1) (⟨(j 1).val, (j 1).isLt⟩ : Fin 128)))

/-! ## First layer -/

/-- The body's value at an entry of the block: the four rows are read at the entry's column. -/
theorem blockEntry2_apply (x0 : Vec Ideal S5000x128 .f32) (x1 x2 x3 x4 : Vec Ideal S1x128 .f32) (p : Fin 5000) (q : Fin 128) :
    k2_pay1 (F := Ideal) x0 x1 x2 x3 x4 (ix2 p q)
      = bnRelu (x0 (ix2 p q)) (x1 (ix2 (0 : Fin 1) q)) (x2 (ix2 (0 : Fin 1) q)) (x3 (ix2 (0 : Fin 1) q)) (x4 (ix2 (0 : Fin 1) q)) := by
  unfold k2_pay1 bnRelu
  simp only [shapeCast_self]
  have b1 := broadcastTo_1b_ab_apply x1 broadcasts_S1x128_S5000x128 p q
  have b3 := broadcastTo_1b_ab_apply x3 broadcasts_S1x128_S5000x128 p q
  have b4 := broadcastTo_1b_ab_apply x4 broadcasts_S1x128_S5000x128 p q
  have b2 := broadcastTo_1b_ab_apply
    (rsqrt (addf x2 (broadcast S1x128 (Scalar.ofBits (F := Ideal) .f32 0x3727C5AC#32)))) broadcasts_S1x128_S5000x128 p q
  simp only [maximumf_apply, addf_apply, mulf_apply, subf_apply, broadcast_apply, b1, b2, b3, b4]
  rfl

/-- The same at any index of the block. -/
theorem blockEntry2_at (x0 : Vec Ideal S5000x128 .f32) (x1 x2 x3 x4 : Vec Ideal S1x128 .f32) (y : S5000x128.Idx) :
    k2_pay1 (F := Ideal) x0 x1 x2 x3 x4 y
      = bnRelu (x0 y) (x1 (ix2 (0 : Fin 1) (y 1))) (x2 (ix2 (0 : Fin 1) (y 1))) (x3 (ix2 (0 : Fin 1) (y 1))) (x4 (ix2 (0 : Fin 1) (y 1))) := by
  obtain ⟨p, q, rfl⟩ : ∃ (p : Fin 5000) (q : Fin 128), y = ix2 p q := ⟨y 0, y 1, eq_ix2 y⟩
  exact blockEntry2_apply x0 x1 x2 x3 x4 p q

/-- Where each window's block sits at grid point t: the feature and output blocks at block index t, the four rows
    at the origin. -/
theorem places2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- An entry of the feature block at point t is the entry of the feature array 5000·t rows further down. -/
theorem features2_apply (c : Dev nD) (t : Fin cfg2.N) (x : S5000x128.Idx) (i : S100000x128.Idx)
    (h0 : (i 0).val = 5000 * t.val + (x 0).val) (h1 : (i 1).val = (x 1).val) :
    (iblk2 (F := Ideal) V c 0 t : Vec Ideal S5000x128 .f32) x = V c main_v47 i := by
  obtain ⟨e0, e1, -⟩ := places2 t
  unfold iblk2
  rw [View.read_apply]
  show V c main_v47 _ = V c main_v47 _
  congr 1
  funext a
  apply Fin.ext
  match a with
  | ⟨0, _⟩ => show win2_0.index t 0 * 5000 + 1 * (x 0).val = (i 0).val; rw [e0, h0]; omega
  | ⟨1, _⟩ => show win2_0.index t 1 * 128 + 1 * (x 1).val = (i 1).val; rw [e1, h1]; omega

/-- The mean row's block at every point is the whole row. -/
theorem mean2_apply (c : Dev nD) (t : Fin cfg2.N) (x : S1x128.Idx) :
    (iblk2 (F := Ideal) V c 1 t : Vec Ideal S1x128 .f32) x = V c main_v50 x := by
  obtain ⟨-, -, e0, e1, -⟩ := places2 t
  unfold iblk2
  rw [View.read_apply]
  show V c main_v50 _ = V c main_v50 _
  congr 1
  funext a
  apply Fin.ext
  match a with
  | ⟨0, _⟩ => show win2_1.index t 0 * 1 + 1 * (x 0).val = (x 0).val; rw [e0]; omega
  | ⟨1, _⟩ => show win2_1.index t 1 * 128 + 1 * (x 1).val = (x 1).val; rw [e1]; omega

/-- The variance row's block at every point is the whole row. -/
theorem var2_apply (c : Dev nD) (t : Fin cfg2.N) (x : S1x128.Idx) :
    (iblk2 (F := Ideal) V c 2 t : Vec Ideal S1x128 .f32) x = V c main_v54 x := by
  obtain ⟨-, -, -, -, e0, e1, -⟩ := places2 t
  unfold iblk2
  rw [View.read_apply]
  show V c main_v54 _ = V c main_v54 _
  congr 1
  funext a
  apply Fin.ext
  match a with
  | ⟨0, _⟩ => show win2_2.index t 0 * 1 + 1 * (x 0).val = (x 0).val; rw [e0]; omega
  | ⟨1, _⟩ => show win2_2.index t 1 * 128 + 1 * (x 1).val = (x 1).val; rw [e1]; omega

/-- The scale row's block at every point is the whole row. -/
theorem scale2_apply (c : Dev nD) (t : Fin cfg2.N) (x : S1x128.Idx) :
    (iblk2 (F := Ideal) V c 3 t : Vec Ideal S1x128 .f32) x = V c main_v55 x := by
  obtain ⟨-, -, -, -, -, -, e0, e1, -⟩ := places2 t
  unfold iblk2
  rw [View.read_apply]
  show V c main_v55 _ = V c main_v55 _
  congr 1
  funext a
  apply Fin.ext
  match a with
  | ⟨0, _⟩ => show win2_3.index t 0 * 1 + 1 * (x 0).val = (x 0).val; rw [e0]; omega
  | ⟨1, _⟩ => show win2_3.index t 1 * 128 + 1 * (x 1).val = (x 1).val; rw [e1]; omega

/-- The shift row's block at every point is the whole row. -/
theorem shift2_apply (c : Dev nD) (t : Fin cfg2.N) (x : S1x128.Idx) :
    (iblk2 (F := Ideal) V c 4 t : Vec Ideal S1x128 .f32) x = V c main_v56 x := by
  obtain ⟨-, -, -, -, -, -, -, -, e0, e1, -⟩ := places2 t
  unfold iblk2
  rw [View.read_apply]
  show V c main_v56 _ = V c main_v56 _
  congr 1
  funext a
  apply Fin.ext
  match a with
  | ⟨0, _⟩ => show win2_4.index t 0 * 1 + 1 * (x 0).val = (x 0).val; rw [e0]; omega
  | ⟨1, _⟩ => show win2_4.index t 1 * 128 + 1 * (x 1).val = (x 1).val; rw [e1]; omega

/-- What point t writes back is block t of the whole normalized array. -/
theorem flushed2 (c : Dev nD) (t : Fin cfg2.N) :
    (dat2 (F := Ideal) V c).flushed 5 t = ((cfg2.win 5).blk t).view.read (Elt Ideal)
      (normalized (V c main_v47) (V c main_v50) (V c main_v54) (V c main_v55) (V c main_v56)) := by
  show (cfg2.win 5).cut (grid2.coords t) ((dat2 (F := Ideal) V c).after 5 t) = _
  rw [after2_5]
  unfold out2_5
  rw [View.canon_unit_zero origin2]
  simp only [View.ld_unit_zero (S := S5000x128) origin2, View.ld_unit_zero (S := S1x128) origin2]
  obtain ⟨-, -, -, -, -, -, -, -, -, -, e0, e1⟩ := places2 t
  funext y
  show k2_pay1 (F := Ideal) (iblk2 V c 0 t) (iblk2 V c 1 t) (iblk2 V c 2 t) (iblk2 V c 3 t) (iblk2 V c 4 t) y
    = normalized (V c main_v47) (V c main_v50) (V c main_v54) (V c main_v55) (V c main_v56) (((cfg2.win 5).blk t).view.emb y)
  refine (blockEntry2_at _ _ _ _ _ y).trans ?_
  unfold normalized
  have hy0 : (y 0).val < 5000 := (y 0).isLt
  have hy1 : (y 1).val < 128 := (y 1).isLt
  have r0 : ((((cfg2.win 5).blk t).view.emb y) 0).val = 5000 * t.val + (y 0).val := by
    show win2_5.index t 0 * 5000 + 1 * (y 0).val = _; rw [e0]; omega
  have r1 : ((((cfg2.win 5).blk t).view.emb y) 1).val = (y 1).val := by
    show win2_5.index t 1 * 128 + 1 * (y 1).val = _; rw [e1]; omega
  have hq : (y 1 : Fin 128) = ⟨((((cfg2.win 5).blk t).view.emb y) 1).val, ((((cfg2.win 5).blk t).view.emb y) 1).isLt⟩ :=
    Fin.ext r1.symm
  rw [features2_apply V c t y (((cfg2.win 5).blk t).view.emb y) r0 r1,
    mean2_apply V c t, var2_apply V c t, scale2_apply V c t, shift2_apply V c t, hq]
  rfl

/-- An index of the output array is in point t's block iff each coordinate is in the block's range on its axis. -/
theorem mem_block2 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v57).slice (win2_5.rect t)).set ↔ _
  rw [View.set_slice_whole, Rect.mem_set_unit]
  exact Iff.rfl

/-- Row r of the output lies in the block of point r / 5000: the twenty blocks tile the 100000 rows. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by omega⟩, rfl⟩
  obtain ⟨-, -, -, -, -, -, -, -, -, -, e0, e1⟩ := places2 t
  refine ⟨t, flush2_5 t, ?_⟩
  rw [mem_block2]
  intro a
  match a with
  | ⟨0, _⟩ =>
    show win2_5.index t 0 * 5000 ≤ (i 0).val ∧ (i 0).val < win2_5.index t 0 * 5000 + 5000
    rw [e0, ht]; omega
  | ⟨1, _⟩ =>
    show win2_5.index t 1 * 128 ≤ (i 1).val ∧ (i 1).val < win2_5.index t 1 * 128 + 128
    rw [e1]; omega

/-- First layer. -/
theorem normalize2 (c : Dev nD) (H : S100000x128.Idx → EReal) (Mean Var Scale Shift : S1x128.Idx → EReal)
    (hH : V c main_v47 = H) (hMean : V c main_v50 = Mean) (hVar : V c main_v54 = Var) (hScale : V c main_v55 = Scale) (hShift : V c main_v56 = Shift) :
    (dat2 (F := Ideal) V c).arrAt 5 cfg2.N
      = (fun j : S100000x128.Idx => bnRelu (H j) (Mean (ix2 (0 : Fin 1) (⟨(j 1).val, (j 1).isLt⟩ : Fin 128))) (Var (ix2 (0 : Fin 1) (⟨(j 1).val, (j 1).isLt⟩ : Fin 128)))
          (Scale (ix2 (0 : Fin 1) (⟨(j 1).val, (j 1).isLt⟩ : Fin 128))) (Shift (ix2 (0 : Fin 1) (⟨(j 1).val, (j 1).isLt⟩ : Fin 128)))) := by
  subst hH hMean hVar hScale hShift
  exact (dat2 (F := Ideal) V c).arrAt_eq_of_cover 5
    (normalized (V c main_v47) (V c main_v50) (V c main_v54) (V c main_v55) (V c main_v56))
    (fun t _ => flushed2 V c t) cover2

/-! ## Second layer -/

/-- The body's value at an entry of the block: the four rows are read at the entry's column. -/
theorem blockEntry5_apply (x0 : Vec Ideal S5000x128 .f32) (x1 x2 x3 x4 : Vec Ideal S1x128 .f32) (p : Fin 5000) (q : Fin 128) :
    k5_pay1 (F := Ideal) x0 x1 x2 x3 x4 (ix2 p q)
      = bnRelu (x0 (ix2 p q)) (x1 (ix2 (0 : Fin 1) q)) (x2 (ix2 (0 : Fin 1) q)) (x3 (ix2 (0 : Fin 1) q)) (x4 (ix2 (0 : Fin 1) q)) := by
  unfold k5_pay1 bnRelu
  simp only [shapeCast_self]
  have b1 := broadcastTo_1b_ab_apply x1 broadcasts_S1x128_S5000x128 p q
  have b3 := broadcastTo_1b_ab_apply x3 broadcasts_S1x128_S5000x128 p q
  have b4 := broadcastTo_1b_ab_apply x4 broadcasts_S1x128_S5000x128 p q
  have b2 := broadcastTo_1b_ab_apply
    (rsqrt (addf x2 (broadcast S1x128 (Scalar.ofBits (F := Ideal) .f32 0x3727C5AC#32)))) broadcasts_S1x128_S5000x128 p q
  simp only [maximumf_apply, addf_apply, mulf_apply, subf_apply, broadcast_apply, b1, b2, b3, b4]
  rfl

/-- The same at any index of the block. -/
theorem blockEntry5_at (x0 : Vec Ideal S5000x128 .f32) (x1 x2 x3 x4 : Vec Ideal S1x128 .f32) (y : S5000x128.Idx) :
    k5_pay1 (F := Ideal) x0 x1 x2 x3 x4 y
      = bnRelu (x0 y) (x1 (ix2 (0 : Fin 1) (y 1))) (x2 (ix2 (0 : Fin 1) (y 1))) (x3 (ix2 (0 : Fin 1) (y 1))) (x4 (ix2 (0 : Fin 1) (y 1))) := by
  obtain ⟨p, q, rfl⟩ : ∃ (p : Fin 5000) (q : Fin 128), y = ix2 p q := ⟨y 0, y 1, eq_ix2 y⟩
  exact blockEntry5_apply x0 x1 x2 x3 x4 p q

/-- Where each window's block sits at grid point t: the feature and output blocks at block index t, the four rows
    at the origin. -/
theorem places5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- An entry of the feature block at point t is the entry of the feature array 5000·t rows further down. -/
theorem features5_apply (c : Dev nD) (t : Fin cfg5.N) (x : S5000x128.Idx) (i : S100000x128.Idx)
    (h0 : (i 0).val = 5000 * t.val + (x 0).val) (h1 : (i 1).val = (x 1).val) :
    (iblk5 (F := Ideal) V c 0 t : Vec Ideal S5000x128 .f32) x = V c main_v94 i := by
  obtain ⟨e0, e1, -⟩ := places5 t
  unfold iblk5
  rw [View.read_apply]
  show V c main_v94 _ = V c main_v94 _
  congr 1
  funext a
  apply Fin.ext
  match a with
  | ⟨0, _⟩ => show win5_0.index t 0 * 5000 + 1 * (x 0).val = (i 0).val; rw [e0, h0]; omega
  | ⟨1, _⟩ => show win5_0.index t 1 * 128 + 1 * (x 1).val = (i 1).val; rw [e1, h1]; omega

/-- The mean row's block at every point is the whole row. -/
theorem mean5_apply (c : Dev nD) (t : Fin cfg5.N) (x : S1x128.Idx) :
    (iblk5 (F := Ideal) V c 1 t : Vec Ideal S1x128 .f32) x = V c main_v97 x := by
  obtain ⟨-, -, e0, e1, -⟩ := places5 t
  unfold iblk5
  rw [View.read_apply]
  show V c main_v97 _ = V c main_v97 _
  congr 1
  funext a
  apply Fin.ext
  match a with
  | ⟨0, _⟩ => show win5_1.index t 0 * 1 + 1 * (x 0).val = (x 0).val; rw [e0]; omega
  | ⟨1, _⟩ => show win5_1.index t 1 * 128 + 1 * (x 1).val = (x 1).val; rw [e1]; omega

/-- The variance row's block at every point is the whole row. -/
theorem var5_apply (c : Dev nD) (t : Fin cfg5.N) (x : S1x128.Idx) :
    (iblk5 (F := Ideal) V c 2 t : Vec Ideal S1x128 .f32) x = V c main_v101 x := by
  obtain ⟨-, -, -, -, e0, e1, -⟩ := places5 t
  unfold iblk5
  rw [View.read_apply]
  show V c main_v101 _ = V c main_v101 _
  congr 1
  funext a
  apply Fin.ext
  match a with
  | ⟨0, _⟩ => show win5_2.index t 0 * 1 + 1 * (x 0).val = (x 0).val; rw [e0]; omega
  | ⟨1, _⟩ => show win5_2.index t 1 * 128 + 1 * (x 1).val = (x 1).val; rw [e1]; omega

/-- The scale row's block at every point is the whole row. -/
theorem scale5_apply (c : Dev nD) (t : Fin cfg5.N) (x : S1x128.Idx) :
    (iblk5 (F := Ideal) V c 3 t : Vec Ideal S1x128 .f32) x = V c main_v102 x := by
  obtain ⟨-, -, -, -, -, -, e0, e1, -⟩ := places5 t
  unfold iblk5
  rw [View.read_apply]
  show V c main_v102 _ = V c main_v102 _
  congr 1
  funext a
  apply Fin.ext
  match a with
  | ⟨0, _⟩ => show win5_3.index t 0 * 1 + 1 * (x 0).val = (x 0).val; rw [e0]; omega
  | ⟨1, _⟩ => show win5_3.index t 1 * 128 + 1 * (x 1).val = (x 1).val; rw [e1]; omega

/-- The shift row's block at every point is the whole row. -/
theorem shift5_apply (c : Dev nD) (t : Fin cfg5.N) (x : S1x128.Idx) :
    (iblk5 (F := Ideal) V c 4 t : Vec Ideal S1x128 .f32) x = V c main_v103 x := by
  obtain ⟨-, -, -, -, -, -, -, -, e0, e1, -⟩ := places5 t
  unfold iblk5
  rw [View.read_apply]
  show V c main_v103 _ = V c main_v103 _
  congr 1
  funext a
  apply Fin.ext
  match a with
  | ⟨0, _⟩ => show win5_4.index t 0 * 1 + 1 * (x 0).val = (x 0).val; rw [e0]; omega
  | ⟨1, _⟩ => show win5_4.index t 1 * 128 + 1 * (x 1).val = (x 1).val; rw [e1]; omega

/-- What point t writes back is block t of the whole normalized array. -/
theorem flushed5 (c : Dev nD) (t : Fin cfg5.N) :
    (dat5 (F := Ideal) V c).flushed 5 t = ((cfg5.win 5).blk t).view.read (Elt Ideal)
      (normalized (V c main_v94) (V c main_v97) (V c main_v101) (V c main_v102) (V c main_v103)) := by
  show (cfg5.win 5).cut (grid5.coords t) ((dat5 (F := Ideal) V c).after 5 t) = _
  rw [after5_5]
  unfold out5_5
  rw [View.canon_unit_zero origin2]
  simp only [View.ld_unit_zero (S := S5000x128) origin2, View.ld_unit_zero (S := S1x128) origin2]
  obtain ⟨-, -, -, -, -, -, -, -, -, -, e0, e1⟩ := places5 t
  funext y
  show k5_pay1 (F := Ideal) (iblk5 V c 0 t) (iblk5 V c 1 t) (iblk5 V c 2 t) (iblk5 V c 3 t) (iblk5 V c 4 t) y
    = normalized (V c main_v94) (V c main_v97) (V c main_v101) (V c main_v102) (V c main_v103) (((cfg5.win 5).blk t).view.emb y)
  refine (blockEntry5_at _ _ _ _ _ y).trans ?_
  unfold normalized
  have hy0 : (y 0).val < 5000 := (y 0).isLt
  have hy1 : (y 1).val < 128 := (y 1).isLt
  have r0 : ((((cfg5.win 5).blk t).view.emb y) 0).val = 5000 * t.val + (y 0).val := by
    show win5_5.index t 0 * 5000 + 1 * (y 0).val = _; rw [e0]; omega
  have r1 : ((((cfg5.win 5).blk t).view.emb y) 1).val = (y 1).val := by
    show win5_5.index t 1 * 128 + 1 * (y 1).val = _; rw [e1]; omega
  have hq : (y 1 : Fin 128) = ⟨((((cfg5.win 5).blk t).view.emb y) 1).val, ((((cfg5.win 5).blk t).view.emb y) 1).isLt⟩ :=
    Fin.ext r1.symm
  rw [features5_apply V c t y (((cfg5.win 5).blk t).view.emb y) r0 r1,
    mean5_apply V c t, var5_apply V c t, scale5_apply V c t, shift5_apply V c t, hq]
  rfl

/-- An index of the output array is in point t's block iff each coordinate is in the block's range on its axis. -/
theorem mem_block5 (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v104).slice (win5_5.rect t)).set ↔ _
  rw [View.set_slice_whole, Rect.mem_set_unit]
  exact Iff.rfl

/-- Row r of the output lies in the block of point r / 5000: the twenty blocks tile the 100000 rows. -/
theorem cover5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  obtain ⟨t, ht⟩ : ∃ t : Fin cfg5.N, t.val = (i 0).val / 5000 := ⟨⟨(i 0).val / 5000, by omega⟩, rfl⟩
  obtain ⟨-, -, -, -, -, -, -, -, -, -, e0, e1⟩ := places5 t
  refine ⟨t, flush5_5 t, ?_⟩
  rw [mem_block5]
  intro a
  match a with
  | ⟨0, _⟩ =>
    show win5_5.index t 0 * 5000 ≤ (i 0).val ∧ (i 0).val < win5_5.index t 0 * 5000 + 5000
    rw [e0, ht]; omega
  | ⟨1, _⟩ =>
    show win5_5.index t 1 * 128 ≤ (i 1).val ∧ (i 1).val < win5_5.index t 1 * 128 + 128
    rw [e1]; omega

/-- Second layer. -/
theorem normalize5 (c : Dev nD) (H : S100000x128.Idx → EReal) (Mean Var Scale Shift : S1x128.Idx → EReal)
    (hH : V c main_v94 = H) (hMean : V c main_v97 = Mean) (hVar : V c main_v101 = Var) (hScale : V c main_v102 = Scale) (hShift : V c main_v103 = Shift) :
    (dat5 (F := Ideal) V c).arrAt 5 cfg5.N
      = (fun j : S100000x128.Idx => bnRelu (H j) (Mean (ix2 (0 : Fin 1) (⟨(j 1).val, (j 1).isLt⟩ : Fin 128))) (Var (ix2 (0 : Fin 1) (⟨(j 1).val, (j 1).isLt⟩ : Fin 128)))
          (Scale (ix2 (0 : Fin 1) (⟨(j 1).val, (j 1).isLt⟩ : Fin 128))) (Shift (ix2 (0 : Fin 1) (⟨(j 1).val, (j 1).isLt⟩ : Fin 128)))) := by
  subst hH hMean hVar hScale hShift
  exact (dat5 (F := Ideal) V c).arrAt_eq_of_cover 5
    (normalized (V c main_v94) (V c main_v97) (V c main_v101) (V c main_v102) (V c main_v103))
    (fun t _ => flushed5 V c t) cover5

end Cert.KernelIdeal.NormalizeValue

end
-- ==== Proof.ReferenceNormalize.lean ====
/-
  The reference's batch norm read at an index. Its stages are generated one operation at a time; composed, the column
  mean is the host sum (from the initial value 0) of the feature column divided by 100000, the column variance is the
  mean of the squared deviations from that mean, and an output entry is
  max ((scale · (h − mean)) · rsqrt (variance + ε) + shift, 0), the per-column rows read at the entry's column.
-/
import proofs.«150451_j53498112639197_1_alg».proof.Proof.RefImports
import Idealize.ShloMosaic.Lib.ValueIdx

set_option maxRecDepth 16384

noncomputable section

namespace Cert.ReferenceIdeal.Normalize

open Cert.ReferenceIdeal Cert.ReferenceIdeal.Read Idealize.ShloMosaic Idealize.ShloMosaic.ValueIdx

/-! ## First layer -/

/-- The column mean: the host sum from 0 of the feature column, divided by 100000. -/
theorem mean1 (x0 : (⟨S100000x256, .f32⟩ : BufTy).Contents (Elt Ideal)) (x1 : (⟨S256x128, .f32⟩ : BufTy).Contents (Elt Ideal)) (x2 : (⟨S128, .f32⟩ : BufTy).Contents (Elt Ideal)) (x11 : (⟨S2x1600000, .i32⟩ : BufTy).Contents (Elt Ideal)) (q : Fin 128) :
    val_main_v50 (F := Ideal) x0 x1 x2 x11 (ix1 q)
      = Ideal.div (0 + ∑ r : Fin 100000, val_main_v47 (F := Ideal) x0 x1 x2 x11 (ix2 r q)) (Ideal.ofBits .f32 0x47C35000#32) := by
  rw [val_main_v50_apply, val_main_v48_apply, val_main_v49_apply, val_main_cst_9_apply, val_main_cst_8_apply]
  generalize val_main_v47 (F := Ideal) x0 x1 x2 x11 = H
  show Ideal.div (Ideal.ofBits .f32 0x00000000#32 + _) (Ideal.ofBits .f32 0x47C35000#32) = _
  rw [Ideal.ofBits_zero_f32]
  refine congrArg (fun s => Ideal.div (0 + s) (Ideal.ofBits .f32 0x47C35000#32)) (Finset.sum_congr rfl fun r _ => congrArg H ?_)
  exact funext fun a => Fin.ext (by match a with | ⟨0, _⟩ => rfl | ⟨1, _⟩ => rfl)

/-- The column variance: the mean of the squared deviations from the column mean. -/
theorem variance1 (x0 : (⟨S100000x256, .f32⟩ : BufTy).Contents (Elt Ideal)) (x1 : (⟨S256x128, .f32⟩ : BufTy).Contents (Elt Ideal)) (x2 : (⟨S128, .f32⟩ : BufTy).Contents (Elt Ideal)) (x11 : (⟨S2x1600000, .i32⟩ : BufTy).Contents (Elt Ideal)) (q : Fin 128) :
    val_main_v57 (F := Ideal) x0 x1 x2 x11 (ix1 q)
      = Ideal.div (0 + ∑ r : Fin 100000,
          (val_main_v47 (F := Ideal) x0 x1 x2 x11 (ix2 r q) - Ideal.div (0 + ∑ r : Fin 100000, val_main_v47 (F := Ideal) x0 x1 x2 x11 (ix2 r q)) (Ideal.ofBits .f32 0x47C35000#32))
          * (val_main_v47 (F := Ideal) x0 x1 x2 x11 (ix2 r q) - Ideal.div (0 + ∑ r : Fin 100000, val_main_v47 (F := Ideal) x0 x1 x2 x11 (ix2 r q)) (Ideal.ofBits .f32 0x47C35000#32)))
          (Ideal.ofBits .f32 0x47C35000#32) := by
  rw [val_main_v57_apply, val_main_v55_apply, val_main_v56_apply, val_main_cst_11_apply, val_main_cst_10_apply]
  show Ideal.div (Ideal.ofBits .f32 0x00000000#32 + _) (Ideal.ofBits .f32 0x47C35000#32) = _
  rw [Ideal.ofBits_zero_f32]
  refine congrArg (fun s => Ideal.div (0 + s) (Ideal.ofBits .f32 0x47C35000#32)) (Finset.sum_congr rfl fun r _ => ?_)
  have hi : idx_main_v55 (ix1 q) r = ix2 r q := funext fun a => Fin.ext (by match a with | ⟨0, _⟩ => rfl | ⟨1, _⟩ => rfl)
  have hm : idx_main_v51 (idx_main_v52 (ix2 r q)) = ix1 q := funext fun a => Fin.ext (by match a with | ⟨0, _⟩ => rfl)
  rw [val_main_v54_apply, val_main_v53_apply, val_main_v52_apply, val_main_v51_apply, hi, hm, mean1]
  rfl

/-- The normalized, scaled, shifted and rectified entry. -/
theorem output1 (x0 : (⟨S100000x256, .f32⟩ : BufTy).Contents (Elt Ideal)) (x1 : (⟨S256x128, .f32⟩ : BufTy).Contents (Elt Ideal)) (x2 : (⟨S128, .f32⟩ : BufTy).Contents (Elt Ideal)) (x3 : (⟨S128, .f32⟩ : BufTy).Contents (Elt Ideal)) (x4 : (⟨S128, .f32⟩ : BufTy).Contents (Elt Ideal)) (x11 : (⟨S2x1600000, .i32⟩ : BufTy).Contents (Elt Ideal)) (j : S100000x128.Idx) :
    val_main_v73 (F := Ideal) x0 x1 x2 x3 x4 x11 j
      = max ((x3 (ix1 (⟨(j 1).val, (j 1).isLt⟩ : Fin 128)) * (val_main_v47 (F := Ideal) x0 x1 x2 x11 j - val_main_v50 (F := Ideal) x0 x1 x2 x11 (ix1 (⟨(j 1).val, (j 1).isLt⟩ : Fin 128))))
            * Ideal.rsqrt (val_main_v57 (F := Ideal) x0 x1 x2 x11 (ix1 (⟨(j 1).val, (j 1).isLt⟩ : Fin 128)) + Ideal.ofBits .f32 0x3727C5AC#32)
            + x4 (ix1 (⟨(j 1).val, (j 1).isLt⟩ : Fin 128)))
          (Ideal.ofBits .f32 0x00000000#32) := by
  rw [val_main_v73_apply, val_main_v72_apply, val_main_v69_apply, val_main_v63_apply, val_main_v60_apply,
    val_main_v62_apply, val_main_v61_apply, val_main_v59_apply, val_main_v58_apply,
    val_main_v68_apply, val_main_v67_apply, val_main_v66_apply, val_main_v65_apply, val_main_v64_apply, val_main_cst_12_apply,
    val_main_v71_apply, val_main_v70_apply, val_main_call0_v0_apply, val_main_call0_cst_apply]
  simp only [Ideal.maximumf_def, Ideal.addf_def, Ideal.mulf_def, Ideal.subf_def, Ideal.hostUnary_rsqrt_def, Ideal.ofBits_def]
  have e1 : idx_main_v61 (idx_main_v62 j) = (ix1 (⟨(j 1).val, (j 1).isLt⟩ : Fin 128)) := funext fun a => Fin.ext (by match a with | ⟨0, _⟩ => rfl)
  have e2 : idx_main_v58 (idx_main_v59 j) = (ix1 (⟨(j 1).val, (j 1).isLt⟩ : Fin 128)) := funext fun a => Fin.ext (by match a with | ⟨0, _⟩ => rfl)
  have e3 : idx_main_v67 (idx_main_v68 j) = (ix1 (⟨(j 1).val, (j 1).isLt⟩ : Fin 128)) := funext fun a => Fin.ext (by match a with | ⟨0, _⟩ => rfl)
  have e4 : idx_main_v70 (idx_main_v71 j) = (ix1 (⟨(j 1).val, (j 1).isLt⟩ : Fin 128)) := funext fun a => Fin.ext (by match a with | ⟨0, _⟩ => rfl)
  rw [e1, e2, e3, e4]

/-! ## Second layer -/

/-- The column mean: the host sum from 0 of the feature column, divided by 100000. -/
theorem mean2 (x0 : (⟨S100000x256, .f32⟩ : BufTy).Contents (Elt Ideal)) (x1 : (⟨S256x128, .f32⟩ : BufTy).Contents (Elt Ideal)) (x2 : (⟨S128, .f32⟩ : BufTy).Contents (Elt Ideal)) (x3 : (⟨S128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S2x1600000, .i32⟩ : BufTy).Contents (Elt Ideal)) (q : Fin 128) :
    val_main_v113 (F := Ideal) x0 x1 x2 x3 x4 x5 x6 x11 (ix1 q)
      = Ideal.div (0 + ∑ r : Fin 100000, val_main_v110 (F := Ideal) x0 x1 x2 x3 x4 x5 x6 x11 (ix2 r q)) (Ideal.ofBits .f32 0x47C35000#32) := by
  rw [val_main_v113_apply, val_main_v111_apply, val_main_v112_apply, val_main_cst_21_apply, val_main_cst_20_apply]
  generalize val_main_v110 (F := Ideal) x0 x1 x2 x3 x4 x5 x6 x11 = H
  show Ideal.div (Ideal.ofBits .f32 0x00000000#32 + _) (Ideal.ofBits .f32 0x47C35000#32) = _
  rw [Ideal.ofBits_zero_f32]
  refine congrArg (fun s => Ideal.div (0 + s) (Ideal.ofBits .f32 0x47C35000#32)) (Finset.sum_congr rfl fun r _ => congrArg H ?_)
  exact funext fun a => Fin.ext (by match a with | ⟨0, _⟩ => rfl | ⟨1, _⟩ => rfl)

/-- The column variance: the mean of the squared deviations from the column mean. -/
theorem variance2 (x0 : (⟨S100000x256, .f32⟩ : BufTy).Contents (Elt Ideal)) (x1 : (⟨S256x128, .f32⟩ : BufTy).Contents (Elt Ideal)) (x2 : (⟨S128, .f32⟩ : BufTy).Contents (Elt Ideal)) (x3 : (⟨S128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S2x1600000, .i32⟩ : BufTy).Contents (Elt Ideal)) (q : Fin 128) :
    val_main_v120 (F := Ideal) x0 x1 x2 x3 x4 x5 x6 x11 (ix1 q)
      = Ideal.div (0 + ∑ r : Fin 100000,
          (val_main_v110 (F := Ideal) x0 x1 x2 x3 x4 x5 x6 x11 (ix2 r q) - Ideal.div (0 + ∑ r : Fin 100000, val_main_v110 (F := Ideal) x0 x1 x2 x3 x4 x5 x6 x11 (ix2 r q)) (Ideal.ofBits .f32 0x47C35000#32))
          * (val_main_v110 (F := Ideal) x0 x1 x2 x3 x4 x5 x6 x11 (ix2 r q) - Ideal.div (0 + ∑ r : Fin 100000, val_main_v110 (F := Ideal) x0 x1 x2 x3 x4 x5 x6 x11 (ix2 r q)) (Ideal.ofBits .f32 0x47C35000#32)))
          (Ideal.ofBits .f32 0x47C35000#32) := by
  rw [val_main_v120_apply, val_main_v118_apply, val_main_v119_apply, val_main_cst_23_apply, val_main_cst_22_apply]
  show Ideal.div (Ideal.ofBits .f32 0x00000000#32 + _) (Ideal.ofBits .f32 0x47C35000#32) = _
  rw [Ideal.ofBits_zero_f32]
  refine congrArg (fun s => Ideal.div (0 + s) (Ideal.ofBits .f32 0x47C35000#32)) (Finset.sum_congr rfl fun r _ => ?_)
  have hi : idx_main_v118 (ix1 q) r = ix2 r q := funext fun a => Fin.ext (by match a with | ⟨0, _⟩ => rfl | ⟨1, _⟩ => rfl)
  have hm : idx_main_v114 (idx_main_v115 (ix2 r q)) = ix1 q := funext fun a => Fin.ext (by match a with | ⟨0, _⟩ => rfl)
  rw [val_main_v117_apply, val_main_v116_apply, val_main_v115_apply, val_main_v114_apply, hi, hm, mean2]
  rfl

/-- The normalized, scaled, shifted and rectified entry. -/
theorem output2 (x0 : (⟨S100000x256, .f32⟩ : BufTy).Contents (Elt Ideal)) (x1 : (⟨S256x128, .f32⟩ : BufTy).Contents (Elt Ideal)) (x2 : (⟨S128, .f32⟩ : BufTy).Contents (Elt Ideal)) (x3 : (⟨S128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x11 : (⟨S2x1600000, .i32⟩ : BufTy).Contents (Elt Ideal)) (j : S100000x128.Idx) :
    val_main_v136 (F := Ideal) x0 x1 x2 x3 x4 x5 x6 x7 x8 x11 j
      = max ((x7 (ix1 (⟨(j 1).val, (j 1).isLt⟩ : Fin 128)) * (val_main_v110 (F := Ideal) x0 x1 x2 x3 x4 x5 x6 x11 j - val_main_v113 (F := Ideal) x0 x1 x2 x3 x4 x5 x6 x11 (ix1 (⟨(j 1).val, (j 1).isLt⟩ : Fin 128))))
            * Ideal.rsqrt (val_main_v120 (F := Ideal) x0 x1 x2 x3 x4 x5 x6 x11 (ix1 (⟨(j 1).val, (j 1).isLt⟩ : Fin 128)) + Ideal.ofBits .f32 0x3727C5AC#32)
            + x8 (ix1 (⟨(j 1).val, (j 1).isLt⟩ : Fin 128)))
          (Ideal.ofBits .f32 0x00000000#32) := by
  rw [val_main_v136_apply, val_main_v135_apply, val_main_v132_apply, val_main_v126_apply, val_main_v123_apply,
    val_main_v125_apply, val_main_v124_apply, val_main_v122_apply, val_main_v121_apply,
    val_main_v131_apply, val_main_v130_apply, val_main_v129_apply, val_main_v128_apply, val_main_v127_apply, val_main_cst_24_apply,
    val_main_v134_apply, val_main_v133_apply, val_main_call1_v0_apply, val_main_call1_cst_apply]
  simp only [Ideal.maximumf_def, Ideal.addf_def, Ideal.mulf_def, Ideal.subf_def, Ideal.hostUnary_rsqrt_def, Ideal.ofBits_def]
  have e1 : idx_main_v124 (idx_main_v125 j) = (ix1 (⟨(j 1).val, (j 1).isLt⟩ : Fin 128)) := funext fun a => Fin.ext (by match a with | ⟨0, _⟩ => rfl)
  have e2 : idx_main_v121 (idx_main_v122 j) = (ix1 (⟨(j 1).val, (j 1).isLt⟩ : Fin 128)) := funext fun a => Fin.ext (by match a with | ⟨0, _⟩ => rfl)
  have e3 : idx_main_v130 (idx_main_v131 j) = (ix1 (⟨(j 1).val, (j 1).isLt⟩ : Fin 128)) := funext fun a => Fin.ext (by match a with | ⟨0, _⟩ => rfl)
  have e4 : idx_main_v133 (idx_main_v134 j) = (ix1 (⟨(j 1).val, (j 1).isLt⟩ : Fin 128)) := funext fun a => Fin.ext (by match a with | ⟨0, _⟩ => rfl)
  rw [e1, e2, e3, e4]

end Cert.ReferenceIdeal.Normalize

end
-- ==== Proof.LibRealCollapse.lean ====
/-
  The algebra of a two-layer graph convolution on the extended reals. Independent of any program.

  A layer aggregates, at node n, the rows of a feature matrix at the sources of the edges that end in n, each
  row scaled by a per-source weight; the aggregate is scaled by a per-node weight and multiplied by a dense weight
  matrix. Multiplying by the weight matrix BEFORE aggregating gives the same result, because the product is linear in
  the rows: for real entries
      ((Σ_e (Σ_k h e k · W k) · a e) · c = Σ_k ((Σ_e h e k · a e) · c) · W k.
  On the extended reals distributivity fails at the infinities, so the law is stated for entries that are real
  numbers; the predicate `IsReal` and its closure under the operations a layer uses say which entries are.
-/
import Mathlib.Data.EReal.Basic
import Mathlib.Data.EReal.Operations
import Mathlib.Algebra.BigOperators.Ring.Finset
import Mathlib.Algebra.BigOperators.Group.Finset.Sigma
import Mathlib.Tactic.Ring

noncomputable section

namespace Cert.Gcn

open Finset

/-- An extended real that is a real number. -/
def IsReal (v : EReal) : Prop := ∃ r : ℝ, v = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {u v : EReal} (hu : IsReal u) (hv : IsReal v) : IsReal (u + v) := by
  obtain ⟨a, rfl⟩ := hu; obtain ⟨b, rfl⟩ := hv
  exact ⟨a + b, (EReal.coe_add a b).symm⟩

theorem IsReal.mul {u v : EReal} (hu : IsReal u) (hv : IsReal v) : IsReal (u * v) := by
  obtain ⟨a, rfl⟩ := hu; obtain ⟨b, rfl⟩ := hv
  exact ⟨a * b, (EReal.coe_mul a b).symm⟩

theorem IsReal.max {u v : EReal} (hu : IsReal u) (hv : IsReal v) : IsReal (max u v) := by
  rcases max_choice u v with h | h <;> rw [h] <;> assumption

theorem IsReal.sum {ι : Type} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The dense weight commutes with the weighted aggregation, over the reals. -/
theorem collapse_real {ι κ : Type} [Fintype κ] (S : Finset ι) (h : ι → κ → ℝ) (a : ι → ℝ) (W : κ → ℝ) (c : ℝ) :
    (∑ e ∈ S, (∑ k, h e k * W k) * a e) * c = ∑ k, ((∑ e ∈ S, h e k * a e) * c) * W k := by
  simp only [Finset.sum_mul]
  rw [Finset.sum_comm]
  exact Finset.sum_congr rfl fun k _ => Finset.sum_congr rfl fun e _ => by ring

/-- The same on the extended reals, for entries that are real numbers: the node's result with the weight applied
    before the aggregation equals the result with the weight applied after it; the bias `b` is any extended real. -/
theorem collapse {ι κ : Type} [Fintype κ] (S : Finset ι) (h : ι → κ → EReal) (a : ι → EReal) (W : κ → EReal) (c b : EReal)
    (hh : ∀ e k, IsReal (h e k)) (ha : ∀ e, IsReal (a e)) (hW : ∀ k, IsReal (W k)) (hc : IsReal c) :
    (∑ e ∈ S, (∑ k, h e k * W k) * a e) * c + b = (∑ k, ((∑ e ∈ S, h e k * a e) * c) * W k) + b := by
  choose h' hh' using hh
  choose a' ha' using ha
  choose W' hW' using hW
  obtain ⟨c', rfl⟩ := hc
  refine congrArg (· + b) ?_
  simp only [hh', ha', hW', ← EReal.coe_mul, ← coe_sum]
  exact congrArg _ (collapse_real S h' a' W' c')

end Cert.Gcn

end
-- ==== Proof.LibBatchNormMoments.lean ====
/-
  Batch-normalisation moments on the extended reals. Independent of any program.

  A column `h` of `n` entries has the mean `μ = (Σ h) / n`. Its variance is written in two ways:
      the mean of the squared deviations,          (Σ_i (h i − μ)²) / n,
      the second moment minus the squared mean,    (Σ_i (h i)²) / n − μ².
  Over the real numbers the two agree: expand the square, use `Σ_i μ = n · μ`, and cancel. On the extended reals the
  expansion needs distributivity, which fails at the infinities, so the identity is stated for columns whose
  entries are real numbers (`IsReal`). For such a column the variance is a non-negative real number (a sum of
  squares over a positive count), hence `variance + ε` is a positive real for every real `ε > 0` and its reciprocal
  square root is again a real number.

  Also here: `IsReal` is closed under subtraction, under division by a nonzero real and under the reciprocal
  square root of a positive real; and three single-precision words as the real numbers they denote
  (`100000`, `1`, and the word nearest `1e-5`, of which only the sign is used).
-/
import proofs.«150451_j53498112639197_1_alg».proof.Proof.LibRealCollapse
import Idealize.ShloMosaic.PureOps.Ideal

noncomputable section

namespace Cert.BatchNorm

open Finset Idealize.ShloMosaic Cert.Gcn

/-! ### Closure of the real entries -/

/-- The difference of two real numbers is a real number. -/
theorem _root_.Cert.Gcn.IsReal.sub {u v : EReal} (hu : IsReal u) (hv : IsReal v) : IsReal (u - v) := by
  obtain ⟨a, rfl⟩ := hu; obtain ⟨b, rfl⟩ := hv
  exact ⟨a - b, (EReal.coe_sub a b).symm⟩

/-- A real number divided by a nonzero real number is a real number. -/
theorem isReal_div {u : EReal} (hu : IsReal u) {N : ℝ} (hN : N ≠ 0) : IsReal (Ideal.div u (N : EReal)) := by
  obtain ⟨a, rfl⟩ := hu
  rw [Ideal.div_coe hN]
  exact ⟨a * (1 / N), (EReal.coe_mul a (1 / N)).symm⟩

/-- The reciprocal square root of a positive real number is a real number. -/
theorem isReal_rsqrt {r : ℝ} (hr : 0 < r) : IsReal (Ideal.rsqrt (r : EReal)) := by
  rw [Ideal.rsqrt_coe, if_neg (not_lt.mpr hr.le), if_neg hr.ne']
  exact ⟨(Real.sqrt r)⁻¹, rfl⟩

/-- The reciprocal square root of a non-negative real plus a positive real is a real number: the shape
    `rsqrt (variance + ε)`. -/
theorem isReal_rsqrt_var_eps {v e : ℝ} (hv : 0 ≤ v) (he : 0 < e) :
    IsReal (Ideal.rsqrt ((v : EReal) + (e : EReal))) := by
  rw [← EReal.coe_add]
  exact isReal_rsqrt (add_pos_of_nonneg_of_pos hv he)

/-! ### The two forms of the variance -/

/-- Over the reals, with `n` the number of entries and division written as the product with `1 / n`: the mean of
    the squared deviations from the mean equals the second moment minus the squared mean. -/
theorem variance_moments_real {ι : Type} [Fintype ι] (x : ι → ℝ) (N : ℝ) (hN : N = (Fintype.card ι : ℝ))
    (hN0 : N ≠ 0) :
    (∑ i, (x i - (∑ i, x i) * (1 / N)) * (x i - (∑ i, x i) * (1 / N))) * (1 / N)
      = (∑ i, x i * x i) * (1 / N) - (∑ i, x i) * (1 / N) * ((∑ i, x i) * (1 / N)) := by
  generalize hS : ∑ i, x i = S
  generalize hμ : S * (1 / N) = μ
  have hexp : ∀ i, (x i - μ) * (x i - μ) = x i * x i - 2 * μ * x i + μ * μ := fun i => by ring
  have hsum : ∑ i, (x i - μ) * (x i - μ) = ∑ i, x i * x i - 2 * μ * S + N * (μ * μ) := by
    simp only [hexp, Finset.sum_add_distrib, Finset.sum_sub_distrib, ← Finset.mul_sum, hS, Finset.sum_const,
      Finset.card_univ, nsmul_eq_mul, ← hN]
    ring
  rw [hsum, ← hμ]
  field_simp
  ring

/-- For a column of real entries, the mean of the squared deviations from the mean (the sums starting from the
    initial value `0`) equals the second moment minus the squared mean. -/
theorem variance_moments {ι : Type} [Fintype ι] (h : ι → EReal) (hh : ∀ i, IsReal (h i)) (N : ℝ)
    (hN : N = (Fintype.card ι : ℝ)) (hpos : 0 < Fintype.card ι) :
    Ideal.div (0 + ∑ i, (h i - Ideal.div (0 + ∑ i, h i) (N : EReal)) * (h i - Ideal.div (0 + ∑ i, h i) (N : EReal))) (N : EReal)
      = Ideal.div (∑ i, h i * h i) (N : EReal) - Ideal.div (∑ i, h i) (N : EReal) * Ideal.div (∑ i, h i) (N : EReal) := by
  choose h' hh' using hh
  have hN0 : N ≠ 0 := by rw [hN]; exact_mod_cast hpos.ne'
  simp only [zero_add, hh', Ideal.div_coe hN0, ← coe_sum, ← EReal.coe_mul, ← EReal.coe_sub]
  exact congrArg _ (variance_moments_real h' N hN hN0)

/-- For a column of real entries the variance, in the form second moment minus squared mean, is a non-negative
    real number: it is the mean of the squared deviations, a sum of squares over a positive count. -/
theorem variance_nonneg {ι : Type} [Fintype ι] (h : ι → EReal) (hh : ∀ i, IsReal (h i)) (N : ℝ)
    (hN : N = (Fintype.card ι : ℝ)) (hpos : 0 < Fintype.card ι) :
    ∃ v : ℝ, 0 ≤ v ∧ Ideal.div (∑ i, h i * h i) (N : EReal) - Ideal.div (∑ i, h i) (N : EReal) * Ideal.div (∑ i, h i) (N : EReal) = (v : EReal) := by
  rw [← variance_moments h hh N hN hpos]
  choose h' hh' using hh
  have hNpos : 0 < N := by rw [hN]; exact_mod_cast hpos
  refine ⟨(∑ i, (h' i - (∑ i, h' i) * (1 / N)) * (h' i - (∑ i, h' i) * (1 / N))) * (1 / N), ?_, ?_⟩
  · exact mul_nonneg (Finset.sum_nonneg fun i _ => mul_self_nonneg _) (one_div_pos.mpr hNpos).le
  · simp only [zero_add, hh', Ideal.div_coe hNpos.ne', ← coe_sum, ← EReal.coe_mul, ← EReal.coe_sub]

/-! ### Three single-precision words -/

/-- The word `0x47C35000` (exponent field `143`, fraction field `0x435000`) denotes
    `(2^23 + 4411392) · 2^(143 − 127 − 23) = 100000`. -/
theorem ofBits_hundred_thousand : Ideal.ofBits .f32 0x47C35000#32 = ((100000 : ℝ) : EReal) := by
  simp [Ideal.ofBits, Ideal.ieee, -EReal.coe_mul]; norm_num

/-- The word `0x3F800000` (exponent field `127`, fraction field `0`) denotes `2^23 · 2^(−23) = 1`. -/
theorem ofBits_one : Ideal.ofBits .f32 0x3F800000#32 = ((1 : ℝ) : EReal) := by
  simp [Ideal.ofBits, Ideal.ieee, -EReal.coe_mul]; norm_num

/-- The word `0x3727C5AC`, the single-precision number nearest `1e-5` (exponent field `110`, fraction field
    `0x27C5AC`), denotes the positive real `(2^23 + 2606508) · 2^(110 − 127 − 23)`. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Cert.BatchNorm

end
-- ==== Proof.BatchNormBridge.lean ====
/-
  One normalized entry of a batch-norm layer, in two arrangements. A column of n real features H has mean
  μ = (Σ H)/n. The kernel computes the variance from the two moments, (Σ H²)/n − μ·μ; the reference computes the mean
  of the squared deviations, (Σ (H − μ)²)/n, and its host sums start from the initial value 0. For real features the two
  variances are equal (expand the square: Σ (H − μ)² = Σ H² − 2μ·Σ H + n·μ², and Σ H = n·μ), so the normalized,
  scaled, shifted and rectified entries built from them are equal, whatever the scale, shift, ε and the entry itself.
-/
import proofs.«150451_j53498112639197_1_alg».proof.Proof.LibBatchNormMoments

noncomputable section

namespace Cert.BatchNorm

open Finset Idealize.ShloMosaic Cert.Gcn

/-- The entry normalized with the moment form of the variance equals the entry normalized with the mean of squared
    deviations, for a column of real features. -/
theorem normalized_entry_eq {n : ℕ} (hn : 0 < n) (H : Fin n → EReal) (hH : ∀ r, IsReal (H r))
    (N : EReal) (hN : N = (((n : ℕ) : ℝ) : EReal)) (x g b e z : EReal) :
    max ((g * (x - Ideal.div (∑ r, H r) N))
          * Ideal.rsqrt ((Ideal.div (∑ r, H r * H r) N - Ideal.div (∑ r, H r) N * Ideal.div (∑ r, H r) N) + e) + b) z
      = max ((g * (x - Ideal.div (0 + ∑ r, H r) N))
          * Ideal.rsqrt (Ideal.div (0 + ∑ r, (H r - Ideal.div (0 + ∑ r, H r) N) * (H r - Ideal.div (0 + ∑ r, H r) N)) N + e) + b) z := by
  subst hN
  rw [variance_moments H hH (n : ℝ) (by simp) (by simpa using hn)]
  simp only [zero_add]

end Cert.BatchNorm

end
-- ==== Proof.LibRealArrays.lean ====
/-
  Arrays of real numbers under the operations of a host program. Independent of any program.

  The ideal values of a float array are extended reals. Most algebraic laws (distributivity above all) hold on the
  extended reals only away from the infinities, so a proof that uses them first needs to know that the entries it
  meets are real numbers. This file gives that knowledge operation by operation: an entrywise product, sum,
  difference or maximum of real arrays is real; a constant, a broadcast and a gather only repeat entries of their
  operand; an accumulating scatter, a contraction and a sum over axes are finite sums of entries or of products of
  entries; a quotient by a nonzero real constant is real. Two refinements carry a sign: a finite sum of non-negative
  reals is a non-negative real (a count of edges, a sum of squares), and a non-negative real plus a positive real is
  positive, so that its reciprocal square root is a real number again.
-/
import proofs.«150451_j53498112639197_1_alg».proof.Proof.LibBatchNormMoments
import Idealize.ShloMosaic.PureOps.Ideal.Laws
import Idealize.ShloMosaic.Lib.ValueIdx

noncomputable section

namespace Cert.Lib.RealArrays

open Finset Idealize.ShloMosaic Cert.Gcn Cert.BatchNorm

/-! ### Non-negative and positive real numbers among the extended reals -/

/-- An extended real that is a non-negative real number. -/
def IsNonnegReal (v : EReal) : Prop := ∃ r : ℝ, 0 ≤ r ∧ v = (r : EReal)

/-- An extended real that is a positive real number. -/
def IsPosReal (v : EReal) : Prop := ∃ r : ℝ, 0 < r ∧ v = (r : EReal)

/-- A non-negative real number is a real number. -/
theorem IsNonnegReal.isReal {v : EReal} (h : IsNonnegReal v) : IsReal v := by
  obtain ⟨r, _, rfl⟩ := h; exact ⟨r, rfl⟩

/-- A positive real number is a real number. -/
theorem IsPosReal.isReal {v : EReal} (h : IsPosReal v) : IsReal v := by
  obtain ⟨r, _, rfl⟩ := h; exact ⟨r, rfl⟩

/-- A positive real number is a non-negative one. -/
theorem IsPosReal.isNonnegReal {v : EReal} (h : IsPosReal v) : IsNonnegReal v := by
  obtain ⟨r, hr, rfl⟩ := h; exact ⟨r, hr.le, rfl⟩

/-- Zero is a non-negative real. -/
theorem isNonnegReal_zero : IsNonnegReal (0 : EReal) := ⟨0, le_rfl, rfl⟩
/-- One is a positive real. -/
theorem isPosReal_one : IsPosReal (1 : EReal) := ⟨1, one_pos, rfl⟩

/-- The sum of two non-negative reals is a non-negative real. -/
theorem IsNonnegReal.add {u v : EReal} (hu : IsNonnegReal u) (hv : IsNonnegReal v) : IsNonnegReal (u + v) := by
  obtain ⟨a, ha, rfl⟩ := hu; obtain ⟨b, hb, rfl⟩ := hv
  exact ⟨a + b, add_nonneg ha hb, (EReal.coe_add a b).symm⟩

/-- A non-negative real plus a positive real is a positive real. -/
theorem IsNonnegReal.add_pos {u v : EReal} (hu : IsNonnegReal u) (hv : IsPosReal v) : IsPosReal (u + v) := by
  obtain ⟨a, ha, rfl⟩ := hu; obtain ⟨b, hb, rfl⟩ := hv
  exact ⟨a + b, add_pos_of_nonneg_of_pos ha hb, (EReal.coe_add a b).symm⟩

/-- The square of a real number is a non-negative real. -/
theorem _root_.Cert.Gcn.IsReal.mul_self_nonneg {v : EReal} (h : IsReal v) : IsNonnegReal (v * v) := by
  obtain ⟨a, rfl⟩ := h
  exact ⟨a * a, _root_.mul_self_nonneg a, (EReal.coe_mul a a).symm⟩

/-- A finite sum of non-negative reals is a non-negative real. -/
theorem IsNonnegReal.sum {ι : Type} (S : Finset ι) (f : ι → EReal) (hf : ∀ i ∈ S, IsNonnegReal (f i)) :
    IsNonnegReal (∑ i ∈ S, f i) := by
  classical
  induction S using Finset.induction_on with
  | empty => simpa using isNonnegReal_zero
  | insert a S ha ih =>
    rw [Finset.sum_insert ha]
    exact (hf a (Finset.mem_insert_self a S)).add (ih fun i hi => hf i (Finset.mem_insert_of_mem hi))

/-- A non-negative real divided by a positive real is a non-negative real. -/
theorem IsNonnegReal.div {u : EReal} (hu : IsNonnegReal u) {N : ℝ} (hN : 0 < N) :
    IsNonnegReal (Ideal.div u (N : EReal)) := by
  obtain ⟨a, ha, rfl⟩ := hu
  rw [Ideal.div_coe hN.ne']
  exact ⟨a * (1 / N), mul_nonneg ha (one_div_pos.mpr hN).le, (EReal.coe_mul a (1 / N)).symm⟩

/-- The reciprocal square root of a positive real is a real number. -/
theorem IsPosReal.rsqrt {v : EReal} (h : IsPosReal v) : IsReal (Ideal.rsqrt v) := by
  obtain ⟨r, hr, rfl⟩ := h; exact isReal_rsqrt hr

/-! ### Arrays of real numbers under the operations of a host program, at the ideal values

Each lemma says: if every entry of the operands is a real number, so is every entry of the result. The arrays,
index arrays and dimension numbers are arbitrary. -/

variable {s t : Shape} {φ : FTy}

/-- Entrywise product. -/
theorem real_mulf (x y : FVec Ideal s φ) (hx : ∀ i, IsReal (x i)) (hy : ∀ i, IsReal (y i)) :
    ∀ i, IsReal (mulf x y i) := fun i => (hx i).mul (hy i)

/-- Entrywise sum. -/
theorem real_addf (x y : FVec Ideal s φ) (hx : ∀ i, IsReal (x i)) (hy : ∀ i, IsReal (y i)) :
    ∀ i, IsReal (addf x y i) := fun i => (hx i).add (hy i)

/-- Entrywise difference. -/
theorem real_subf (x y : FVec Ideal s φ) (hx : ∀ i, IsReal (x i)) (hy : ∀ i, IsReal (y i)) :
    ∀ i, IsReal (subf x y i) := fun i => (hx i).sub (hy i)

/-- Entrywise maximum. -/
theorem real_maximumf (x y : FVec Ideal s φ) (hx : ∀ i, IsReal (x i)) (hy : ∀ i, IsReal (y i)) :
    ∀ i, IsReal (maximumf x y i) := fun i => (hx i).max (hy i)

/-- The entrywise square of an array of reals has non-negative real entries. -/
theorem nonneg_mulf_self (x : FVec Ideal s φ) (hx : ∀ i, IsReal (x i)) :
    ∀ i, IsNonnegReal (mulf x x i) := fun i => (hx i).mul_self_nonneg

/-- Entrywise sum of a non-negative and a positive array. -/
theorem pos_addf (x y : FVec Ideal s φ) (hx : ∀ i, IsNonnegReal (x i)) (hy : ∀ i, IsPosReal (y i)) :
    ∀ i, IsPosReal (addf x y i) := fun i => (hx i).add_pos (hy i)

/-- A splat constant: every entry is the value of the one word. -/
theorem prop_constant (P : EReal → Prop) (b : BitVec φ.bits) (hb : P (Ideal.ofBits φ b)) :
    ∀ i, P (constant (F := Ideal) s φ b i) := fun _ => hb

/-- A broadcast: every entry of the result is an entry of the operand, so a property of all entries carries over. -/
theorem prop_broadcastInDim (P : EReal → Prop) (dims : Fin s.rank → Fin t.rank) (h : s.BroadcastsInDim t dims)
    (x : s.Idx → EReal) (hx : ∀ i, P (x i)) : ∀ j, P (broadcastInDim t dims h x j) := fun _ => hx _

/-- A gather: every entry of the result is the operand's entry at some index, whatever the index array. -/
theorem prop_gather (P : EReal → Prop) {si : Shape} {w : Nat} (d : GatherDims s si t) (x : s.Idx → EReal)
    (idx : IVec si w) (hx : ∀ i, P (x i)) : ∀ j, P (Host.gather d x idx j) := fun _ => hx _

/-- An accumulating scatter: each entry is the operand's entry plus a finite sum of update entries. -/
theorem real_scatterAdd {si u : Shape} {w : Nat} (d : ScatterDims s si u) (x : FVec Ideal s φ) (idx : IVec si w)
    (upd : FVec Ideal u φ) (hx : ∀ i, IsReal (x i)) (hu : ∀ j, IsReal (upd j)) :
    ∀ i, IsReal (Host.scatterAdd d x idx upd i) := fun i =>
  (hx i).add (IsReal.sum _ _ fun j _ => hu j)

/-- An accumulating scatter of non-negative reals into non-negative reals. -/
theorem nonneg_scatterAdd {si u : Shape} {w : Nat} (d : ScatterDims s si u) (x : FVec Ideal s φ) (idx : IVec si w)
    (upd : FVec Ideal u φ) (hx : ∀ i, IsNonnegReal (x i)) (hu : ∀ j, IsNonnegReal (upd j)) :
    ∀ i, IsNonnegReal (Host.scatterAdd d x idx upd i) := fun i =>
  (hx i).add (IsNonnegReal.sum _ _ fun j _ => hu j)

/-- A contraction: each entry is a finite sum of products. -/
theorem real_dotGeneral {sl sr so : Shape} {φ₁ φ₂ : FTy} (d : DotDims sl sr so) (prec : Option ContractPrecision)
    (x : FVec Ideal sl φ₁) (y : FVec Ideal sr φ₂) (hx : ∀ i, IsReal (x i)) (hy : ∀ i, IsReal (y i)) :
    ∀ j, IsReal (Host.dotGeneral d prec x y j) := fun j => by
  simp only [Host.dotGeneral]
  rw [Ideal.dotGeneral_apply]
  exact IsReal.sum _ _ fun k _ => (hx _).mul (hy _)

/-- A sum over axes: each entry is the initial value plus a finite sum of operand entries. -/
theorem real_reduceAdd {axes : List (Fin s.rank)} {u : Shape} (x : FVec Ideal s φ) (init : u.Idx → Ideal φ)
    (h : s.ReducesTo axes t) (hu : 0 < u.numel) (hx : ∀ i, IsReal (x i)) (hinit : ∀ i, IsReal (init i)) :
    ∀ j, IsReal (Host.reduceAdd x init h hu j) := fun j =>
  (hinit _).add (IsReal.sum _ _ fun i _ => hx i)

/-- A sum over axes of non-negative reals from a non-negative initial value. -/
theorem nonneg_reduceAdd {axes : List (Fin s.rank)} {u : Shape} (x : FVec Ideal s φ) (init : u.Idx → Ideal φ)
    (h : s.ReducesTo axes t) (hu : 0 < u.numel) (hx : ∀ i, IsNonnegReal (x i)) (hinit : ∀ i, IsNonnegReal (init i)) :
    ∀ j, IsNonnegReal (Host.reduceAdd x init h hu j) := fun j =>
  (hinit _).add (IsNonnegReal.sum _ _ fun i _ => hx i)

/-- An entrywise quotient by an array whose entries are all one nonzero real. -/
theorem real_hostDivf (x y : FVec Ideal s φ) {N : ℝ} (hN : N ≠ 0) (hx : ∀ i, IsReal (x i))
    (hy : ∀ i, y i = (N : EReal)) : ∀ i, IsReal (Host.divf x y i) := fun i => by
  show IsReal (Ideal.div (x i) (y i))
  rw [hy i]; exact isReal_div (hx i) hN

/-- An entrywise quotient of non-negative reals by an array whose entries are all one positive real. -/
theorem nonneg_hostDivf (x y : FVec Ideal s φ) {N : ℝ} (hN : 0 < N) (hx : ∀ i, IsNonnegReal (x i))
    (hy : ∀ i, y i = (N : EReal)) : ∀ i, IsNonnegReal (Host.divf x y i) := fun i => by
  show IsNonnegReal (Ideal.div (x i) (y i))
  rw [hy i]; exact (hx i).div hN

/-- The entrywise reciprocal square root of positive reals. -/
theorem real_hostRsqrt (x : FVec Ideal s φ) (hx : ∀ i, IsPosReal (x i)) : ∀ i, IsReal (Host.rsqrt x i) :=
  fun i => (hx i).rsqrt

end Cert.Lib.RealArrays

end
-- ==== Proof.StageRealness.lean ====
/-
  The reference's graph-convolution layers produce real numbers from real inputs.

  The reference computes, twice, a graph convolution followed (the first time) by a column normalisation and a
  rectifier. Its ideal values are extended reals, where the algebra a comparison with another program needs
  (distributivity: the variance as second moment minus squared mean, the weight commuting with the aggregation)
  holds only for entries that are real numbers. This module shows that every float stage of the two layers is
  entrywise a real number when the float inputs are, whatever the edge list is.

  Stage by stage: the in-degree is a finite sum of ones, so in-degree plus one is a positive real and its reciprocal
  square root a real; gathers and broadcasts only repeat entries; products, sums, differences and maxima of reals are
  reals; an accumulating scatter, a matrix product and a column sum are finite sums of reals; the column mean divides
  by the nonzero real `100000`; the variance is a sum of squares of reals over `100000`, a non-negative real, so
  variance plus the positive `ε` is a positive real and its reciprocal square root a real.
-/
import proofs.«150451_j53498112639197_1_alg».proof.Proof.RefImports
import proofs.«150451_j53498112639197_1_alg».proof.Proof.LibBatchNormMoments
import proofs.«150451_j53498112639197_1_alg».proof.Proof.LibRealArrays
import Idealize.ShloMosaic.Lib.ValueIdx

noncomputable section

namespace Cert.ReferenceIdeal.Realness

open Cert.ReferenceIdeal Cert.ReferenceIdeal.Gen Cert.ReferenceIdeal.Read Idealize.ShloMosaic Idealize.ShloMosaic.TcCoe
  Idealize.SL.Sem Idealize.ShloMosaic.StableHlo Cert.Gcn Cert.BatchNorm Cert.Lib.RealArrays

/-! ### The float words the reference spells -/

/-- The word of `1.0` denotes a positive real. -/
theorem word_one : IsPosReal (Ideal.ofBits .f32 0x3F800000#32) := ⟨1, one_pos, ofBits_one⟩

/-- The word of `0.0` denotes a non-negative real. -/
theorem word_zero : IsNonnegReal (Ideal.ofBits .f32 0x00000000#32) := ⟨0, le_rfl, Ideal.ofBits_zero_f32⟩

/-- The word of `ε` denotes a positive real. -/
theorem word_eps : IsPosReal (Ideal.ofBits .f32 0x3727C5AC#32) := ofBits_eps_pos

/-- The node count `100000` is positive, hence not zero. -/
theorem count_pos : (0 : ℝ) < 100000 := by norm_num
theorem count_ne_zero : (100000 : ℝ) ≠ 0 := by norm_num

variable (x0 : (⟨S100000x256, .f32⟩ : BufTy).Contents (Elt Ideal)) (x1 : (⟨S256x128, .f32⟩ : BufTy).Contents (Elt Ideal))
  (x2 x3 x4 : (⟨S128, .f32⟩ : BufTy).Contents (Elt Ideal)) (x5 : (⟨S128x128, .f32⟩ : BufTy).Contents (Elt Ideal))
  (x6 : (⟨S128, .f32⟩ : BufTy).Contents (Elt Ideal)) (x11 : (⟨S2x1600000, .i32⟩ : BufTy).Contents (Elt Ideal))

/-! ### The degree normalisation: `1 / sqrt (in-degree + 1)` is a real number at every node

The in-degree is an accumulating scatter of ones into zeros, a finite sum of ones: a non-negative real. Adding one
makes it positive, so its reciprocal square root is a real number. -/

theorem pos_cst :
    ∀ i, IsPosReal (val_main_cst (F := Ideal) i) :=
  prop_constant IsPosReal _ word_one
theorem pos_v4 :
    ∀ i, IsPosReal (val_main_v4 (F := Ideal) i) :=
  prop_broadcastInDim IsPosReal _ _ _ pos_cst
theorem nonneg_cst_0 :
    ∀ i, IsNonnegReal (val_main_cst_0 (F := Ideal) i) :=
  prop_constant IsNonnegReal _ word_zero
theorem nonneg_v5 :
    ∀ i, IsNonnegReal (val_main_v5 (F := Ideal) i) :=
  prop_broadcastInDim IsNonnegReal _ _ _ nonneg_cst_0
theorem nonneg_v7 :
    ∀ i, IsNonnegReal (val_main_v7 (F := Ideal) x11 i) :=
  nonneg_scatterAdd _ _ _ _ nonneg_v5 fun j => (pos_v4 j).isNonnegReal
theorem pos_cst_1 :
    ∀ i, IsPosReal (val_main_cst_1 (F := Ideal) i) :=
  prop_constant IsPosReal _ word_one
theorem pos_v8 :
    ∀ i, IsPosReal (val_main_v8 (F := Ideal) i) :=
  prop_broadcastInDim IsPosReal _ _ _ pos_cst_1
theorem pos_v9 :
    ∀ i, IsPosReal (val_main_v9 (F := Ideal) x11 i) :=
  pos_addf _ _ (nonneg_v7 x11) pos_v8
theorem real_v10 :
    ∀ i, IsReal (val_main_v10 (F := Ideal) x11 i) :=
  real_hostRsqrt _ (pos_v9 x11)

/-! ### The first convolution

The features times the weight is a finite sum of products of reals. The edge weights are gathered degree
normalisations and their products; the messages are gathered rows scaled by them; the aggregate is an accumulating
scatter of the messages into zeros; the self term and the bias are products and sums of reals. -/

theorem real_v11 (h0 : ∀ i, IsReal (x0 i)) (h1 : ∀ i, IsReal (x1 i)) :
    ∀ i, IsReal (val_main_v11 (F := Ideal) x0 x1 i) :=
  real_dotGeneral _ _ _ _ h0 h1
theorem real_v18 :
    ∀ i, IsReal (val_main_v18 (F := Ideal) x11 i) :=
  prop_gather IsReal _ _ _ (real_v10 x11)
theorem real_v25 :
    ∀ i, IsReal (val_main_v25 (F := Ideal) x11 i) :=
  prop_gather IsReal _ _ _ (real_v10 x11)
theorem real_v26 :
    ∀ i, IsReal (val_main_v26 (F := Ideal) x11 i) :=
  real_mulf _ _ (real_v18 x11) (real_v25 x11)
theorem real_v27 :
    ∀ i, IsReal (val_main_v27 (F := Ideal) x11 i) :=
  prop_broadcastInDim IsReal _ _ _ (real_v26 x11)
theorem real_v34 (h0 : ∀ i, IsReal (x0 i)) (h1 : ∀ i, IsReal (x1 i)) :
    ∀ i, IsReal (val_main_v34 (F := Ideal) x0 x1 x11 i) :=
  prop_gather IsReal _ _ _ (real_v11 x0 x1 h0 h1)
theorem real_v35 :
    ∀ i, IsReal (val_main_v35 (F := Ideal) x11 i) :=
  prop_broadcastInDim IsReal _ _ _ (real_v27 x11)
theorem real_v36 (h0 : ∀ i, IsReal (x0 i)) (h1 : ∀ i, IsReal (x1 i)) :
    ∀ i, IsReal (val_main_v36 (F := Ideal) x0 x1 x11 i) :=
  real_mulf _ _ (real_v35 x11) (real_v34 x0 x1 x11 h0 h1)
theorem real_cst_7 :
    ∀ i, IsReal (val_main_cst_7 (F := Ideal) i) :=
  prop_constant IsReal _ word_zero.isReal
theorem real_v37 :
    ∀ i, IsReal (val_main_v37 (F := Ideal) i) :=
  prop_broadcastInDim IsReal _ _ _ real_cst_7
theorem real_v39 (h0 : ∀ i, IsReal (x0 i)) (h1 : ∀ i, IsReal (x1 i)) :
    ∀ i, IsReal (val_main_v39 (F := Ideal) x0 x1 x11 i) :=
  real_scatterAdd _ _ _ _ real_v37 (real_v36 x0 x1 x11 h0 h1)
theorem real_v40 :
    ∀ i, IsReal (val_main_v40 (F := Ideal) x11 i) :=
  real_mulf _ _ (real_v10 x11) (real_v10 x11)
theorem real_v41 :
    ∀ i, IsReal (val_main_v41 (F := Ideal) x11 i) :=
  prop_broadcastInDim IsReal _ _ _ (real_v40 x11)
theorem real_v42 :
    ∀ i, IsReal (val_main_v42 (F := Ideal) x11 i) :=
  prop_broadcastInDim IsReal _ _ _ (real_v41 x11)
theorem real_v43 (h0 : ∀ i, IsReal (x0 i)) (h1 : ∀ i, IsReal (x1 i)) :
    ∀ i, IsReal (val_main_v43 (F := Ideal) x0 x1 x11 i) :=
  real_mulf _ _ (real_v42 x11) (real_v11 x0 x1 h0 h1)
theorem real_v44 (h0 : ∀ i, IsReal (x0 i)) (h1 : ∀ i, IsReal (x1 i)) :
    ∀ i, IsReal (val_main_v44 (F := Ideal) x0 x1 x11 i) :=
  real_addf _ _ (real_v39 x0 x1 x11 h0 h1) (real_v43 x0 x1 x11 h0 h1)
theorem real_v45 (h2 : ∀ i, IsReal (x2 i)) :
    ∀ i, IsReal (val_main_v45 (F := Ideal) x2 i) :=
  prop_broadcastInDim IsReal _ _ _ h2
theorem real_v46 (h2 : ∀ i, IsReal (x2 i)) :
    ∀ i, IsReal (val_main_v46 (F := Ideal) x2 i) :=
  prop_broadcastInDim IsReal _ _ _ (real_v45 x2 h2)
/-- The first convolution's output, bias included, is a real number at every node and channel, when the features,
    the weight and the bias are. -/
theorem real_v47 (h0 : ∀ i, IsReal (x0 i)) (h1 : ∀ i, IsReal (x1 i)) (h2 : ∀ i, IsReal (x2 i)) :
    ∀ i, IsReal (val_main_v47 (F := Ideal) x0 x1 x2 x11 i) :=
  real_addf _ _ (real_v44 x0 x1 x11 h0 h1) (real_v46 x2 h2)

/-! ### The first normalisation and rectifier

The column mean is a finite sum of reals over the nonzero real `100000`. The deviations from it are reals, their
squares non-negative reals, so the variance (their sum over `100000`) is a non-negative real; plus the positive
`ε` it is a positive real and its reciprocal square root a real. Scale, shift and the maximum with zero keep reals. -/

theorem real_cst_8 :
    ∀ i, IsReal (val_main_cst_8 (F := Ideal) i) :=
  prop_constant IsReal _ word_zero.isReal
theorem real_v48 (h0 : ∀ i, IsReal (x0 i)) (h1 : ∀ i, IsReal (x1 i)) (h2 : ∀ i, IsReal (x2 i)) :
    ∀ i, IsReal (val_main_v48 (F := Ideal) x0 x1 x2 x11 i) :=
  real_reduceAdd _ _ _ _ (real_v47 x0 x1 x2 x11 h0 h1 h2) real_cst_8
theorem eq_cst_9 :
    ∀ i, val_main_cst_9 (F := Ideal) i = ((100000 : ℝ) : EReal) :=
  prop_constant (· = ((100000 : ℝ) : EReal)) _ ofBits_hundred_thousand
theorem eq_v49 :
    ∀ i, val_main_v49 (F := Ideal) i = ((100000 : ℝ) : EReal) :=
  prop_broadcastInDim (· = ((100000 : ℝ) : EReal)) _ _ _ eq_cst_9
theorem real_v50 (h0 : ∀ i, IsReal (x0 i)) (h1 : ∀ i, IsReal (x1 i)) (h2 : ∀ i, IsReal (x2 i)) :
    ∀ i, IsReal (val_main_v50 (F := Ideal) x0 x1 x2 x11 i) :=
  real_hostDivf _ _ count_ne_zero (real_v48 x0 x1 x2 x11 h0 h1 h2) eq_v49
theorem real_v51 (h0 : ∀ i, IsReal (x0 i)) (h1 : ∀ i, IsReal (x1 i)) (h2 : ∀ i, IsReal (x2 i)) :
    ∀ i, IsReal (val_main_v51 (F := Ideal) x0 x1 x2 x11 i) :=
  prop_broadcastInDim IsReal _ _ _ (real_v50 x0 x1 x2 x11 h0 h1 h2)
theorem real_v52 (h0 : ∀ i, IsReal (x0 i)) (h1 : ∀ i, IsReal (x1 i)) (h2 : ∀ i, IsReal (x2 i)) :
    ∀ i, IsReal (val_main_v52 (F := Ideal) x0 x1 x2 x11 i) :=
  prop_broadcastInDim IsReal _ _ _ (real_v51 x0 x1 x2 x11 h0 h1 h2)
theorem real_v53 (h0 : ∀ i, IsReal (x0 i)) (h1 : ∀ i, IsReal (x1 i)) (h2 : ∀ i, IsReal (x2 i)) :
    ∀ i, IsReal (val_main_v53 (F := Ideal) x0 x1 x2 x11 i) :=
  real_subf _ _ (real_v47 x0 x1 x2 x11 h0 h1 h2) (real_v52 x0 x1 x2 x11 h0 h1 h2)
theorem nonneg_v54 (h0 : ∀ i, IsReal (x0 i)) (h1 : ∀ i, IsReal (x1 i)) (h2 : ∀ i, IsReal (x2 i)) :
    ∀ i, IsNonnegReal (val_main_v54 (F := Ideal) x0 x1 x2 x11 i) :=
  nonneg_mulf_self _ (real_v53 x0 x1 x2 x11 h0 h1 h2)
theorem nonneg_cst_10 :
    ∀ i, IsNonnegReal (val_main_cst_10 (F := Ideal) i) :=
  prop_constant IsNonnegReal _ word_zero
theorem nonneg_v55 (h0 : ∀ i, IsReal (x0 i)) (h1 : ∀ i, IsReal (x1 i)) (h2 : ∀ i, IsReal (x2 i)) :
    ∀ i, IsNonnegReal (val_main_v55 (F := Ideal) x0 x1 x2 x11 i) :=
  nonneg_reduceAdd _ _ _ _ (nonneg_v54 x0 x1 x2 x11 h0 h1 h2) nonneg_cst_10
theorem eq_cst_11 :
    ∀ i, val_main_cst_11 (F := Ideal) i = ((100000 : ℝ) : EReal) :=
  prop_constant (· = ((100000 : ℝ) : EReal)) _ ofBits_hundred_thousand
theorem eq_v56 :
    ∀ i, val_main_v56 (F := Ideal) i = ((100000 : ℝ) : EReal) :=
  prop_broadcastInDim (· = ((100000 : ℝ) : EReal)) _ _ _ eq_cst_11
theorem nonneg_v57 (h0 : ∀ i, IsReal (x0 i)) (h1 : ∀ i, IsReal (x1 i)) (h2 : ∀ i, IsReal (x2 i)) :
    ∀ i, IsNonnegReal (val_main_v57 (F := Ideal) x0 x1 x2 x11 i) :=
  nonneg_hostDivf _ _ count_pos (nonneg_v55 x0 x1 x2 x11 h0 h1 h2) eq_v56
theorem real_v58 (h0 : ∀ i, IsReal (x0 i)) (h1 : ∀ i, IsReal (x1 i)) (h2 : ∀ i, IsReal (x2 i)) :
    ∀ i, IsReal (val_main_v58 (F := Ideal) x0 x1 x2 x11 i) :=
  prop_broadcastInDim IsReal _ _ _ (real_v50 x0 x1 x2 x11 h0 h1 h2)
theorem real_v59 (h0 : ∀ i, IsReal (x0 i)) (h1 : ∀ i, IsReal (x1 i)) (h2 : ∀ i, IsReal (x2 i)) :
    ∀ i, IsReal (val_main_v59 (F := Ideal) x0 x1 x2 x11 i) :=
  prop_broadcastInDim IsReal _ _ _ (real_v58 x0 x1 x2 x11 h0 h1 h2)
theorem real_v60 (h0 : ∀ i, IsReal (x0 i)) (h1 : ∀ i, IsReal (x1 i)) (h2 : ∀ i, IsReal (x2 i)) :
    ∀ i, IsReal (val_main_v60 (F := Ideal) x0 x1 x2 x11 i) :=
  real_subf _ _ (real_v47 x0 x1 x2 x11 h0 h1 h2) (real_v59 x0 x1 x2 x11 h0 h1 h2)
theorem real_v61 (h3 : ∀ i, IsReal (x3 i)) :
    ∀ i, IsReal (val_main_v61 (F := Ideal) x3 i) :=
  prop_broadcastInDim IsReal _ _ _ h3
theorem real_v62 (h3 : ∀ i, IsReal (x3 i)) :
    ∀ i, IsReal (val_main_v62 (F := Ideal) x3 i) :=
  prop_broadcastInDim IsReal _ _ _ (real_v61 x3 h3)
theorem real_v63 (h0 : ∀ i, IsReal (x0 i)) (h1 : ∀ i, IsReal (x1 i)) (h2 : ∀ i, IsReal (x2 i)) (h3 : ∀ i, IsReal (x3 i)) :
    ∀ i, IsReal (val_main_v63 (F := Ideal) x0 x1 x2 x3 x11 i) :=
  real_mulf _ _ (real_v62 x3 h3) (real_v60 x0 x1 x2 x11 h0 h1 h2)
theorem pos_cst_12 :
    ∀ i, IsPosReal (val_main_cst_12 (F := Ideal) i) :=
  prop_constant IsPosReal _ word_eps
theorem pos_v64 :
    ∀ i, IsPosReal (val_main_v64 (F := Ideal) i) :=
  prop_broadcastInDim IsPosReal _ _ _ pos_cst_12
theorem pos_v65 (h0 : ∀ i, IsReal (x0 i)) (h1 : ∀ i, IsReal (x1 i)) (h2 : ∀ i, IsReal (x2 i)) :
    ∀ i, IsPosReal (val_main_v65 (F := Ideal) x0 x1 x2 x11 i) :=
  pos_addf _ _ (nonneg_v57 x0 x1 x2 x11 h0 h1 h2) pos_v64
theorem real_v66 (h0 : ∀ i, IsReal (x0 i)) (h1 : ∀ i, IsReal (x1 i)) (h2 : ∀ i, IsReal (x2 i)) :
    ∀ i, IsReal (val_main_v66 (F := Ideal) x0 x1 x2 x11 i) :=
  real_hostRsqrt _ (pos_v65 x0 x1 x2 x11 h0 h1 h2)
theorem real_v67 (h0 : ∀ i, IsReal (x0 i)) (h1 : ∀ i, IsReal (x1 i)) (h2 : ∀ i, IsReal (x2 i)) :
    ∀ i, IsReal (val_main_v67 (F := Ideal) x0 x1 x2 x11 i) :=
  prop_broadcastInDim IsReal _ _ _ (real_v66 x0 x1 x2 x11 h0 h1 h2)
theorem real_v68 (h0 : ∀ i, IsReal (x0 i)) (h1 : ∀ i, IsReal (x1 i)) (h2 : ∀ i, IsReal (x2 i)) :
    ∀ i, IsReal (val_main_v68 (F := Ideal) x0 x1 x2 x11 i) :=
  prop_broadcastInDim IsReal _ _ _ (real_v67 x0 x1 x2 x11 h0 h1 h2)
theorem real_v69 (h0 : ∀ i, IsReal (x0 i)) (h1 : ∀ i, IsReal (x1 i)) (h2 : ∀ i, IsReal (x2 i)) (h3 : ∀ i, IsReal (x3 i)) :
    ∀ i, IsReal (val_main_v69 (F := Ideal) x0 x1 x2 x3 x11 i) :=
  real_mulf _ _ (real_v63 x0 x1 x2 x3 x11 h0 h1 h2 h3) (real_v68 x0 x1 x2 x11 h0 h1 h2)
theorem real_v70 (h4 : ∀ i, IsReal (x4 i)) :
    ∀ i, IsReal (val_main_v70 (F := Ideal) x4 i) :=
  prop_broadcastInDim IsReal _ _ _ h4
theorem real_v71 (h4 : ∀ i, IsReal (x4 i)) :
    ∀ i, IsReal (val_main_v71 (F := Ideal) x4 i) :=
  prop_broadcastInDim IsReal _ _ _ (real_v70 x4 h4)
theorem real_v72 (h0 : ∀ i, IsReal (x0 i)) (h1 : ∀ i, IsReal (x1 i)) (h2 : ∀ i, IsReal (x2 i)) (h3 : ∀ i, IsReal (x3 i)) (h4 : ∀ i, IsReal (x4 i)) :
    ∀ i, IsReal (val_main_v72 (F := Ideal) x0 x1 x2 x3 x4 x11 i) :=
  real_addf _ _ (real_v69 x0 x1 x2 x3 x11 h0 h1 h2 h3) (real_v71 x4 h4)
theorem real_call0_cst :
    ∀ i, IsReal (val_main_call0_cst (F := Ideal) i) :=
  prop_constant IsReal _ word_zero.isReal
theorem real_call0_v0 :
    ∀ i, IsReal (val_main_call0_v0 (F := Ideal) i) :=
  prop_broadcastInDim IsReal _ _ _ real_call0_cst
/-- The first layer's output after normalisation, scale, shift and rectifier is a real number at every node and
    channel, when the features, the weight, the bias, the scale and the shift are. -/
theorem real_v73 (h0 : ∀ i, IsReal (x0 i)) (h1 : ∀ i, IsReal (x1 i)) (h2 : ∀ i, IsReal (x2 i)) (h3 : ∀ i, IsReal (x3 i)) (h4 : ∀ i, IsReal (x4 i)) :
    ∀ i, IsReal (val_main_v73 (F := Ideal) x0 x1 x2 x3 x4 x11 i) :=
  real_maximumf _ _ (real_v72 x0 x1 x2 x3 x4 x11 h0 h1 h2 h3 h4) real_call0_v0

/-! ### The second convolution: the same steps over the rectified features times the second weight -/

theorem real_v74 (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) :
    ∀ i, IsReal (val_main_v74 (F := Ideal) x0 x1 x2 x3 x4 x5 x11 i) :=
  real_dotGeneral _ _ _ _ (real_v73 x0 x1 x2 x3 x4 x11 h0 h1 h2 h3 h4) h5
theorem real_v81 :
    ∀ i, IsReal (val_main_v81 (F := Ideal) x11 i) :=
  prop_gather IsReal _ _ _ (real_v10 x11)
theorem real_v88 :
    ∀ i, IsReal (val_main_v88 (F := Ideal) x11 i) :=
  prop_gather IsReal _ _ _ (real_v10 x11)
theorem real_v89 :
    ∀ i, IsReal (val_main_v89 (F := Ideal) x11 i) :=
  real_mulf _ _ (real_v81 x11) (real_v88 x11)
theorem real_v90 :
    ∀ i, IsReal (val_main_v90 (F := Ideal) x11 i) :=
  prop_broadcastInDim IsReal _ _ _ (real_v89 x11)
theorem real_v97 (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) :
    ∀ i, IsReal (val_main_v97 (F := Ideal) x0 x1 x2 x3 x4 x5 x11 i) :=
  prop_gather IsReal _ _ _ (real_v74 x0 x1 x2 x3 x4 x5 x11 h0 h1 h2 h3 h4 h5)
theorem real_v98 :
    ∀ i, IsReal (val_main_v98 (F := Ideal) x11 i) :=
  prop_broadcastInDim IsReal _ _ _ (real_v90 x11)
theorem real_v99 (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) :
    ∀ i, IsReal (val_main_v99 (F := Ideal) x0 x1 x2 x3 x4 x5 x11 i) :=
  real_mulf _ _ (real_v98 x11) (real_v97 x0 x1 x2 x3 x4 x5 x11 h0 h1 h2 h3 h4 h5)
theorem real_cst_19 :
    ∀ i, IsReal (val_main_cst_19 (F := Ideal) i) :=
  prop_constant IsReal _ word_zero.isReal
theorem real_v100 :
    ∀ i, IsReal (val_main_v100 (F := Ideal) i) :=
  prop_broadcastInDim IsReal _ _ _ real_cst_19
theorem real_v102 (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) :
    ∀ i, IsReal (val_main_v102 (F := Ideal) x0 x1 x2 x3 x4 x5 x11 i) :=
  real_scatterAdd _ _ _ _ real_v100 (real_v99 x0 x1 x2 x3 x4 x5 x11 h0 h1 h2 h3 h4 h5)
theorem real_v103 :
    ∀ i, IsReal (val_main_v103 (F := Ideal) x11 i) :=
  real_mulf _ _ (real_v10 x11) (real_v10 x11)
theorem real_v104 :
    ∀ i, IsReal (val_main_v104 (F := Ideal) x11 i) :=
  prop_broadcastInDim IsReal _ _ _ (real_v103 x11)
theorem real_v105 :
    ∀ i, IsReal (val_main_v105 (F := Ideal) x11 i) :=
  prop_broadcastInDim IsReal _ _ _ (real_v104 x11)
theorem real_v106 (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) :
    ∀ i, IsReal (val_main_v106 (F := Ideal) x0 x1 x2 x3 x4 x5 x11 i) :=
  real_mulf _ _ (real_v105 x11) (real_v74 x0 x1 x2 x3 x4 x5 x11 h0 h1 h2 h3 h4 h5)
theorem real_v107 (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) :
    ∀ i, IsReal (val_main_v107 (F := Ideal) x0 x1 x2 x3 x4 x5 x11 i) :=
  real_addf _ _ (real_v102 x0 x1 x2 x3 x4 x5 x11 h0 h1 h2 h3 h4 h5) (real_v106 x0 x1 x2 x3 x4 x5 x11 h0 h1 h2 h3 h4 h5)
theorem real_v108 (h6 : ∀ i, IsReal (x6 i)) :
    ∀ i, IsReal (val_main_v108 (F := Ideal) x6 i) :=
  prop_broadcastInDim IsReal _ _ _ h6
theorem real_v109 (h6 : ∀ i, IsReal (x6 i)) :
    ∀ i, IsReal (val_main_v109 (F := Ideal) x6 i) :=
  prop_broadcastInDim IsReal _ _ _ (real_v108 x6 h6)
/-- The second convolution's output, bias included, is a real number at every node and channel, when the first
    layer's five float inputs and the second weight and bias are. -/
theorem real_v110 (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) :
    ∀ i, IsReal (val_main_v110 (F := Ideal) x0 x1 x2 x3 x4 x5 x6 x11 i) :=
  real_addf _ _ (real_v107 x0 x1 x2 x3 x4 x5 x11 h0 h1 h2 h3 h4 h5) (real_v109 x6 h6)

end Cert.ReferenceIdeal.Realness

end
-- ==== Proof.LibRowLayout.lean ====
/-
  A row vector's layout operations read at coordinates. Independent of any program.

  A vector [b] re-laid as the row [1, b] keeps its entries in order, so the row at (0, q) is the vector at q; a row
  [1, b] broadcast down a rows repeats it, so the result at (p, q) is the row at (0, q); and the one entry of a [1, 1]
  array extracted at position (0, 0) is the array at (0, 0).
-/
import Idealize.ShloMosaic.Lib.ValueIdx
import Idealize.ShloMosaic.Lib.Pipeline.Value

noncomputable section

namespace Cert.Lib

open Idealize.ShloMosaic Idealize.ShloMosaic.ValueIdx

/-- A vector [b] shape-cast to the row [1, b], read at (0, q), is the vector at q (any b; with b = 1 this is a [1]
    array re-laid as [1, 1]). -/
theorem vecToRow_apply {α : Type} {b : Nat} (x : (⟨1, ![b]⟩ : Shape).Idx → α)
    (h : (⟨1, ![b]⟩ : Shape).ShapeCasts ⟨2, ![1, b]⟩) (q : Fin b) :
    shapeCast ⟨2, ![1, b]⟩ x h (ix2 0 q) = x (ix1 q) :=
  shapeCast_apply x h (ix2 0 q) (ix1 q) (by
    rw [Shape.rowMajor_val_two, Shape.rowMajor_val_one]; show q.val = 0 * b + q.val; omega)

/-- A row [1, b] broadcast to [a, b], read at (p, q), is the row at (0, q). -/
theorem rowBroadcast_apply {α : Type} {a b : Nat} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun d => by
    match d with
    | ⟨0, _⟩ => show (0 : Nat) = if (1 : Nat) = 1 then 0 else p.val; rw [if_pos rfl]
    | ⟨1, _⟩ => show q.val = if b = 1 then 0 else q.val; have := q.isLt; split <;> omega)

/-- The entry of a [1, 1] array extracted at position (0, 0) is the array at (0, 0). -/
theorem extract_one_one {α : Type} (x : (⟨2, ![1, 1]⟩ : Shape).Idx → α)
    (h : ∀ d, (![0, 0] : Fin 2 → Nat) d < (⟨2, ![1, 1]⟩ : Shape).size d) :
    extractAt ![0, 0] x h = x (ix2 0 0) :=
  congrArg x (funext fun d => Fin.ext (by match d with | ⟨0, _⟩ => rfl | ⟨1, _⟩ => rfl))

end Cert.Lib

end
-- ==== Proof.KernelNormalize1.lean ====
/-
  The batch-norm layers, kernel against reference. In the kernel a region accumulates each column's sum and sum of
  squares over the rows, a host stretch divides them by the number of rows and forms the variance as the second
  moment minus the squared mean, and a region normalizes, scales, shifts and rectifies each entry. The reference
  computes the mean, then the mean of the squared deviations from it, then the same entrywise expression. The two
  variances agree for a column of real numbers, and the features of a layer are real numbers when the inputs are
  finite; so the kernel's normalized features are the reference's stage of the same arguments.
-/
import proofs.«150451_j53498112639197_1_alg».proof.Proof.KernelStages
import proofs.«150451_j53498112639197_1_alg».proof.Proof.MomentRegions
import proofs.«150451_j53498112639197_1_alg».proof.Proof.NormalizeRegions
import proofs.«150451_j53498112639197_1_alg».proof.Proof.ReferenceNormalize
import proofs.«150451_j53498112639197_1_alg».proof.Proof.BatchNormBridge
import proofs.«150451_j53498112639197_1_alg».proof.Proof.StageRealness
import proofs.«150451_j53498112639197_1_alg».proof.Proof.LibRowLayout

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read Cert.ReferenceIdeal.Normalize Cert.ReferenceIdeal.Realness Cert.Gcn Cert.BatchNorm

variable (m : (ℓ : Loc nD τ sig) → Buf (Elt Ideal) ℓ) (ρ : Dev nD → PrngReg)

/-! ## The first layer's normalization -/

/-- The moment region's first output: the column sums of the layer's features. -/
theorem at4_sums (c : Dev nD)  :
    W4 m ρ c (Proc.devRef .tc main_v48_0)
      = (fun j : S1x128.Idx => ∑ r : Fin 100000, (val_main_v47 (F := Ideal) (m ((c : Thread nD τ).loc main_arg0)) (m ((c : Thread nD τ).loc main_arg1)) (m ((c : Thread nD τ).loc main_arg2)) (m ((c : Thread nD τ).loc main_arg11))) (ix2 r (⟨(j 1).val, (j 1).isLt⟩ : Fin 128))) :=
  (W4_arr m ρ c 1).trans (MomentsValue.moments1_sum (V3 m ρ) c _ (at3_v47 m ρ c))

/-- Its second output: the column sums of squares. -/
theorem at4_sumsqs (c : Dev nD)  :
    W4 m ρ c (Proc.devRef .tc main_v48_1)
      = (fun j : S1x128.Idx => ∑ r : Fin 100000, (val_main_v47 (F := Ideal) (m ((c : Thread nD τ).loc main_arg0)) (m ((c : Thread nD τ).loc main_arg1)) (m ((c : Thread nD τ).loc main_arg2)) (m ((c : Thread nD τ).loc main_arg11))) (ix2 r (⟨(j 1).val, (j 1).isLt⟩ : Fin 128)) * (val_main_v47 (F := Ideal) (m ((c : Thread nD τ).loc main_arg0)) (m ((c : Thread nD τ).loc main_arg1)) (m ((c : Thread nD τ).loc main_arg2)) (m ((c : Thread nD τ).loc main_arg11))) (ix2 r (⟨(j 1).val, (j 1).isLt⟩ : Fin 128))) :=
  (W4_arr m ρ c 2).trans (MomentsValue.moments1_sumsq (V3 m ρ) c _ (at3_v47 m ρ c))

/-- The features are still in place when the normalize region stages them. -/
theorem at5_feat (c : Dev nD)  :
    W5 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg11)) :=
  (Gen.at5_v47 m ρ c).trans (at3_v47 m ρ c)

/-- The mean row: the column sums over 100000. -/
theorem at5_mean (c : Dev nD)  :
    W5 m ρ c (Proc.devRef .tc main_v50)
      = (fun j : S1x128.Idx => Ideal.div (∑ r : Fin 100000, (val_main_v47 (F := Ideal) (m ((c : Thread nD τ).loc main_arg0)) (m ((c : Thread nD τ).loc main_arg1)) (m ((c : Thread nD τ).loc main_arg2)) (m ((c : Thread nD τ).loc main_arg11))) (ix2 r (⟨(j 1).val, (j 1).isLt⟩ : Fin 128))) (Ideal.ofBits .f32 0x47C35000#32)) := by
  show StableHlo.after hostOps2 (W4 m ρ c) (Proc.devRef .tc main_v50) = _
  after_results_simp
  rw [at4_sums m ρ c ]
  rfl

/-- The variance row, from the two moments: the second moment minus the squared mean. -/
theorem at5_var (c : Dev nD)  :
    W5 m ρ c (Proc.devRef .tc main_v54)
      = (fun j : S1x128.Idx =>
          Ideal.div (∑ r : Fin 100000, (val_main_v47 (F := Ideal) (m ((c : Thread nD τ).loc main_arg0)) (m ((c : Thread nD τ).loc main_arg1)) (m ((c : Thread nD τ).loc main_arg2)) (m ((c : Thread nD τ).loc main_arg11))) (ix2 r (⟨(j 1).val, (j 1).isLt⟩ : Fin 128)) * (val_main_v47 (F := Ideal) (m ((c : Thread nD τ).loc main_arg0)) (m ((c : Thread nD τ).loc main_arg1)) (m ((c : Thread nD τ).loc main_arg2)) (m ((c : Thread nD τ).loc main_arg11))) (ix2 r (⟨(j 1).val, (j 1).isLt⟩ : Fin 128))) (Ideal.ofBits .f32 0x47C35000#32)
            - Ideal.div (∑ r : Fin 100000, (val_main_v47 (F := Ideal) (m ((c : Thread nD τ).loc main_arg0)) (m ((c : Thread nD τ).loc main_arg1)) (m ((c : Thread nD τ).loc main_arg2)) (m ((c : Thread nD τ).loc main_arg11))) (ix2 r (⟨(j 1).val, (j 1).isLt⟩ : Fin 128))) (Ideal.ofBits .f32 0x47C35000#32) * Ideal.div (∑ r : Fin 100000, (val_main_v47 (F := Ideal) (m ((c : Thread nD τ).loc main_arg0)) (m ((c : Thread nD τ).loc main_arg1)) (m ((c : Thread nD τ).loc main_arg2)) (m ((c : Thread nD τ).loc main_arg11))) (ix2 r (⟨(j 1).val, (j 1).isLt⟩ : Fin 128))) (Ideal.ofBits .f32 0x47C35000#32)) := by
  show StableHlo.after hostOps2 (W4 m ρ c) (Proc.devRef .tc main_v54) = _
  after_results_simp
  rw [at4_sums m ρ c , at4_sumsqs m ρ c ]
  rfl

/-- The scale row: the scale vector laid as a row. -/
theorem at5_scale (c : Dev nD) :
    W5 m ρ c (Proc.devRef .tc main_v55) = shapeCast S1x128 (m ((c : Thread nD τ).loc main_arg3)) shapeCasts_S128_S1x128 := by
  show StableHlo.after hostOps2 (W4 m ρ c) (Proc.devRef .tc main_v55) = _
  after_results_simp
  rw [at4_arg3 m ρ c]
  rfl

/-- The shift row. -/
theorem at5_shift (c : Dev nD) :
    W5 m ρ c (Proc.devRef .tc main_v56) = shapeCast S1x128 (m ((c : Thread nD τ).loc main_arg4)) shapeCasts_S128_S1x128 := by
  show StableHlo.after hostOps2 (W4 m ρ c) (Proc.devRef .tc main_v56) = _
  after_results_simp
  rw [at4_arg4 m ρ c]
  rfl

/-- THE BRIDGE. The normalize region's output is the reference's normalized, rectified features: entry by entry both
    are max ((scale · (h − mean)) · rsqrt (variance + ε) + shift, 0) with the same mean, and the two variances — the
    kernel's second moment minus squared mean, the reference's mean of squared deviations — agree because every
    feature of the column is a real number (the inputs are finite). -/
theorem at6_normalized (c : Dev nD)  (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) :
    W6 m ρ c (Proc.devRef .tc main_v57) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) := by
  refine (W6_arr m ρ c 5).trans ?_
  rw [NormalizeValue.normalize2 (V5 m ρ) c _ _ _ _ _ (at5_feat m ρ c ) (at5_mean m ρ c ) (at5_var m ρ c )
    (at5_scale m ρ c) (at5_shift m ρ c)]
  funext j
  rw [output1, mean1, variance1]
  have hreal : ∀ i, IsReal ((val_main_v47 (F := Ideal) (m ((c : Thread nD τ).loc main_arg0)) (m ((c : Thread nD τ).loc main_arg1)) (m ((c : Thread nD τ).loc main_arg2)) (m ((c : Thread nD τ).loc main_arg11))) i) := real_v47 _ _ _ _ h0 h1 h2
  generalize val_main_v47 (F := Ideal) (m ((c : Thread nD τ).loc main_arg0)) (m ((c : Thread nD τ).loc main_arg1)) (m ((c : Thread nD τ).loc main_arg2)) (m ((c : Thread nD τ).loc main_arg11)) = H at hreal ⊢
  show NormalizeValue.bnRelu (H j) (Ideal.div (∑ r : Fin 100000, H (ix2 r (⟨(j 1).val, (j 1).isLt⟩ : Fin 128))) (Ideal.ofBits .f32 0x47C35000#32))
      (Ideal.div (∑ r : Fin 100000, H (ix2 r (⟨(j 1).val, (j 1).isLt⟩ : Fin 128)) * H (ix2 r (⟨(j 1).val, (j 1).isLt⟩ : Fin 128))) (Ideal.ofBits .f32 0x47C35000#32)
        - Ideal.div (∑ r : Fin 100000, H (ix2 r (⟨(j 1).val, (j 1).isLt⟩ : Fin 128))) (Ideal.ofBits .f32 0x47C35000#32) * Ideal.div (∑ r : Fin 100000, H (ix2 r (⟨(j 1).val, (j 1).isLt⟩ : Fin 128))) (Ideal.ofBits .f32 0x47C35000#32))
      (shapeCast S1x128 (m ((c : Thread nD τ).loc main_arg3)) shapeCasts_S128_S1x128 (ix2 (0 : Fin 1) (⟨(j 1).val, (j 1).isLt⟩ : Fin 128)))
      (shapeCast S1x128 (m ((c : Thread nD τ).loc main_arg4)) shapeCasts_S128_S1x128 (ix2 (0 : Fin 1) (⟨(j 1).val, (j 1).isLt⟩ : Fin 128))) = _
  rw [Cert.Lib.vecToRow_apply, Cert.Lib.vecToRow_apply]
  unfold NormalizeValue.bnRelu
  exact normalized_entry_eq (n := 100000) (by norm_num) (fun r => H (ix2 r (⟨(j 1).val, (j 1).isLt⟩ : Fin 128))) (fun r => hreal _) _
    (ofBits_hundred_thousand.trans (by norm_num)) _ _ _ _ _

end Cert.KernelIdeal.Stages

end
-- ==== Proof.KernelStagesDeep.lean ====
/-
  The kernel's buffers in the reference's vocabulary, continued: the second dense layer and the second convolution.

  The second dense region multiplies the normalized, rectified first-layer features (a [100000, 128] array) by the
  second weight (a [128, 128] array): entry (r, q) of its output is the sum over the 128 shared positions k of
  feature (r, k) times weight (k, q). The reference's matrix product read at an entry is the same sum, its two index
  functions naming the same positions (r, k) and (k, q). So once the region's left input is known to be the
  reference's first-layer output, the region's output is the reference's product.

  The host stretch after that region is the second graph convolution: gather the product's rows along the edges,
  scale each by the two degree normalizers of its edge, accumulate at the destinations, add the self term and the
  bias. The reference performs the same operations, in the same order, on its own product, so evaluating the
  stretch on buffers already identified with the reference's stages gives the reference's second-layer stage.
-/
import proofs.«150451_j53498112639197_1_alg».proof.Proof.KernelStages

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read

variable (m : (ℓ : Loc nD τ sig) → Buf (Elt Ideal) ℓ) (ρ : Dev nD → PrngReg)

/-! ## The second dense region -/

/-- A [100000, 128] by [128, 128] product at an entry, written with the positions (r, k) and (k, q) built from
    coordinates, is the same sum written with the reference's two index functions: they name the same positions. -/
theorem product_at_entry (A : S100000x128.Idx → EReal) (B : S128x128.Idx → EReal) (j : S100000x128.Idx) :
    (∑ k : Fin 128, A (ix2 (⟨(j 0).val, (j 0).isLt⟩ : Fin 100000) k) * B (ix2 k (⟨(j 1).val, (j 1).isLt⟩ : Fin 128)))
      = ∑ k : Fin 128, A (lidx_main_v74 j k) * B (ridx_main_v74 j k) := by
  refine Finset.sum_congr rfl fun k _ => ?_
  congr 1 <;> exact congrArg _ (funext fun a => Fin.ext (by match a with | ⟨0, _⟩ => rfl | ⟨1, _⟩ => rfl))

/-- The region's output is the reference's product of the first layer's output with the second weight, once its
    left input is the reference's first-layer output. -/
theorem at7_v58 (c : Dev nD)
    (h6 : W6 m ρ c (Proc.devRef .tc main_v57)
      = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11))) :
    W7 m ρ c (Proc.devRef .tc main_v58)
      = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg11)) := by
  refine (W7_arr m ρ c 2).trans ?_
  rw [DenseValue.dense3 (V6 m ρ) c _ _ h6 (at6_arg5 m ρ c)]
  funext j
  rw [val_main_v74_apply]
  exact product_at_entry _ _ j

/-! ## The second convolution -/

/-- The host stretch after the second dense region: the reference's second convolution on the same buffers, once
    the region's output is the reference's product. -/
theorem at8_v94 (c : Dev nD)
    (h7 : W7 m ρ c (Proc.devRef .tc main_v58)
      = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg11))) :
    W8 m ρ c (Proc.devRef .tc main_v94)
      = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) := by
  show StableHlo.after hostOps4 (W7 m ρ c) (Proc.devRef .tc main_v94) = _
  after_results_simp
  rw [h7, at7_v10 m ρ c, at1_v10 m ρ c, at7_v1 m ρ c, at1_v1 m ρ c, at7_v3 m ρ c, at1_v3 m ρ c, at7_arg6 m ρ c]
  rfl

end Cert.KernelIdeal.Stages

end
-- ==== Proof.KernelNormalize2.lean ====
/-
  The second batch-norm layer, kernel against reference: the first layer's argument again, on the second
  convolution's features. The moment region's sums, the host stretch's mean and moment-form variance, and the
  normalize region's entrywise expression meet the reference's mean, mean of squared deviations and the same
  expression, the two variances agreeing because the second convolution's features are real numbers too.
-/
import proofs.«150451_j53498112639197_1_alg».proof.Proof.KernelStages
import proofs.«150451_j53498112639197_1_alg».proof.Proof.MomentRegions
import proofs.«150451_j53498112639197_1_alg».proof.Proof.NormalizeRegions
import proofs.«150451_j53498112639197_1_alg».proof.Proof.ReferenceNormalize
import proofs.«150451_j53498112639197_1_alg».proof.Proof.BatchNormBridge
import proofs.«150451_j53498112639197_1_alg».proof.Proof.StageRealness
import proofs.«150451_j53498112639197_1_alg».proof.Proof.LibRowLayout

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read Cert.ReferenceIdeal.Normalize Cert.ReferenceIdeal.Realness Cert.Gcn Cert.BatchNorm

variable (m : (ℓ : Loc nD τ sig) → Buf (Elt Ideal) ℓ) (ρ : Dev nD → PrngReg)

/-! ## The second layer's normalization -/

/-- The moment region's first output: the column sums of the layer's features. -/
theorem at9_sums (c : Dev nD) (h8 : W8 m ρ c (Proc.devRef .tc main_v94) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11))) :
    W9 m ρ c (Proc.devRef .tc main_v95_0)
      = (fun j : S1x128.Idx => ∑ r : Fin 100000, (val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11))) (ix2 r (⟨(j 1).val, (j 1).isLt⟩ : Fin 128))) :=
  (W9_arr m ρ c 1).trans (MomentsValue.moments4_sum (V8 m ρ) c _ (h8))

/-- Its second output: the column sums of squares. -/
theorem at9_sumsqs (c : Dev nD) (h8 : W8 m ρ c (Proc.devRef .tc main_v94) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11))) :
    W9 m ρ c (Proc.devRef .tc main_v95_1)
      = (fun j : S1x128.Idx => ∑ r : Fin 100000, (val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11))) (ix2 r (⟨(j 1).val, (j 1).isLt⟩ : Fin 128)) * (val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11))) (ix2 r (⟨(j 1).val, (j 1).isLt⟩ : Fin 128))) :=
  (W9_arr m ρ c 2).trans (MomentsValue.moments4_sumsq (V8 m ρ) c _ (h8))

/-- The features are still in place when the normalize region stages them. -/
theorem at10_feat (c : Dev nD) (h8 : W8 m ρ c (Proc.devRef .tc main_v94) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11))) :
    W10 m ρ c (Proc.devRef .tc main_v94) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) :=
  (Gen.at10_v94 m ρ c).trans (h8)

/-- The mean row: the column sums over 100000. -/
theorem at10_mean (c : Dev nD) (h8 : W8 m ρ c (Proc.devRef .tc main_v94) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11))) :
    W10 m ρ c (Proc.devRef .tc main_v97)
      = (fun j : S1x128.Idx => Ideal.div (∑ r : Fin 100000, (val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11))) (ix2 r (⟨(j 1).val, (j 1).isLt⟩ : Fin 128))) (Ideal.ofBits .f32 0x47C35000#32)) := by
  show StableHlo.after hostOps5 (W9 m ρ c) (Proc.devRef .tc main_v97) = _
  after_results_simp
  rw [at9_sums m ρ c h8]
  rfl

/-- The variance row, from the two moments: the second moment minus the squared mean. -/
theorem at10_var (c : Dev nD) (h8 : W8 m ρ c (Proc.devRef .tc main_v94) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11))) :
    W10 m ρ c (Proc.devRef .tc main_v101)
      = (fun j : S1x128.Idx =>
          Ideal.div (∑ r : Fin 100000, (val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11))) (ix2 r (⟨(j 1).val, (j 1).isLt⟩ : Fin 128)) * (val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11))) (ix2 r (⟨(j 1).val, (j 1).isLt⟩ : Fin 128))) (Ideal.ofBits .f32 0x47C35000#32)
            - Ideal.div (∑ r : Fin 100000, (val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11))) (ix2 r (⟨(j 1).val, (j 1).isLt⟩ : Fin 128))) (Ideal.ofBits .f32 0x47C35000#32) * Ideal.div (∑ r : Fin 100000, (val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11))) (ix2 r (⟨(j 1).val, (j 1).isLt⟩ : Fin 128))) (Ideal.ofBits .f32 0x47C35000#32)) := by
  show StableHlo.after hostOps5 (W9 m ρ c) (Proc.devRef .tc main_v101) = _
  after_results_simp
  rw [at9_sums m ρ c h8, at9_sumsqs m ρ c h8]
  rfl

/-- The scale row: the scale vector laid as a row. -/
theorem at10_scale (c : Dev nD) :
    W10 m ρ c (Proc.devRef .tc main_v102) = shapeCast S1x128 (m ((c : Thread nD τ).loc main_arg7)) shapeCasts_S128_S1x128 := by
  show StableHlo.after hostOps5 (W9 m ρ c) (Proc.devRef .tc main_v102) = _
  after_results_simp
  rw [at9_arg7 m ρ c]
  rfl

/-- The shift row. -/
theorem at10_shift (c : Dev nD) :
    W10 m ρ c (Proc.devRef .tc main_v103) = shapeCast S1x128 (m ((c : Thread nD τ).loc main_arg8)) shapeCasts_S128_S1x128 := by
  show StableHlo.after hostOps5 (W9 m ρ c) (Proc.devRef .tc main_v103) = _
  after_results_simp
  rw [at9_arg8 m ρ c]
  rfl

/-- THE BRIDGE. The normalize region's output is the reference's normalized, rectified features: entry by entry both
    are max ((scale · (h − mean)) · rsqrt (variance + ε) + shift, 0) with the same mean, and the two variances — the
    kernel's second moment minus squared mean, the reference's mean of squared deviations — agree because every
    feature of the column is a real number (the inputs are finite). -/
theorem at11_normalized (c : Dev nD) (h8 : W8 m ρ c (Proc.devRef .tc main_v94) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11))) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) :
    W11 m ρ c (Proc.devRef .tc main_v104) = val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) := by
  refine (W11_arr m ρ c 5).trans ?_
  rw [NormalizeValue.normalize5 (V10 m ρ) c _ _ _ _ _ (at10_feat m ρ c h8) (at10_mean m ρ c h8) (at10_var m ρ c h8)
    (at10_scale m ρ c) (at10_shift m ρ c)]
  funext j
  rw [output2, mean2, variance2]
  have hreal : ∀ i, IsReal ((val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11))) i) := real_v110 _ _ _ _ _ _ _ _ h0 h1 h2 h3 h4 h5 h6
  generalize val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) = H at hreal ⊢
  show NormalizeValue.bnRelu (H j) (Ideal.div (∑ r : Fin 100000, H (ix2 r (⟨(j 1).val, (j 1).isLt⟩ : Fin 128))) (Ideal.ofBits .f32 0x47C35000#32))
      (Ideal.div (∑ r : Fin 100000, H (ix2 r (⟨(j 1).val, (j 1).isLt⟩ : Fin 128)) * H (ix2 r (⟨(j 1).val, (j 1).isLt⟩ : Fin 128))) (Ideal.ofBits .f32 0x47C35000#32)
        - Ideal.div (∑ r : Fin 100000, H (ix2 r (⟨(j 1).val, (j 1).isLt⟩ : Fin 128))) (Ideal.ofBits .f32 0x47C35000#32) * Ideal.div (∑ r : Fin 100000, H (ix2 r (⟨(j 1).val, (j 1).isLt⟩ : Fin 128))) (Ideal.ofBits .f32 0x47C35000#32))
      (shapeCast S1x128 (m ((c : Thread nD τ).loc main_arg7)) shapeCasts_S128_S1x128 (ix2 (0 : Fin 1) (⟨(j 1).val, (j 1).isLt⟩ : Fin 128)))
      (shapeCast S1x128 (m ((c : Thread nD τ).loc main_arg8)) shapeCasts_S128_S1x128 (ix2 (0 : Fin 1) (⟨(j 1).val, (j 1).isLt⟩ : Fin 128))) = _
  rw [Cert.Lib.vecToRow_apply, Cert.Lib.vecToRow_apply]
  unfold NormalizeValue.bnRelu
  exact normalized_entry_eq (n := 100000) (by norm_num) (fun r => H (ix2 r (⟨(j 1).val, (j 1).isLt⟩ : Fin 128))) (fun r => hreal _) _
    (ofBits_hundred_thousand.trans (by norm_num)) _ _ _ _ _

end Cert.KernelIdeal.Stages

end
-- ==== Proof.KernelTail.lean ====
/-
  After the last region the kernel program and the reference do the same thing on the host: pool the normalized
  features of the second layer per graph — add up the rows of each graph by its graph id, and divide by the number
  of rows of that graph, clipped below at one — and apply the final linear layer, the pooled features times the
  transposed head weight plus the head bias. So once the last region's output is the reference's second-layer
  activation, the kernel's result buffer is the reference's result, operation for operation.
-/
import proofs.«150451_j53498112639197_1_alg».proof.Proof.KernelStages

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read

variable (m : (ℓ : Loc nD τ sig) → Buf (Elt Ideal) ℓ) (ρ : Dev nD → PrngReg)

/-- The result buffer after the pooling and the linear head, given the second layer's activation at the exit of the
    last region. -/
theorem at14_v120 (c : Dev nD)
    (h11 : W11 m ρ c (Proc.devRef .tc main_v104) = val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11))) :
    W14 m ρ c (Proc.devRef .tc main_v120) = val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps6_2 (StableHlo.after hostOps6_1 (StableHlo.after hostOps6 (W11 m ρ c))) (Proc.devRef .tc main_v120) = _
  after_results_simp
  rw [h11, at11_arg12 m ρ c, at11_arg9 m ρ c, at11_arg10 m ρ c]
  rfl

end Cert.KernelIdeal.Stages

end
-- ==== Proof.FiniteInputs.lean ====
/-
  From the finiteness precondition to real inputs.

  The precondition says, for each of the eleven float arguments `x`, that `|x| < +∞` holds at every entry, the
  eleven tests joined by `and` (the two integer arguments are not tested). At the ideal values an entry is an
  extended real, `|x|` is `max x (−x)`, the word `0x7F800000` denotes `+∞` and the comparison is the strict order.
  Among the extended reals `max x (−x) < +∞` excludes exactly `x = +∞` and `x = −∞` (for `x = −∞` the maximum is
  `−x = +∞`), so every entry of every float argument is a real number.

  The conjunction of the eleven tests is read back one `and` at a time (an `and` of two bits is one exactly when
  both are), and each test, an `and`-reduction over all axes that came out one, gives the comparison at every entry.
-/
import proofs.«150451_j53498112639197_1_alg».proof.Defs
import proofs.«150451_j53498112639197_1_alg».proof.Proof.Gen.Pre_finite_inputs
import proofs.«150451_j53498112639197_1_alg».proof.Proof.LibRealCollapse
import Idealize.ShloMosaic.Lib.ReduceAll
import Idealize.ShloMosaic.Lib.ValueIdx

noncomputable section

namespace Cert.Proof.Finite

open Idealize.ShloMosaic Idealize.SL.Sem Cert.Gcn Cert.Pre_finite_inputs

/-- The rank-zero shape has one index. -/
instance : Subsingleton S_.Idx := ⟨fun a b => funext fun d => d.elim0⟩

/-- The word `0x7F800000` (exponent field all ones, fraction field zero, sign clear) denotes `+∞`. -/
theorem ofBits_inf : Ideal.ofBits .f32 0x7F800000#32 = ⊤ := by
  simp [Ideal.ofBits, Ideal.ieee]

/-- An extended real whose absolute value `max x (−x)` is below `+∞` is a real number. -/
theorem isReal_of_abs_lt_top (x : EReal) (h : max x (-x) < ⊤) : IsReal x := by
  induction x using EReal.rec with
  | bot => simp at h
  | coe r => exact ⟨r, rfl⟩
  | top => simp at h

/-- The same, with the comparison as the bit the ideal values compute and `+∞` as its word. -/
theorem isReal_of_cmp (x : EReal)
    (h : Ideal.cmp .olt (max x (-x)) (Ideal.ofBits .f32 0x7F800000#32) = 1#1) : IsReal x := by
  rw [ofBits_inf] at h
  refine isReal_of_abs_lt_top x ?_
  by_contra hn
  simp [Ideal.cmp, hn] at h

/-- One finiteness test, for an array of any shape: if the `and` over all entries of `|x| < +∞` is one, every
    entry of `x` is a real number. -/
theorem real_of_all_finite {S : Shape} {axes : List (Fin S.rank)}
    (hb : S_.BroadcastsInDim S (![] : Fin 0 → Fin S.rank)) (hred : S.ReducesTo axes S_) (hS : 0 < S_.numel)
    (x : FVec Ideal S .f32)
    (e : Host.reduce IntOp.andi (cmpf .olt (Host.absf x) (broadcastInDim S ![] hb (constant S_ .f32 0x7F800000#32)))
      (constantI S_ 1 1#1) hred hS ValueIdx.ix0 = 1#1) : ∀ i, IsReal (x i) := fun i =>
  isReal_of_cmp (x i) (Host.reduce_andi_all _ _ hred hS ValueIdx.ix0 e i)

/-- Under the precondition every entry of each of the eleven float arguments is a real number. -/
theorem real_inputs (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i, Cert.Gcn.IsReal (m ((c.tc : Thread Cert.KernelIdeal.nD Cert.KernelIdeal.τ).loc Cert.KernelIdeal.main_arg0) i))
      ∧ (∀ i, Cert.Gcn.IsReal (m ((c.tc : Thread Cert.KernelIdeal.nD Cert.KernelIdeal.τ).loc Cert.KernelIdeal.main_arg1) i))
      ∧ (∀ i, Cert.Gcn.IsReal (m ((c.tc : Thread Cert.KernelIdeal.nD Cert.KernelIdeal.τ).loc Cert.KernelIdeal.main_arg2) i))
      ∧ (∀ i, Cert.Gcn.IsReal (m ((c.tc : Thread Cert.KernelIdeal.nD Cert.KernelIdeal.τ).loc Cert.KernelIdeal.main_arg3) i))
      ∧ (∀ i, Cert.Gcn.IsReal (m ((c.tc : Thread Cert.KernelIdeal.nD Cert.KernelIdeal.τ).loc Cert.KernelIdeal.main_arg4) i))
      ∧ (∀ i, Cert.Gcn.IsReal (m ((c.tc : Thread Cert.KernelIdeal.nD Cert.KernelIdeal.τ).loc Cert.KernelIdeal.main_arg5) i))
      ∧ (∀ i, Cert.Gcn.IsReal (m ((c.tc : Thread Cert.KernelIdeal.nD Cert.KernelIdeal.τ).loc Cert.KernelIdeal.main_arg6) i))
      ∧ (∀ i, Cert.Gcn.IsReal (m ((c.tc : Thread Cert.KernelIdeal.nD Cert.KernelIdeal.τ).loc Cert.KernelIdeal.main_arg7) i))
      ∧ (∀ i, Cert.Gcn.IsReal (m ((c.tc : Thread Cert.KernelIdeal.nD Cert.KernelIdeal.τ).loc Cert.KernelIdeal.main_arg8) i))
      ∧ (∀ i, Cert.Gcn.IsReal (m ((c.tc : Thread Cert.KernelIdeal.nD Cert.KernelIdeal.τ).loc Cert.KernelIdeal.main_arg9) i))
      ∧ (∀ i, Cert.Gcn.IsReal (m ((c.tc : Thread Cert.KernelIdeal.nD Cert.KernelIdeal.τ).loc Cert.KernelIdeal.main_arg10) i)) := by
  have h := congrFun (hpre c) ValueIdx.ix0
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all_finite _ _ _ _ h0, real_of_all_finite _ _ _ _ h1, real_of_all_finite _ _ _ _ h2,
    real_of_all_finite _ _ _ _ h3, real_of_all_finite _ _ _ _ h4, real_of_all_finite _ _ _ _ h5,
    real_of_all_finite _ _ _ _ h6, real_of_all_finite _ _ _ _ h7, real_of_all_finite _ _ _ _ h8,
    real_of_all_finite _ _ _ _ h9, real_of_all_finite _ _ _ _ h10⟩

end Cert.Proof.Finite

end
-- ==== Proof.KernelValue.lean ====
/-
  The idealized kernel's result is the reference's last stage of the launch arguments. Boundary by boundary: the
  first dense region and convolution give the reference's layer-1 features; those are real numbers because the inputs
  are finite, so the kernel's moment-form batch norm gives the reference's normalized features; the second dense
  region, convolution and batch norm repeat the argument; the pooling and the linear head are the same host
  operations in both programs.
-/
import proofs.«150451_j53498112639197_1_alg».proof.Proof.KernelNormalize1
import proofs.«150451_j53498112639197_1_alg».proof.Proof.KernelStagesDeep
import proofs.«150451_j53498112639197_1_alg».proof.Proof.KernelNormalize2
import proofs.«150451_j53498112639197_1_alg».proof.Proof.KernelTail
import proofs.«150451_j53498112639197_1_alg».proof.Proof.FiniteInputs

set_option maxRecDepth 16384

noncomputable section

namespace Cert.KernelIdeal.Stages

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (ρ : Dev nD → PrngReg)

/-- Under the precondition (every float argument entrywise finite) the result buffer ends holding the reference's
    pooled, projected output of the same arguments. -/
theorem result (hpre : Cert.Pre_KernelIdeal (hPre_finite_inputs := Cert.Pre_finite_inputs.Gen.facts) m) (c : Dev nD) :
    W14 m ρ c (Proc.devRef .tc main_v120)
      = val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  obtain ⟨h0, h1, h2, h3, h4, h5, h6, _, _, _, _⟩ := Cert.Proof.Finite.real_inputs m hpre c
  have e6 := at6_normalized m ρ c h0 h1 h2
  have e7 := at7_v58 m ρ c e6
  have e8 := at8_v94 m ρ c e7
  have e11 := at11_normalized m ρ c e8 h0 h1 h2 h3 h4 h5 h6
  exact at14_v120 m ρ c e11

end Cert.KernelIdeal.Stages

end
-- ==== Proof.lean ====
/-
  The certificate of a two-layer graph convolution network with batch normalization, mean pooling per graph and a
  linear head, computed with kernel regions, against the same network written with host operations only.

  What is computed. Each layer multiplies the node features by a weight matrix, gathers the products along the
  edges, scales them by the reciprocal square roots of the two end points' degrees, accumulates them at the
  destination nodes, adds the self term and a bias, normalizes every column by its mean and variance over the
  100000 nodes with a learned scale and shift, and rectifies. After the second layer the rows of each graph are
  added up and divided by the graph's node count (at least one), and the pooled rows go through the final linear
  layer.

  Where the two programs differ. The kernel program runs the two dense products and the two batch normalizations in
  kernel regions over blocks of 5000 rows; everything else — the gathers and scatters along the edges, the pooling,
  the head — is the same sequence of host operations in both. A dense region casts its operands to a narrower float
  format and multiplies into a zero accumulator, which on the extended reals is the plain matrix product, the sum
  over the shared index in either program. The moment region adds up each column and each column of squares block by
  block, and the variance is formed as the mean of the squares minus the squared mean, where the reference takes the
  mean of the squared deviations from the mean; the normalizing region then applies
  max (scale · (h − mean) · rsqrt (variance + ε) + shift, 0) entry by entry, as the reference does.

  Why the results agree. Sums of extended reals may be regrouped freely, so the block-by-block column sums are the
  reference's sums. The two forms of the variance are equal when every entry of the column is a real number, which
  the precondition provides: all float arguments are finite, and every stage up to the layer's pre-normalization
  features is built from them by sums, products, a division by a positive count and reciprocal square roots of
  positive numbers, all of which keep real entries real. Every other operation is literally the same on both sides,
  so buffer by buffer the kernel program holds the reference's stage of the same arguments, and the result buffer
  holds the reference's result.
-/
import proofs.«150451_j53498112639197_1_alg».proof.Defs
import proofs.«150451_j53498112639197_1_alg».proof.Proof.Gen.Kernel
import proofs.«150451_j53498112639197_1_alg».proof.Proof.Gen.Kernel.Skeleton
import proofs.«150451_j53498112639197_1_alg».proof.Proof.Gen.Kernel.Launch
import proofs.«150451_j53498112639197_1_alg».proof.Proof.Gen.Kernel.Points
import proofs.«150451_j53498112639197_1_alg».proof.Proof.Gen.Kernel.Frame
import proofs.«150451_j53498112639197_1_alg».proof.Proof.Gen.KernelIdeal
import proofs.«150451_j53498112639197_1_alg».proof.Proof.Gen.KernelIdeal.Skeleton
import proofs.«150451_j53498112639197_1_alg».proof.Proof.Gen.KernelIdeal.Launch
import proofs.«150451_j53498112639197_1_alg».proof.Proof.Gen.KernelIdeal.Points
import proofs.«150451_j53498112639197_1_alg».proof.Proof.Gen.KernelIdeal.Frame
import proofs.«150451_j53498112639197_1_alg».proof.Proof.Gen.ReferenceIdeal
import proofs.«150451_j53498112639197_1_alg».proof.Proof.Gen.Pre_finite_inputs
import proofs.«150451_j53498112639197_1_alg».proof.Proof.KernelRun
import proofs.«150451_j53498112639197_1_alg».proof.Proof.KernelValue
import proofs.«150451_j53498112639197_1_alg».proof.Proof.RefImports
import proofs.«150451_j53498112639197_1_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program on the extended reals. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Passing to the extended reals rewrote nothing in the kernel program. -/
theorem preserves : Cert.preserves_Kernel_KernelIdeal := trivial

/-- On the extended reals, from finite arguments that agree, both programs end with the same result — the
    reference's last stage of the kernel program's arguments — and unchanged arguments. -/
theorem algebraic : Cert.algebraic_KernelIdeal_ReferenceIdeal := by
  intro m ρ m' ρ' hpre hagree
  refine ⟨fun c => Cert.ReferenceIdeal.Read.val_main_v152 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.Stages.result m ρ hpre c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.Read.val_main_v152_eq m' c, a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
